-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel

variable [Facts]

def fn {F : FTy → Type} [FloatOps F] (main_arg0 : FVec F S8x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  main_v3
-- ==== Kernel.lean ====
abbrev S8x2048x1024 : Shape := ⟨3, ![8, 2048, 1024]⟩
abbrev S8x1x2048 : Shape := ⟨3, ![8, 1, 2048]⟩
abbrev S1x1024x1024 : Shape := ⟨3, ![1, 1024, 1024]⟩
abbrev S1x512x1024 : Shape := ⟨3, ![1, 512, 1024]⟩
abbrev S1x1x1024 : Shape := ⟨3, ![1, 1, 1024]⟩
abbrev S1024x1 : Shape := ⟨2, ![1024, 1]⟩
abbrev S1024x1024 : Shape := ⟨2, ![1024, 1024]⟩
abbrev S512x1024 : Shape := ⟨2, ![512, 1024]⟩
abbrev S1024x512 : Shape := ⟨2, ![1024, 512]⟩
abbrev S1024 : Shape := ⟨1, ![1024]⟩
abbrev S1x1024 : Shape := ⟨2, ![1, 1024]⟩
abbrev S1x1x512 : Shape := ⟨3, ![1, 1, 512]⟩
abbrev S512x512 : Shape := ⟨2, ![512, 512]⟩
abbrev S1x512 : Shape := ⟨2, ![1, 512]⟩

abbrev nBuf : Space → Nat
  | .hbm => 3
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x1x2048, .f32⟩
  | .hbm, ⟨2, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S1024x1, .f32⟩
  | .local _ .vmem, ⟨7, _⟩ => ⟨S1024x1, .f32⟩
  | .local _ .vmem, ⟨8, _⟩ => ⟨S1x512x1024, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .f32⟩
  | .local _ .vmem, ⟨12, _⟩ => ⟨S1x1x512, .f32⟩
  | .local _ .vmem, ⟨13, _⟩ => ⟨S1x1x512, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v30 : BitVec 1 := Scalar.cmpi .eq arg2 c3_i32
  let v31 : BitVec 32 := Scalar.extui v30
  let c0_i32_18 : BitVec 32 := 0#32
  let v32 : BitVec 1 := Scalar.cmpi .ne v31 c0_i32_18
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![8, 4, 4], ![false, false, false]⟩

def k1_cond2 (i : grid1.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_14 : BitVec 32 := 0#32
  let v24 : BitVec 1 := Scalar.cmpi .ne v23 c0_i32_14
  v24

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  transposes_S512x1024_p1_0_S1024x512 : S512x1024.Transposes [1, 0] S1024x512
  reduces_S1024x512_S1024 : S1024x512.Reduces [1] S1024
  shapeCasts_S1024_S1024x1 : S1024.ShapeCasts S1024x1
  broadcasts_S1024x1_S1024x512 : S1024x1.Broadcasts S1024x512
  transposes_S1024x1_p1_0_S1x1024 : S1024x1.Transposes [1, 0] S1x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S512x512 : S1x512.Broadcasts S512x512
  bitsLt_bf16_f32 : FTy.bits .bf16 < FTy.bits .f32
  shapeCasts_S512x1024_S1x512x1024 : S512x1024.ShapeCasts S1x512x1024
  dot_S1024x1024_S1024x512_S1024x512_1_0_0_1_n_n_wf : DotDims.WF S1024x1024 S1024x512 S1024x512 [1] [0] [0] [1] [] []
  dot_S512x1024_S1024x512_S512x512_1_0_0_1_n_n_wf : DotDims.WF S512x1024 S1024x512 S512x512 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S8x2048x1024.size a
  hwx0_1 : ∀ i : grid0.Coords, EltTy.bits .f32 = 32 ∨ (Rect.block (s := S8x2048x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x2048.size a
  hwx0_2 : ∀ i : grid0.Coords, EltTy.bits .f32 = 32 ∨ (Rect.block (s := S8x1x2048) S1x1x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x2048x1024.size a
  hwx1_0 : ∀ i : grid1.Coords, EltTy.bits .f32 = 32 ∨ (Rect.block (s := S8x2048x1024) S1x512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x1024.size a ≤ S8x2048x1024.size a
  hwx1_1 : ∀ i : grid1.Coords, EltTy.bits .f32 = 32 ∨ (Rect.block (s := S8x2048x1024) S1x512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S8x1x2048.size a
  hwx1_2 : ∀ i : grid1.Coords, EltTy.bits .f32 = 32 ∨ (Rect.block (s := S8x1x2048) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S8x2048x1024.size a
  hwx1_3 : ∀ i : grid1.Coords, EltTy.bits .f32 = 32 ∨ (Rect.block (s := S8x2048x1024) S1x512x1024.size (cc1_transform_3 i) (hinb1_3 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x1x2048 : Shape := ⟨3, ![8, 1, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .f32⟩
  | .hbm, ⟨2, _⟩ => ⟨S_, .f32⟩
  | .hbm, ⟨3, _⟩ => ⟨S8x2048, .f32⟩
  | .hbm, ⟨4, _⟩ => ⟨S_, .f32⟩
  | .hbm, ⟨5, _⟩ => ⟨S8x2048, .f32⟩
  | .hbm, ⟨6, _⟩ => ⟨S8x2048, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S8x1x2048, .f32⟩
  | .hbm, ⟨14, _⟩ => ⟨S8x2048x2048, .f32⟩
  | .hbm, ⟨15, _⟩ => ⟨S8x2048x2048, .f32⟩
  | .hbm, ⟨16, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  reducesTo_S8x2048x2048_S8x2048_d1 : S8x2048x2048.ReducesTo [1] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Kernel.StatsBase.lean ====
/-
  The statistics kernel (the first of the two kernel regions): what its runs share.
  Its grid is 8 x 2 x 4: a batch, a tile of 1024 rows, and a reduction over four tiles of 512 columns.
  A point is the first of its reduction when its last coordinate is 0 and the last when it is 3; in
  position order these are the points congruent to 0 and to 3 modulo 4.  The two scratch vectors (a running
  row maximum and a running row sum) are reset at a first point, updated at every point, and read out into
  the output block at a last point; at the other points the output block is left alone.
-/
import proofs.«180204_j89017492177648_2_alg».proof.Proof.Gen.Kernel.Launch
import proofs.«180204_j89017492177648_2_alg».proof.Proof.Gen.Kernel.Skeleton
import proofs.«180204_j89017492177648_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile input's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile input's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

/-- "This is the first step of the reduction": the last grid coordinate is 0. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last step of the reduction": the last grid coordinate is 3. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from a last step the output block is idle and is not written back. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At a last step it is live. -/
theorem liveAt_2 : ∀ t : Fin cfg0.N, condLast (grid0.coords t) → cfg0.idle 2 (grid0.coords t) = false := by decide +kernel

/-! ## The memrefs the body is called with -/

abbrev VO : View sig .tc .vmem S1x1x1024 .f32 := (Memref.whole cc0_stg2_0 : Memref sig .tc .vmem S1x1x1024 .f32).view
abbrev ms_0 (t : Fin cfg0.N) : Memref sig .tc .vmem S1x1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x512x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x1024 .f32 := win0_2.stage (cfg0.slots t 2)
abbrev hs_2 (t : Fin cfg0.N) : (ms_2 t).IsWhole := hstage0_2 ((cfg0.slots t 2).cast nbuf0_2)
/-- The running maximum and the running sum: whole scratch buffers of the kernel's own. -/
abbrev scMax : Memref sig .tc .vmem S1024x1 .f32 := Memref.whole cc0_scratch0
abbrev scSum : Memref sig .tc .vmem S1024x1 .f32 := Memref.whole cc0_scratch1
abbrev VMax : View sig .tc .vmem S1024x1 .f32 := scMax.view
abbrev VSum : View sig .tc .vmem S1024x1 .f32 := scSum.view

end Cert.Kernel.Stats

end
-- ==== Proof.Kernel.StatsRunA.lean ====
/-
  The statistics kernel's body, run whole at a first step of the reduction that is not the last:
  what its stores leave in the running maximum, in the running sum, as pieces (the last store first),
  with the proof that the body runs from whole buffers to its return.
-/
import proofs.«180204_j89017492177648_2_alg».proof.Proof.Kernel.StatsBase

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, and its run:
    the two input blocks are handed back as they were, the idle output block too. -/
noncomputable def kernelRun_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i)
    (x0 : Vec F S1x1024x1024 .f32) (x1 : Vec F S1x512x1024 .f32) :
    Σ' (LS0 : List (View.Piece (Elt F) S1024x1 .f32)), { LS1 : List (View.Piece (Elt F) S1024x1 .f32) //
      ∀ (xi2 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.Kernel.Stats

end
-- ==== Proof.Kernel.StatsRunB.lean ====
/-
  The statistics kernel's body, run whole at a step of the reduction that is neither the first nor the last:
  what its stores leave in the running maximum, in the running sum, as pieces (the last store first),
  with the proof that the body runs from whole buffers to its return.
-/
import proofs.«180204_j89017492177648_2_alg».proof.Proof.Kernel.StatsRunA

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the two scratch vectors (\`xs0\`, \`xs1\`), and its run:
    the two input blocks are handed back as they were, the idle output block too. -/
noncomputable def kernelRun_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i)
    (x0 : Vec F S1x1024x1024 .f32) (x1 : Vec F S1x512x1024 .f32) (xs0 : Vec F S1024x1 .f32) (xs1 : Vec F S1024x1 .f32) :
    Σ' (LS0 : List (View.Piece (Elt F) S1024x1 .f32)), { LS1 : List (View.Piece (Elt F) S1024x1 .f32) //
      ∀ (xi2 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.Kernel.Stats

end
-- ==== Proof.Kernel.StatsRunC.lean ====
/-
  The statistics kernel's body, run whole at a last step of the reduction (which is not a first one):
  what its stores leave in the running maximum, in the running sum and in the output block, as pieces (the last store first),
  with the proof that the body runs from whole buffers to its return.
-/
import proofs.«180204_j89017492177648_2_alg».proof.Proof.Kernel.StatsRunB

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the two scratch vectors (\`xs0\`, \`xs1\`), and its run:
    the two input blocks are handed back as they were. -/
noncomputable def kernelRun_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i)
    (x0 : Vec F S1x1024x1024 .f32) (x1 : Vec F S1x512x1024 .f32) (xs0 : Vec F S1024x1 .f32) (xs1 : Vec F S1024x1 .f32) :
    Σ' (L2 : List (View.Piece (Elt F) S1x1x1024 .f32)) (LS0 : List (View.Piece (Elt F) S1024x1 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexists _; iexact HS1

end Cert.Kernel.Stats

end
-- ==== Proof.Kernel.StatsFrame.lean ====
/-
  The statistics kernel: what the output block and the two scratch vectors hold after each point of the grid,
  the proof data of its pipeline, and the body obligation at every point.
-/
import proofs.«180204_j89017492177648_2_alg».proof.Proof.Kernel.StatsRunC

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces for the running maximum cover it. -/
theorem coverMax_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) (y : S1024x1.Idx) :
    ∃ pc ∈ (kernelRun_A c i arg3 harg3 arg4 harg4 arg5 harg5 arg6 harg6 arg7 harg7 hc0 hc1 x0 x1).1, y ∈ pc.1.set :=
  View.cover_of_tiledL (kernelRun_A c i arg3 harg3 arg4 harg4 arg5 harg5 arg6 harg6 arg7 harg7 hc0 hc1 x0 x1).1 S1024x1.size (by sl_kernel_rfl) y
/-- What the step leaves in the running maximum. -/
def smax_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) : Vec F S1024x1 .f32 :=
  VMax.read (Elt F) (VMax.writes (Elt F) VMax.junk (kernelRun_A c i arg3 harg3 arg4 harg4 arg5 harg5 arg6 harg6 arg7 harg7 hc0 hc1 x0 x1).1)
/-- The pieces for the running sum cover it. -/
theorem coverSum_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) (y : S1024x1.Idx) :
    ∃ pc ∈ (kernelRun_A c i arg3 harg3 arg4 harg4 arg5 harg5 arg6 harg6 arg7 harg7 hc0 hc1 x0 x1).2.1, y ∈ pc.1.set :=
  View.cover_of_tiledL (kernelRun_A c i arg3 harg3 arg4 harg4 arg5 harg5 arg6 harg6 arg7 harg7 hc0 hc1 x0 x1).2.1 S1024x1.size (by sl_kernel_rfl) y
/-- What the step leaves in the running sum. -/
def ssum_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) : Vec F S1024x1 .f32 :=
  VSum.read (Elt F) (VSum.writes (Elt F) VSum.junk (kernelRun_A c i arg3 harg3 arg4 harg4 arg5 harg5 arg6 harg6 arg7 harg7 hc0 hc1 x0 x1).2.1)

/-- The pieces for the running maximum cover it. -/
theorem coverMax_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) (y : S1024x1.Idx) :
    ∃ pc ∈ (kernelRun_B c i arg3 harg3 arg4 harg4 arg5 harg5 arg6 harg6 arg7 harg7 hc0 hc1 x0 x1 xs0 xs1).1, y ∈ pc.1.set :=
  View.cover_of_tiledL (kernelRun_B c i arg3 harg3 arg4 harg4 arg5 harg5 arg6 harg6 arg7 harg7 hc0 hc1 x0 x1 xs0 xs1).1 S1024x1.size (by sl_kernel_rfl) y
/-- What the step leaves in the running maximum. -/
def smax_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) : Vec F S1024x1 .f32 :=
  VMax.read (Elt F) (VMax.writes (Elt F) VMax.junk (kernelRun_B c i arg3 harg3 arg4 harg4 arg5 harg5 arg6 harg6 arg7 harg7 hc0 hc1 x0 x1 xs0 xs1).1)
/-- The pieces for the running sum cover it. -/
theorem coverSum_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) (y : S1024x1.Idx) :
    ∃ pc ∈ (kernelRun_B c i arg3 harg3 arg4 harg4 arg5 harg5 arg6 harg6 arg7 harg7 hc0 hc1 x0 x1 xs0 xs1).2.1, y ∈ pc.1.set :=
  View.cover_of_tiledL (kernelRun_B c i arg3 harg3 arg4 harg4 arg5 harg5 arg6 harg6 arg7 harg7 hc0 hc1 x0 x1 xs0 xs1).2.1 S1024x1.size (by sl_kernel_rfl) y
/-- What the step leaves in the running sum. -/
def ssum_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) : Vec F S1024x1 .f32 :=
  VSum.read (Elt F) (VSum.writes (Elt F) VSum.junk (kernelRun_B c i arg3 harg3 arg4 harg4 arg5 harg5 arg6 harg6 arg7 harg7 hc0 hc1 x0 x1 xs0 xs1).2.1)

/-- The pieces for the running maximum cover it. -/
theorem coverMax_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) (y : S1024x1.Idx) :
    ∃ pc ∈ (kernelRun_C c i arg3 harg3 arg4 harg4 arg5 harg5 arg6 harg6 arg7 harg7 hc0 hc1 x0 x1 xs0 xs1).2.1, y ∈ pc.1.set :=
  View.cover_of_tiledL (kernelRun_C c i arg3 harg3 arg4 harg4 arg5 harg5 arg6 harg6 arg7 harg7 hc0 hc1 x0 x1 xs0 xs1).2.1 S1024x1.size (by sl_kernel_rfl) y
/-- What the step leaves in the running maximum. -/
def smax_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) : Vec F S1024x1 .f32 :=
  VMax.read (Elt F) (VMax.writes (Elt F) VMax.junk (kernelRun_C c i arg3 harg3 arg4 harg4 arg5 harg5 arg6 harg6 arg7 harg7 hc0 hc1 x0 x1 xs0 xs1).2.1)
/-- The pieces for the running sum cover it. -/
theorem coverSum_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) (y : S1024x1.Idx) :
    ∃ pc ∈ (kernelRun_C c i arg3 harg3 arg4 harg4 arg5 harg5 arg6 harg6 arg7 harg7 hc0 hc1 x0 x1 xs0 xs1).2.2.1, y ∈ pc.1.set :=
  View.cover_of_tiledL (kernelRun_C c i arg3 harg3 arg4 harg4 arg5 harg5 arg6 harg6 arg7 harg7 hc0 hc1 x0 x1 xs0 xs1).2.2.1 S1024x1.size (by sl_kernel_rfl) y
/-- What the step leaves in the running sum. -/
def ssum_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) : Vec F S1024x1 .f32 :=
  VSum.read (Elt F) (VSum.writes (Elt F) VSum.junk (kernelRun_C c i arg3 harg3 arg4 harg4 arg5 harg5 arg6 harg6 arg7 harg7 hc0 hc1 x0 x1 xs0 xs1).2.2.1)
/-- The pieces for the output block cover it. -/
theorem coverOut_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) (y : S1x1x1024.Idx) :
    ∃ pc ∈ (kernelRun_C c i arg3 harg3 arg4 harg4 arg5 harg5 arg6 harg6 arg7 harg7 hc0 hc1 x0 x1 xs0 xs1).1, y ∈ pc.1.set :=
  View.cover_of_tiledL (kernelRun_C c i arg3 harg3 arg4 harg4 arg5 harg5 arg6 harg6 arg7 harg7 hc0 hc1 x0 x1 xs0 xs1).1 S1x1x1024.size (by sl_kernel_rfl) y
/-- What the last step leaves in the output block. -/
def out_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) : Vec F S1x1x1024 .f32 :=
  VO.read (Elt F) (VO.writes (Elt F) VO.junk (kernelRun_C c i arg3 harg3 arg4 harg4 arg5 harg5 arg6 harg6 arg7 harg7 hc0 hc1 x0 x1 xs0 xs1).1)

/-- The output block where the kernel does not store into it: a placeholder nothing reads. -/
def outIdle : Vec F S1x1x1024 .f32 := VO.read (Elt F) (VO.writes (Elt F) VO.junk [])

/-! ## Point by point -/

/-- What the output block, the running maximum and the running sum hold after the body at position `n`. -/
def outsAt (c : Dev nD) : (n : ℕ) → n < cfg0.N → Vec F S1x1x1024 .f32 × Vec F S1024x1 .f32 × Vec F S1024x1 .f32
  | 0, hn => (outIdle,
      smax_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scMax (Memref.isWhole_whole _) scSum (Memref.isWhole_whole _) ((hcondFirst ⟨0, hn⟩).mpr (Nat.zero_mod _)) (fun h => absurd ((hcondLast ⟨0, hn⟩).mp h) (by dsimp only; omega)) (iblk V c 0 ⟨0, hn⟩) (iblk V c 1 ⟨0, hn⟩),
      ssum_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scMax (Memref.isWhole_whole _) scSum (Memref.isWhole_whole _) ((hcondFirst ⟨0, hn⟩).mpr (Nat.zero_mod _)) (fun h => absurd ((hcondLast ⟨0, hn⟩).mp h) (by dsimp only; omega)) (iblk V c 0 ⟨0, hn⟩) (iblk V c 1 ⟨0, hn⟩))
  | n + 1, hn =>
    if h0 : (n + 1) % 4 = 0 then
      (outIdle,
        smax_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) ((hcondFirst ⟨n + 1, hn⟩).mpr h0) (fun h => absurd ((hcondLast ⟨n + 1, hn⟩).mp h) (by dsimp only; omega)) (iblk V c 0 ⟨n + 1, hn⟩) (iblk V c 1 ⟨n + 1, hn⟩),
        ssum_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) ((hcondFirst ⟨n + 1, hn⟩).mpr h0) (fun h => absurd ((hcondLast ⟨n + 1, hn⟩).mp h) (by dsimp only; omega)) (iblk V c 0 ⟨n + 1, hn⟩) (iblk V c 1 ⟨n + 1, hn⟩))
    else if h1 : (n + 1) % 4 = 3 then
      (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        smax_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        ssum_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2)
    else
      (outIdle,
        smax_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2,
        ssum_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2)

/-- The step before point `t` (for `t` not the first). -/
abbrev prev (t : Fin cfg0.N) : t.val - 1 < cfg0.N := Nat.lt_of_le_of_lt (Nat.sub_le _ _) t.isLt

theorem outsAt_A (c : Dev nD) (t : Fin cfg0.N) (h0 : t.val % 4 = 0) (h1 : ¬t.val % 4 = 3) :
    outsAt V c t.val t.isLt = (outIdle,
      smax_A c (grid0.coords t) (ms_0 t) (hs_0 t) (ms_1 t) (hs_1 t) (ms_2 t) (hs_2 t) scMax (Memref.isWhole_whole _) scSum (Memref.isWhole_whole _) ((hcondFirst t).mpr h0) (fun h => h1 ((hcondLast t).mp h)) (iblk V c 0 t) (iblk V c 1 t),
      ssum_A c (grid0.coords t) (ms_0 t) (hs_0 t) (ms_1 t) (hs_1 t) (ms_2 t) (hs_2 t) scMax (Memref.isWhole_whole _) scSum (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans rfl

theorem outsAt_B (c : Dev nD) (t : Fin cfg0.N) (h0 : ¬t.val % 4 = 0) (h1 : ¬t.val % 4 = 3) :
    outsAt V c t.val t.isLt = (outIdle,
      smax_B c (grid0.coords t) (ms_0 t) (hs_0 t) (ms_1 t) (hs_1 t) (ms_2 t) (hs_2 t) scMax (Memref.isWhole_whole _) scSum (Memref.isWhole_whole _) (fun h => h0 ((hcondFirst t).mp h)) (fun h => h1 ((hcondLast t).mp h)) (iblk V c 0 t) (iblk V c 1 t) (outsAt V c (t.val - 1) (prev t)).2.1 (outsAt V c (t.val - 1) (prev t)).2.2,
      ssum_B c (grid0.coords t) (ms_0 t) (hs_0 t) (ms_1 t) (hs_1 t) (ms_2 t) (hs_2 t) scMax (Memref.isWhole_whole _) scSum (Memref.isWhole_whole _) (fun h => h0 ((hcondFirst t).mp h)) (fun h => h1 ((hcondLast t).mp h)) (iblk V c 0 t) (iblk V c 1 t) (outsAt V c (t.val - 1) (prev t)).2.1 (outsAt V c (t.val - 1) (prev t)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (
      out_C c (grid0.coords t) (ms_0 t) (hs_0 t) (ms_1 t) (hs_1 t) (ms_2 t) (hs_2 t) scMax (Memref.isWhole_whole _) scSum (Memref.isWhole_whole _) (fun h => h0 ((hcondFirst t).mp h)) ((hcondLast t).mpr h1) (iblk V c 0 t) (iblk V c 1 t) (outsAt V c (t.val - 1) (prev t)).2.1 (outsAt V c (t.val - 1) (prev t)).2.2,
      smax_C c (grid0.coords t) (ms_0 t) (hs_0 t) (ms_1 t) (hs_1 t) (ms_2 t) (hs_2 t) scMax (Memref.isWhole_whole _) scSum (Memref.isWhole_whole _) (fun h => h0 ((hcondFirst t).mp h)) ((hcondLast t).mpr h1) (iblk V c 0 t) (iblk V c 1 t) (outsAt V c (t.val - 1) (prev t)).2.1 (outsAt V c (t.val - 1) (prev t)).2.2,
      ssum_C c (grid0.coords t) (ms_0 t) (hs_0 t) (ms_1 t) (hs_1 t) (ms_2 t) (hs_2 t) scMax (Memref.isWhole_whole _) scSum (Memref.isWhole_whole _) (fun h => h0 ((hcondFirst t).mp h)) ((hcondLast t).mpr h1) (iblk V c 0 t) (iblk V c 1 t) (outsAt V c (t.val - 1) (prev t)).2.1 (outsAt V c (t.val - 1) (prev t)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Every scoped buffer of the core that is neither a staging buffer of this kernel nor one of its two scratch vectors. -/
abbrev RestBut (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch vectors split out, each at some contents. -/
theorem PhiA_eq (c : Dev nD) :
    (Pipeline.ΦA spec0 c : sProp 𝕄)
      = iprop(iprop(iprop((∃ d, owns (c : Thread nD τ) scMax fullShare d) ∗ (∃ d, owns (c : Thread nD τ) scSum fullShare d)) ∗ RestBut c) ∗ (∃ r, prngReg c r)) := by
  unfold Pipeline.ΦA
  rw [Pipeline.scopedRest_split_of_list spec0 c [cc0_scratch0, cc0_scratch1] (by decide) (by decide)]
  simp only [bigSepL_cons_cons, bigSepL_singleton, scMax, scSum, owns_whole]; try rfl

/-- Before the first point the class invariant; afterwards the two scratch vectors at what the point before left. -/
def PhiS (c : Dev nD) : (n : ℕ) → n ≤ cfg0.N → sProp 𝕄
  | 0, _ => Pipeline.ΦA spec0 c
  | n + 1, hn => iprop(iprop(iprop(owns (c : Thread nD τ) scMax fullShare ((outsAt V c n hn).2.1) ∗ owns (c : Thread nD τ) scSum fullShare ((outsAt V c n hn).2.2)) ∗ RestBut c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scMax fullShare ((outsAt V c n hn).2.1) ∗ owns (c : Thread nD τ) scSum fullShare ((outsAt V c n hn).2.2)) ∗ RestBut c) ∗ (∃ r, prngReg c r)) := rfl

theorem PhiS_pos (c : Dev nD) (n : ℕ) (h : n ≤ cfg0.N) (hz : n ≠ 0) :
    PhiS V c n h = iprop(iprop(iprop(owns (c : Thread nD τ) scMax fullShare ((outsAt V c (n - 1) (by omega)).2.1) ∗ owns (c : Thread nD τ) scSum fullShare ((outsAt V c (n - 1) (by omega)).2.2)) ∗ RestBut c) ∗ (∃ r, prngReg c r)) := by
  cases n with
  | zero => exact absurd rfl hz
  | succ n => rfl

/-! ## The proof data -/

/-- The proof data of the statistics pipeline on core `c`: the two input windows read the same array, each
    at half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 8000000 in
/-- The body at any point: which case the point is in is read off its position; the scratch vectors come in at what
    the point before left (at anything at the very first point) and go out at what this point leaves. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
      unfold Dat.leavesExact; rw [liveAt_0 t], after_0]
  rw [show (dat V c).leavesExact 1 t = owns (c : Thread nD τ) (ms_1 t) fullShare ((dat V c).after 1 t) from by
      unfold Dat.leavesExact; rw [liveAt_1 t], after_1]
  by_cases h0 : t.val % 4 = 0
  · have h1 : ¬t.val % 4 = 3 := by omega
    rw [Dat.leavesExact_idle (dat V c) 2 t (idleAt_2 t (fun h => h1 ((hcondLast t).mp h))) (noFlush_2 t (fun h => h1 ((hcondLast t).mp h)))]
    rw [outsAt_A V c t h0 h1]
    unfold smax_A ssum_A; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩⟩
      iapply ((kernelRun_A c (grid0.coords t) _ _ _ _ _ _ _ _ _ _ ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_A c _ _ _ _ _ _ _ _ _ _ _ _ _ _ _)
            · unfold owns; iexists _; isplitr
              swap; · iexact HS1
              ipureintro; exact View.read_writes_of_cover _ _ _ _ _ (coverSum_A c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨⟨HS0, HS1⟩, HR⟩, Hg⟩, Ho, ⟨%d0, H0⟩, ⟨%d1, H1⟩, ⟨%d2, H2⟩⟩
      iapply ((kernelRun_A c (grid0.coords t) _ _ _ _ _ _ _ _ _ _ ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_A c _ _ _ _ _ _ _ _ _ _ _ _ _ _ _)
            · unfold owns; iexists _; isplitr
              swap; · iexact HS1
              ipureintro; exact View.read_writes_of_cover _ _ _ _ _ (coverSum_A c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat V c).leavesExact 2 t = owns (c : Thread nD τ) (ms_2 t) fullShare ((dat V c).after 2 t) from by
        unfold Dat.leavesExact; rw [liveAt_2 t ((hcondLast t).mpr h1)], after_2]
      rw [outsAt_C V c t h0 h1]
      unfold out_C smax_C ssum_C; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩⟩
      iapply ((kernelRun_C c (grid0.coords t) _ _ _ _ _ _ _ _ _ _ (fun h => h0 ((hcondFirst t).mp h)) ((hcondLast t).mpr h1) (iblk V c 0 t) (iblk V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_C c _ _ _ _ _ _ _ _ _ _ _ _ _ _ _ _ _)
            · unfold owns; iexists _; isplitr
              swap; · iexact HS1
              ipureintro; exact View.read_writes_of_cover _ _ _ _ _ (coverSum_C c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut_C c _ _ _ _ _ _ _ _ _ _ _ _ _ _ _ _ _)
    · rw [Dat.leavesExact_idle (dat V c) 2 t (idleAt_2 t (fun h => h1 ((hcondLast t).mp h))) (noFlush_2 t (fun h => h1 ((hcondLast t).mp h)))]
      rw [outsAt_B V c t h0 h1]
      unfold smax_B ssum_B; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩⟩
      iapply ((kernelRun_B c (grid0.coords t) _ _ _ _ _ _ _ _ _ _ (fun h => h0 ((hcondFirst t).mp h)) (fun h => h1 ((hcondLast t).mp h)) (iblk V c 0 t) (iblk V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_B c _ _ _ _ _ _ _ _ _ _ _ _ _ _ _ _ _)
            · unfold owns; iexists _; isplitr
              swap; · iexact HS1
              ipureintro; exact View.read_writes_of_cover _ _ _ _ _ (coverSum_B c _ _ _ _ _ _ _ _ _ _ _ _ _ _ _ _ _)
          iexact HR
        iexact Hg
      isplitl [Ho]; · iexact Ho
      isplitl [H0]; · iexact H0
      isplitl [H1]; · iexact H1
      iexists _; iexact H2

/-- The body obligation of the statistics pipeline, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the scratch contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout (c : Dev nD) : (dat V c).Φ (Fin.last cfg0.N) ⊢ Pipeline.ΦA spec0 c :=
  Phi_out V c _ (by rw [Fin.val_last]; have : cfg0.N = 64 := N_0; omega)

end Cert.Kernel.Stats

end
-- ==== Proof.Kernel.OutBase.lean ====
/-
  The output kernel (the second of the two kernel regions): what its runs share.
  Its grid is 8 x 4 x 4: a batch, a tile of 512 output rows, and a reduction over four tiles of 512 columns.
  The accumulator (a scratch block of 512 x 1024) is reset at a first step of the reduction, added to at
  every step, and copied into the output block at a last step; at the other steps the output block is left alone.
-/
import proofs.«180204_j89017492177648_2_alg».proof.Proof.Gen.Kernel.Launch
import proofs.«180204_j89017492177648_2_alg».proof.Proof.Gen.Kernel.Skeleton
import proofs.«180204_j89017492177648_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)

abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem idleAt_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
theorem liveAt_3 : ∀ t : Fin cfg1.N, condLast (grid1.coords t) → cfg1.idle 3 (grid1.coords t) = false := by decide +kernel

/-! ## The memrefs the body is called with -/

abbrev VO : View sig .tc .vmem S1x512x1024 .f32 := (Memref.whole cc1_stg3_0 : Memref sig .tc .vmem S1x512x1024 .f32).view
abbrev ms_0 (t : Fin cfg1.N) : Memref sig .tc .vmem S1x512x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x512x1024 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512x1024 .f32 := win1_3.stage (cfg1.slots t 3)
abbrev hs_3 (t : Fin cfg1.N) : (ms_3 t).IsWhole := hstage1_3 ((cfg1.slots t 3).cast nbuf1_3)
/-- The accumulator: a whole scratch buffer of the kernel's own. -/
abbrev scAcc : Memref sig .tc .vmem S512x1024 .f32 := Memref.whole cc1_scratch0
abbrev VAcc : View sig .tc .vmem S512x1024 .f32 := scAcc.view

end Cert.Kernel.Out

end
-- ==== Proof.Kernel.OutRunA.lean ====
/-
  The output kernel's body, run whole at a first step of the reduction that is not the last:
  what its stores leave in the accumulator, as pieces (the last store first),
  with the proof that the body runs from whole buffers to its return.
-/
import proofs.«180204_j89017492177648_2_alg».proof.Proof.Kernel.OutBase

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, and its run:
    the three input blocks are handed back as they were, the idle output block too. -/
noncomputable def kernelRun_A (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i)
    (x0 : Vec F S1x512x1024 .f32) (x1 : Vec F S1x512x1024 .f32) (x2 : Vec F S1x1x512 .f32) :
    { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg3 harg3 arg4 harg4 arg5 harg5 arg6 harg6 arg7 harg7) K } := by
  refine ⟨?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Out

end
-- ==== Proof.Kernel.OutRunB.lean ====
/-
  The output kernel's body, run whole at a step of the reduction that is neither the first nor the last:
  what its stores leave in the accumulator, as pieces (the last store first),
  with the proof that the body runs from whole buffers to its return.
-/
import proofs.«180204_j89017492177648_2_alg».proof.Proof.Kernel.OutRunA

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the accumulator (\`xs0\`), and its run:
    the three input blocks are handed back as they were, the idle output block too. -/
noncomputable def kernelRun_B (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i)
    (x0 : Vec F S1x512x1024 .f32) (x1 : Vec F S1x512x1024 .f32) (x2 : Vec F S1x1x512 .f32) (xs0 : Vec F S512x1024 .f32) :
    { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg3 harg3 arg4 harg4 arg5 harg5 arg6 harg6 arg7 harg7) K } := by
  refine ⟨?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Out

end
-- ==== Proof.Kernel.OutRunC.lean ====
/-
  The output kernel's body, run whole at a last step of the reduction (which is not a first one):
  what its stores leave in the accumulator and in the output block, as pieces (the last store first),
  with the proof that the body runs from whole buffers to its return.
-/
import proofs.«180204_j89017492177648_2_alg».proof.Proof.Kernel.OutRunB

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the accumulator (\`xs0\`), and its run:
    the three input blocks are handed back as they were. -/
noncomputable def kernelRun_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i)
    (x0 : Vec F S1x512x1024 .f32) (x1 : Vec F S1x512x1024 .f32) (x2 : Vec F S1x1x512 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg3 harg3 arg4 harg4 arg5 harg5 arg6 harg6 arg7 harg7) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Out

end
-- ==== Proof.Kernel.OutFrame.lean ====
/-
  The output kernel: what the output block and the accumulator hold after each point of the grid,
  the proof data of its pipeline, and the body obligation at every point.
-/
import proofs.«180204_j89017492177648_2_alg».proof.Proof.Kernel.OutRunC

set_option maxRecDepth 16384

noncomputable section

namespace Cert.Kernel.Out

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces for the accumulator cover it. -/
theorem coverAcc_A (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i) (x0 : Vec F S1x512x1024 .f32) (x1 : Vec F S1x512x1024 .f32) (x2 : Vec F S1x1x512 .f32) (y : S512x1024.Idx) :
    ∃ pc ∈ (kernelRun_A c i arg3 harg3 arg4 harg4 arg5 harg5 arg6 harg6 arg7 harg7 hc0 hc1 x0 x1 x2).1, y ∈ pc.1.set :=
  View.cover_of_tiledL (kernelRun_A c i arg3 harg3 arg4 harg4 arg5 harg5 arg6 harg6 arg7 harg7 hc0 hc1 x0 x1 x2).1 S512x1024.size (by sl_kernel_rfl) y
/-- What the step leaves in the accumulator. -/
def sacc_A (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i) (x0 : Vec F S1x512x1024 .f32) (x1 : Vec F S1x512x1024 .f32) (x2 : Vec F S1x1x512 .f32) : Vec F S512x1024 .f32 :=
  VAcc.read (Elt F) (VAcc.writes (Elt F) VAcc.junk (kernelRun_A c i arg3 harg3 arg4 harg4 arg5 harg5 arg6 harg6 arg7 harg7 hc0 hc1 x0 x1 x2).1)

/-- The pieces for the accumulator cover it. -/
theorem coverAcc_B (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i) (x0 : Vec F S1x512x1024 .f32) (x1 : Vec F S1x512x1024 .f32) (x2 : Vec F S1x1x512 .f32) (xs0 : Vec F S512x1024 .f32) (y : S512x1024.Idx) :
    ∃ pc ∈ (kernelRun_B c i arg3 harg3 arg4 harg4 arg5 harg5 arg6 harg6 arg7 harg7 hc0 hc1 x0 x1 x2 xs0).1, y ∈ pc.1.set :=
  View.cover_of_tiledL (kernelRun_B c i arg3 harg3 arg4 harg4 arg5 harg5 arg6 harg6 arg7 harg7 hc0 hc1 x0 x1 x2 xs0).1 S512x1024.size (by sl_kernel_rfl) y
/-- What the step leaves in the accumulator. -/
def sacc_B (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i) (x0 : Vec F S1x512x1024 .f32) (x1 : Vec F S1x512x1024 .f32) (x2 : Vec F S1x1x512 .f32) (xs0 : Vec F S512x1024 .f32) : Vec F S512x1024 .f32 :=
  VAcc.read (Elt F) (VAcc.writes (Elt F) VAcc.junk (kernelRun_B c i arg3 harg3 arg4 harg4 arg5 harg5 arg6 harg6 arg7 harg7 hc0 hc1 x0 x1 x2 xs0).1)

/-- The pieces for the accumulator cover it. -/
theorem coverAcc_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) (y : S512x1024.Idx) :
    ∃ pc ∈ (kernelRun_C c i arg3 harg3 arg4 harg4 arg5 harg5 arg6 harg6 arg7 harg7 hc0 hc1 x0 x1 x2 xs0).2.1, y ∈ pc.1.set :=
  View.cover_of_tiledL (kernelRun_C c i arg3 harg3 arg4 harg4 arg5 harg5 arg6 harg6 arg7 harg7 hc0 hc1 x0 x1 x2 xs0).2.1 S512x1024.size (by sl_kernel_rfl) y
/-- What the step leaves in the accumulator. -/
def sacc_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) : Vec F S512x1024 .f32 :=
  VAcc.read (Elt F) (VAcc.writes (Elt F) VAcc.junk (kernelRun_C c i arg3 harg3 arg4 harg4 arg5 harg5 arg6 harg6 arg7 harg7 hc0 hc1 x0 x1 x2 xs0).2.1)
/-- The pieces for the output block cover it. -/
theorem coverOut_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) (y : S1x512x1024.Idx) :
    ∃ pc ∈ (kernelRun_C c i arg3 harg3 arg4 harg4 arg5 harg5 arg6 harg6 arg7 harg7 hc0 hc1 x0 x1 x2 xs0).1, y ∈ pc.1.set :=
  View.cover_of_tiledL (kernelRun_C c i arg3 harg3 arg4 harg4 arg5 harg5 arg6 harg6 arg7 harg7 hc0 hc1 x0 x1 x2 xs0).1 S1x512x1024.size (by sl_kernel_rfl) y
/-- What the last step leaves in the output block. -/
def out_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) : Vec F S1x512x1024 .f32 :=
  VO.read (Elt F) (VO.writes (Elt F) VO.junk (kernelRun_C c i arg3 harg3 arg4 harg4 arg5 harg5 arg6 harg6 arg7 harg7 hc0 hc1 x0 x1 x2 xs0).1)

/-- The output block where the kernel does not store into it: a placeholder nothing reads. -/
def outIdle : Vec F S1x512x1024 .f32 := VO.read (Elt F) (VO.writes (Elt F) VO.junk [])

/-! ## Point by point -/

/-- What the output block and the accumulator hold after the body at position `n`. -/
def outsAt (c : Dev nD) : (n : ℕ) → n < cfg1.N → Vec F S1x512x1024 .f32 × Vec F S512x1024 .f32
  | 0, hn => (outIdle,
      sacc_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scAcc (Memref.isWhole_whole _) ((hcondFirst ⟨0, hn⟩).mpr (Nat.zero_mod _)) (fun h => absurd ((hcondLast ⟨0, hn⟩).mp h) (by dsimp only; omega)) (iblk V c 0 ⟨0, hn⟩) (iblk V c 1 ⟨0, hn⟩) (iblk V c 2 ⟨0, hn⟩))
  | n + 1, hn =>
    if h0 : (n + 1) % 4 = 0 then
      (outIdle,
        sacc_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) ((hcondFirst ⟨n + 1, hn⟩).mpr h0) (fun h => absurd ((hcondLast ⟨n + 1, hn⟩).mp h) (by dsimp only; omega)) (iblk V c 0 ⟨n + 1, hn⟩) (iblk V c 1 ⟨n + 1, hn⟩) (iblk V c 2 ⟨n + 1, hn⟩))
    else if h1 : (n + 1) % 4 = 3 then
      (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
        sacc_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
    else
      (outIdle,
        sacc_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

abbrev prev (t : Fin cfg1.N) : t.val - 1 < cfg1.N := Nat.lt_of_le_of_lt (Nat.sub_le _ _) t.isLt

theorem outsAt_A (c : Dev nD) (t : Fin cfg1.N) (h0 : t.val % 4 = 0) (h1 : ¬t.val % 4 = 3) :
    outsAt V c t.val t.isLt = (outIdle,
      sacc_A c (grid1.coords t) (ms_0 t) (hs_0 t) (ms_1 t) (hs_1 t) (ms_2 t) (hs_2 t) (ms_3 t) (hs_3 t) scAcc (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans rfl

theorem outsAt_B (c : Dev nD) (t : Fin cfg1.N) (h0 : ¬t.val % 4 = 0) (h1 : ¬t.val % 4 = 3) :
    outsAt V c t.val t.isLt = (outIdle,
      sacc_B c (grid1.coords t) (ms_0 t) (hs_0 t) (ms_1 t) (hs_1 t) (ms_2 t) (hs_2 t) (ms_3 t) (hs_3 t) scAcc (Memref.isWhole_whole _) (fun h => h0 ((hcondFirst t).mp h)) (fun h => h1 ((hcondLast t).mp h)) (iblk V c 0 t) (iblk V c 1 t) (iblk V c 2 t) (outsAt V c (t.val - 1) (prev t)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (
      out_C c (grid1.coords t) (ms_0 t) (hs_0 t) (ms_1 t) (hs_1 t) (ms_2 t) (hs_2 t) (ms_3 t) (hs_3 t) scAcc (Memref.isWhole_whole _) (fun h => h0 ((hcondFirst t).mp h)) ((hcondLast t).mpr h1) (iblk V c 0 t) (iblk V c 1 t) (iblk V c 2 t) (outsAt V c (t.val - 1) (prev t)).2,
      sacc_C c (grid1.coords t) (ms_0 t) (hs_0 t) (ms_1 t) (hs_1 t) (ms_2 t) (hs_2 t) (ms_3 t) (hs_3 t) scAcc (Memref.isWhole_whole _) (fun h => h0 ((hcondFirst t).mp h)) ((hcondLast t).mpr h1) (iblk V c 0 t) (iblk V c 1 t) (iblk V c 2 t) (outsAt V c (t.val - 1) (prev t)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Every scoped buffer of the core that is neither a staging buffer of this kernel nor its accumulator. -/
abbrev RestBut (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(iprop((∃ d, owns (c : Thread nD τ) scAcc fullShare d) ∗ RestBut c) ∗ (∃ r, prngReg c r)) := by
  unfold Pipeline.ΦA
  rw [Pipeline.scopedRest_split_of_list spec1 c [cc1_scratch0] (by decide) (by decide)]
  simp only [bigSepL_singleton, scAcc, owns_whole]; try rfl

def PhiS (c : Dev nD) : (n : ℕ) → n ≤ cfg1.N → sProp 𝕄
  | 0, _ => Pipeline.ΦA spec1 c
  | n + 1, hn => iprop(iprop(owns (c : Thread nD τ) scAcc fullShare ((outsAt V c n hn).2) ∗ RestBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scAcc fullShare ((outsAt V c n hn).2) ∗ RestBut c) ∗ (∃ r, prngReg c r)) := rfl

theorem PhiS_pos (c : Dev nD) (n : ℕ) (h : n ≤ cfg1.N) (hz : n ≠ 0) :
    PhiS V c n h = iprop(iprop(owns (c : Thread nD τ) scAcc fullShare ((outsAt V c (n - 1) (by omega)).2) ∗ RestBut c) ∗ (∃ r, prngReg c r)) := by
  cases n with
  | zero => exact absurd rfl hz
  | succ n => rfl

/-! ## The proof data -/

/-- The proof data of the output pipeline on core `c`: the two windows on the input array hold half of it each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: which case the point is in is read off its position; the accumulator comes in at what
    the point before left (at anything at the very first point) and goes out at what this point leaves. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
      unfold Dat.leavesExact; rw [liveAt_0 t], after_0]
  rw [show (dat V c).leavesExact 1 t = owns (c : Thread nD τ) (ms_1 t) fullShare ((dat V c).after 1 t) from by
      unfold Dat.leavesExact; rw [liveAt_1 t], after_1]
  rw [show (dat V c).leavesExact 2 t = owns (c : Thread nD τ) (ms_2 t) fullShare ((dat V c).after 2 t) from by
      unfold Dat.leavesExact; rw [liveAt_2 t], after_2]
  by_cases h0 : t.val % 4 = 0
  · have h1 : ¬t.val % 4 = 3 := by omega
    rw [Dat.leavesExact_idle (dat V c) 3 t (idleAt_3 t (fun h => h1 ((hcondLast t).mp h))) (noFlush_3 t (fun h => h1 ((hcondLast t).mp h)))]
    rw [outsAt_A V c t h0 h1]
    unfold sacc_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩, ⟨%d3, H3⟩⟩
      iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_A c _ _ _ _ _ _ _ _ _ _ _ _ _ _ _ _ )
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_A c _ _ _ _ _ _ _ _ _ _ _ _ _ _ _ _ )
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat V c).leavesExact 3 t = owns (c : Thread nD τ) (ms_3 t) fullShare ((dat V c).after 3 t) from by
        unfold Dat.leavesExact; rw [liveAt_3 t ((hcondLast t).mpr h1)], after_3]
      rw [outsAt_C V c t h0 h1]
      unfold out_C sacc_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_C c _ _ _ _ _ _ _ _ _ _ _ _ _ _ _ _ _ )
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOut_C c _ _ _ _ _ _ _ _ _ _ _ _ _ _ _ _ _ )
    · rw [Dat.leavesExact_idle (dat V c) 3 t (idleAt_3 t (fun h => h1 ((hcondLast t).mp h))) (noFlush_3 t (fun h => h1 ((hcondLast t).mp h)))]
      rw [outsAt_B V c t h0 h1]
      unfold sacc_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_B c _ _ _ _ _ _ _ _ _ _ _ _ _ _ _ _ _ )
          iexact HR
        iexact Hg
      isplitl [Ho]; · iexact Ho
      isplitl [H0]; · iexact H0
      isplitl [H1]; · iexact H1
      isplitl [H2]; · iexact H2
      iexists _; iexact H3

/-- The body obligation of the output pipeline, at every point. -/
theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

theorem hout (c : Dev nD) : (dat V c).Φ (Fin.last cfg1.N) ⊢ Pipeline.ΦA spec1 c :=
  Phi_out V c _ (by rw [Fin.val_last]; have : cfg1.N = 128 := N_1; omega)

end Cert.Kernel.Out

end
-- ==== Proof.Kernel.Run.lean ====
/-
  The whole program: the statistics kernel, then the output kernel, as two regions of @main.
  Between them the core holds its three arrays whole: the input, the row statistics (written by the first
  kernel, read by the second) and the result (written by the second).  Inside a region the input array is
  read through two windows at once, so each holds half of it; the halves are joined again at the exit.
  The run: every weakly fair execution terminates, the result array ends at what the second pipeline's
  write-backs leave, and the input array ends as launched.
-/
import proofs.«180204_j89017492177648_2_alg».proof.Proof.Kernel.StatsFrame
import proofs.«180204_j89017492177648_2_alg».proof.Proof.Kernel.OutFrame
import Idealize.ShloMosaic.Lib.Pipeline.Regions
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the regions -/

/-- At launch. -/
abbrev W0 (c : Dev nD) : Valuation τ sig (Elt F) := fun b => m (c, b)
abbrev U0 (c : Dev nD) (b : Ref sig .tc) : Buf (Elt F) ((c : Thread nD τ).loc b) := W0 m c b
/-- The row statistics the first kernel leaves: its output array after all its write-backs. -/
def lse (c : Dev nD) : Buf (Elt F) ((c : Thread nD τ).loc main_v0) := (Stats.dat (U0 m) c).arrAt 2 cfg0.N
/-- After the first kernel. -/
def W1 (c : Dev nD) : Valuation τ sig (Elt F) := Function.update (W0 m c) main_v0 (lse m c)
abbrev U1 (c : Dev nD) (b : Ref sig .tc) : Buf (Elt F) ((c : Thread nD τ).loc b) := W1 m c b
/-- The result the second kernel leaves: its output array after all its write-backs. -/
def res (c : Dev nD) : Buf (Elt F) ((c : Thread nD τ).loc main_v1) := (Out.dat (U1 m) c).arrAt 3 cfg1.N
/-- After the second kernel. -/
def W2 (c : Dev nD) : Valuation τ sig (Elt F) := Function.update (W1 m c) main_v1 (res m c)

theorem W1_arg0 (c : Dev nD) : W1 m c main_arg0 = W0 m c main_arg0 :=
  Function.update_of_ne (StableHlo.devRef_ne_of_ne (by decide) : (Proc.devRef .tc main_arg0 : DevRef τ sig) ≠ Proc.devRef .tc main_v0) _ _
theorem W1_v0 (c : Dev nD) : W1 m c main_v0 = lse m c := Function.update_self _ _ _
theorem W1_v1 (c : Dev nD) : W1 m c main_v1 = W0 m c main_v1 :=
  Function.update_of_ne (StableHlo.devRef_ne_of_ne (by decide) : (Proc.devRef .tc main_v1 : DevRef τ sig) ≠ Proc.devRef .tc main_v0) _ _
theorem W2_arg0 (c : Dev nD) : W2 m c main_arg0 = W0 m c main_arg0 :=
  (Function.update_of_ne (StableHlo.devRef_ne_of_ne (by decide) : (Proc.devRef .tc main_arg0 : DevRef τ sig) ≠ Proc.devRef .tc main_v1) _ _).trans (W1_arg0 m c)
theorem W2_v0 (c : Dev nD) : W2 m c main_v0 = W1 m c main_v0 :=
  Function.update_of_ne (StableHlo.devRef_ne_of_ne (by decide) : (Proc.devRef .tc main_v0 : DevRef τ sig) ≠ Proc.devRef .tc main_v1) _ _
theorem W2_v1 (c : Dev nD) : W2 m c main_v1 = res m c := Function.update_self _ _ _

/-! ## The core's unscoped buffers and the pipelines' arrays, one by one -/

theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1)) := by
  rw [← Pipeline.unscopedBufs_held (Ix := Unit) (Name := ℕ) (U := UR sig nD τ) (Lvl := ℕ) c W]
  unfold unscopedBufs
  exact bigSep_eq_bigSepL_of_eq [main_arg0, main_v0, main_v1] (by decide) (by decide) _

section
variable (V : (c : Dev nD) → (b : Ref sig .tc) → Buf (Elt F) ((c : Thread nD τ).loc b))

theorem arrays0_eq (c : Dev nD) (Fn : (w : Fin cfg0.W) → Buf (Elt F) ((cfg0.win w).arr.view.loc (c : Thread nD τ))) :
    ((Stats.dat V c).arrays Fn : sProp 𝕄)
      = iprop((((c : Thread nD τ).loc main_arg0) ↦{fullShare.left} Fn 0) ∗ (((c : Thread nD τ).loc main_arg0) ↦{fullShare.right} Fn 1) ∗ (((c : Thread nD τ).loc main_v0) ↦{fullShare} Fn 2)) := by
  unfold Dat.arrays
  rw [bigSep_W0]
  rw [(arr_whole0 0).set_eq_univ, (arr_whole0 2).set_eq_univ]
  rfl

theorem arrays1_eq (c : Dev nD) (Fn : (w : Fin cfg1.W) → Buf (Elt F) ((cfg1.win w).arr.view.loc (c : Thread nD τ))) :
    ((Out.dat V c).arrays Fn : sProp 𝕄)
      = iprop((((c : Thread nD τ).loc main_arg0) ↦{fullShare.left} Fn 0) ∗ (((c : Thread nD τ).loc main_arg0) ↦{fullShare.right} Fn 1) ∗ (((c : Thread nD τ).loc main_v0) ↦{fullShare} Fn 2) ∗ (((c : Thread nD τ).loc main_v1) ↦{fullShare} Fn 3)) := by
  unfold Dat.arrays
  rw [bigSep_W1]
  rw [(arr_whole1 0).set_eq_univ, (arr_whole1 2).set_eq_univ, (arr_whole1 3).set_eq_univ]
  rfl
end

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Stats.dat (U0 m) c
  | ⟨1, _⟩ => fun c => Out.dat (U1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions -/

set_option backward.isDefEq.respectTransparency.types false in
/-- The statistics kernel's region: entered with the three arrays at their launch contents, left with the
    statistics array at what the pipeline wrote. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Stats.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := (((c : Thread nD τ).loc main_v1) ↦{fullShare} W0 m c main_v1)
  hentry c := by
    rw [Pipeline.ownSems0_none, held_eq]
    rw [show ((pdats m 0 c).arrays ((pdats m 0 c).arrAt · 0) : sProp 𝕄) = _ from arrays0_eq (U0 m) c _]
    iintro ⟨⟨⟨Ha, Hv0, Hv1⟩, Hp, HO⟩, -, -⟩
    ihave Ha := (pointsTo_share (PosShare.mem_left_op_right fullShare)).1 $$ Ha
    icases Ha with ⟨Ha1, Ha2⟩
    imodintro
    isplitl [Ha1 Ha2 Hv0]
    · isplitl [Ha1]; · iexact Ha1
      isplitl [Ha2]; · iexact Ha2
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hv1
  hin c := by
    refine .trans ?_ (Stats.hin (U0 m) c)
    unfold Pipeline.ΦA
    iintro ⟨Hp, -, Hr⟩
    isplitl [Hr]; · iexact Hr
    iexact Hp
  hout c := by
    rw [Pipeline.ownSems0_none]
    refine (Stats.hout (U0 m) c).trans ?_
    unfold Pipeline.ΦA
    iintro ⟨Hr, Hp⟩
    isplitl [Hp]; · iexact Hp
    isplitr; · iempintro
    iexact Hr
  hexit c := by
    rw [held_eq, W1_arg0, W1_v0, W1_v1]
    rw [show ((pdats m 0 c).arrays ((pdats m 0 c).arrAt · (Pipeline.pin (pcfgs (F := F)) adm 0).N) : sProp 𝕄) = _ from arrays0_eq (U0 m) c _]
    rw [show (pdats m 0 c).arrAt 0 (Pipeline.pin (pcfgs (F := F)) adm 0).N = W0 m c main_arg0 from ((Stats.dat (U0 m) c).arrAt_in 0 rfl _).trans rfl,
      show (pdats m 0 c).arrAt 1 (Pipeline.pin (pcfgs (F := F)) adm 0).N = W0 m c main_arg0 from ((Stats.dat (U0 m) c).arrAt_in 1 rfl _).trans rfl]
    iintro ⟨⟨Ha1, Ha2, Hv0⟩, HO, HY, Hv1⟩
    ihave Ha := (pointsTo_share (PosShare.mem_left_op_right fullShare)).2 $$ [Ha1 Ha2]
    · isplitl [Ha1] <;> iassumption
    imodintro
    isplitl [Ha Hv0 Hv1]
    · isplitl [Ha]; · iexact Ha
      isplitl [Hv0]; · iexact Hv0
      iexact Hv1
    isplitl [HY]; · iexact HY
    unfold Pipeline.Dat.owesAt Pipeline.owesWithin
    icases HO with ⟨%W, -, HO⟩; iexists W; iexact HO

set_option backward.isDefEq.respectTransparency.types false in
/-- The output kernel's region: entered with the statistics array at what the first kernel wrote, left with
    the result array at what this pipeline wrote. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Out.body_obligation (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, held_eq]
    rw [show ((pdats m 1 c).arrays ((pdats m 1 c).arrAt · 0) : sProp 𝕄) = _ from arrays1_eq (U1 m) c _]
    iintro ⟨⟨⟨Ha, Hv0, Hv1⟩, Hp, HO⟩, -, -⟩
    ihave Ha := (pointsTo_share (PosShare.mem_left_op_right fullShare)).1 $$ Ha
    icases Ha with ⟨Ha1, Ha2⟩
    imodintro
    isplitl [Ha1 Ha2 Hv0 Hv1]
    · isplitl [Ha1]; · iexact Ha1
      isplitl [Ha2]; · iexact Ha2
      isplitl [Hv0]; · iexact Hv0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    refine .trans ?_ (Out.hin (U1 m) c)
    unfold Pipeline.ΦA
    iintro ⟨Hp, -, Hr⟩
    isplitl [Hr]; · iexact Hr
    iexact Hp
  hout c := by
    rw [Pipeline.ownSems0_none]
    refine (Out.hout (U1 m) c).trans ?_
    unfold Pipeline.ΦA
    iintro ⟨Hr, Hp⟩
    isplitl [Hp]; · iexact Hp
    isplitr; · iempintro
    iexact Hr
  hexit c := by
    unfold Tₙ
    rw [held_eq, W2_arg0, W2_v0, W2_v1]
    rw [show ((pdats m 1 c).arrays ((pdats m 1 c).arrAt · (Pipeline.pin (pcfgs (F := F)) adm 1).N) : sProp 𝕄) = _ from arrays1_eq (U1 m) c _]
    rw [show (pdats m 1 c).arrAt 0 (Pipeline.pin (pcfgs (F := F)) adm 1).N = W0 m c main_arg0 from (((Out.dat (U1 m) c).arrAt_in 0 rfl _).trans rfl).trans (W1_arg0 m c),
      show (pdats m 1 c).arrAt 1 (Pipeline.pin (pcfgs (F := F)) adm 1).N = W0 m c main_arg0 from (((Out.dat (U1 m) c).arrAt_in 1 rfl _).trans rfl).trans (W1_arg0 m c),
      show (pdats m 1 c).arrAt 2 (Pipeline.pin (pcfgs (F := F)) adm 1).N = W1 m c main_v0 from ((Out.dat (U1 m) c).arrAt_in 2 rfl _).trans rfl]
    iintro ⟨⟨Ha1, Ha2, Hv0, Hv1⟩, HO, HY, -⟩
    ihave Ha := (pointsTo_share (PosShare.mem_left_op_right fullShare)).2 $$ [Ha1 Ha2]
    · isplitl [Ha1] <;> iassumption
    imodintro
    isplitl [Ha Hv0 Hv1 HY]
    · isplitl [Ha Hv0 Hv1]
      · isplitl [Ha]; · iexact Ha
        isplitl [Hv0]; · iexact Hv0
        iexact Hv1
      iexact HY
    unfold Pipeline.Dat.owesAt Pipeline.owesWithin
    icases HO with ⟨%W, -, HO⟩; iexists W; iexact HO

/-! ## The run -/

set_option backward.isDefEq.respectTransparency.types false in
/-- Every weakly fair execution of @main terminates; the result array ends at what the second pipeline's
    write-backs leave and the input array as launched. -/
theorem run : θ_run defs (onTc (τ := τ) (main (F := F))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c), (h c _ (mem_uc main_arg0 (by decide))).trans (W2_arg0 m c)⟩)

/-- The frame: the program runs and leaves its input array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.Kernel.Hand

end
-- ==== Proof.KernelIdeal.StatsBase.lean ====
/-
  The statistics kernel (the first of the two kernel regions): what its runs share.
  Its grid is 8 x 2 x 4: a batch, a tile of 1024 rows, and a reduction over four tiles of 512 columns.
  A point is the first of its reduction when its last coordinate is 0 and the last when it is 3; in
  position order these are the points congruent to 0 and to 3 modulo 4.  The two scratch vectors (a running
  row maximum and a running row sum) are reset at a first point, updated at every point, and read out into
  the output block at a last point; at the other points the output block is left alone.
-/
import proofs.«180204_j89017492177648_2_alg».proof.Proof.Gen.KernelIdeal.Launch
import proofs.«180204_j89017492177648_2_alg».proof.Proof.Gen.KernelIdeal.Skeleton
import proofs.«180204_j89017492177648_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-tile input's staging buffer holds its block at every point, fetched there or not. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The column-tile input's staging buffer holds its block at every point. -/
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

/-- "This is the first step of the reduction": the last grid coordinate is 0. -/
abbrev condFirst (i : grid0.Coords) : Prop := (Scalar.cmpi .ne (Scalar.extui (Scalar.cmpi .eq (BitVec.ofNat 32 (i 2).val) 0#32)) 0#32) = 1#1
theorem hcondFirst : ∀ t : Fin cfg0.N, condFirst (grid0.coords t) ↔ t.val % 4 = 0 :=
  (by decide +kernel : ∀ t : Fin grid0.N, condFirst (grid0.coords t) ↔ t.val % 4 = 0)

/-- "This is the last step of the reduction": the last grid coordinate is 3. -/
abbrev condLast (i : grid0.Coords) : Prop := k0_cond2 i = 1#1
theorem hcondLast : ∀ t : Fin cfg0.N, condLast (grid0.coords t) ↔ t.val % 4 = 3 :=
  (by decide +kernel : ∀ t : Fin grid0.N, condLast (grid0.coords t) ↔ t.val % 4 = 3)

/-! ## Where the windows are idle -/

theorem liveAt_0 : ∀ t : Fin cfg0.N, cfg0.idle 0 (grid0.coords t) = false := by decide +kernel
theorem liveAt_1 : ∀ t : Fin cfg0.N, cfg0.idle 1 (grid0.coords t) = false := by decide +kernel
/-- Away from a last step the output block is idle and is not written back. -/
theorem idleAt_2 : ∀ t : Fin cfg0.N, ¬condLast (grid0.coords t) → cfg0.idle 2 (grid0.coords t) = true := by decide +kernel
theorem noFlush_2 : ∀ t : Fin cfg0.N, ¬condLast (grid0.coords t) → (cfg0.win 2).flush t = false := by decide +kernel
/-- At a last step it is live. -/
theorem liveAt_2 : ∀ t : Fin cfg0.N, condLast (grid0.coords t) → cfg0.idle 2 (grid0.coords t) = false := by decide +kernel

/-! ## The memrefs the body is called with -/

abbrev VO : View sig .tc .vmem S1x1x1024 .f32 := (Memref.whole cc0_stg2_0 : Memref sig .tc .vmem S1x1x1024 .f32).view
abbrev ms_0 (t : Fin cfg0.N) : Memref sig .tc .vmem S1x1024x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1x512x1024 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1x1024 .f32 := win0_2.stage (cfg0.slots t 2)
abbrev hs_2 (t : Fin cfg0.N) : (ms_2 t).IsWhole := hstage0_2 ((cfg0.slots t 2).cast nbuf0_2)
/-- The running maximum and the running sum: whole scratch buffers of the kernel's own. -/
abbrev scMax : Memref sig .tc .vmem S1024x1 .f32 := Memref.whole cc0_scratch0
abbrev scSum : Memref sig .tc .vmem S1024x1 .f32 := Memref.whole cc0_scratch1
abbrev VMax : View sig .tc .vmem S1024x1 .f32 := scMax.view
abbrev VSum : View sig .tc .vmem S1024x1 .f32 := scSum.view

end Cert.KernelIdeal.Stats

end
-- ==== Proof.KernelIdeal.StatsRunA.lean ====
/-
  The statistics kernel's body, run whole at a first step of the reduction that is not the last:
  what its stores leave in the running maximum, in the running sum, as pieces (the last store first),
  with the proof that the body runs from whole buffers to its return.
-/
import proofs.«180204_j89017492177648_2_alg».proof.Proof.KernelIdeal.StatsBase

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, and its run:
    the two input blocks are handed back as they were, the idle output block too. -/
noncomputable def kernelRun_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i)
    (x0 : Vec F S1x1024x1024 .f32) (x1 : Vec F S1x512x1024 .f32) :
    Σ' (LS0 : List (View.Piece (Elt F) S1024x1 .f32)), { LS1 : List (View.Piece (Elt F) S1024x1 .f32) //
      ∀ (xi2 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.KernelIdeal.Stats

end
-- ==== Proof.KernelIdeal.StatsRunB.lean ====
/-
  The statistics kernel's body, run whole at a step of the reduction that is neither the first nor the last:
  what its stores leave in the running maximum, in the running sum, as pieces (the last store first),
  with the proof that the body runs from whole buffers to its return.
-/
import proofs.«180204_j89017492177648_2_alg».proof.Proof.KernelIdeal.StatsRunA

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the two scratch vectors (\`xs0\`, \`xs1\`), and its run:
    the two input blocks are handed back as they were, the idle output block too. -/
noncomputable def kernelRun_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i)
    (x0 : Vec F S1x1024x1024 .f32) (x1 : Vec F S1x512x1024 .f32) (xs0 : Vec F S1024x1 .f32) (xs1 : Vec F S1024x1 .f32) :
    Σ' (LS0 : List (View.Piece (Elt F) S1024x1 .f32)), { LS1 : List (View.Piece (Elt F) S1024x1 .f32) //
      ∀ (xi2 : Vec F S1x1x1024 .f32) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0 ∗ owns (c : Thread nD τ) arg7 fullShare xs1
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, fun xi2 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.KernelIdeal.Stats

end
-- ==== Proof.KernelIdeal.StatsRunC.lean ====
/-
  The statistics kernel's body, run whole at a last step of the reduction (which is not a first one):
  what its stores leave in the running maximum, in the running sum and in the output block, as pieces (the last store first),
  with the proof that the body runs from whole buffers to its return.
-/
import proofs.«180204_j89017492177648_2_alg».proof.Proof.KernelIdeal.StatsRunB

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the two scratch vectors (\`xs0\`, \`xs1\`), and its run:
    the two input blocks are handed back as they were. -/
noncomputable def kernelRun_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i)
    (x0 : Vec F S1x1024x1024 .f32) (x1 : Vec F S1x512x1024 .f32) (xs0 : Vec F S1024x1 .f32) (xs1 : Vec F S1024x1 .f32) :
    Σ' (L2 : List (View.Piece (Elt F) S1x1x1024 .f32)) (LS0 : List (View.Piece (Elt F) S1024x1 .f32)), { LS1 : List (View.Piece (Elt F) S1024x1 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0 ∗ owns (c : Thread nD τ) arg7 fullShare xs1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg3 harg3 arg4 harg4 arg5 harg5 arg6 harg6 arg7 harg7) K } := by
  refine ⟨?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, Hk⟩
    obtain rfl := harg3.eq_unread hf0; obtain rfl := harg4.eq_unread hf1; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HS0]; · iexists _; iexact HS0
    iexists _; iexact HS1

end Cert.KernelIdeal.Stats

end
-- ==== Proof.KernelIdeal.StatsFrame.lean ====
/-
  The statistics kernel: what the output block and the two scratch vectors hold after each point of the grid,
  the proof data of its pipeline, and the body obligation at every point.
-/
import proofs.«180204_j89017492177648_2_alg».proof.Proof.KernelIdeal.StatsRunC

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces for the running maximum cover it. -/
theorem coverMax_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) (y : S1024x1.Idx) :
    ∃ pc ∈ (kernelRun_A c i arg3 harg3 arg4 harg4 arg5 harg5 arg6 harg6 arg7 harg7 hc0 hc1 x0 x1).1, y ∈ pc.1.set :=
  View.cover_of_tiledL (kernelRun_A c i arg3 harg3 arg4 harg4 arg5 harg5 arg6 harg6 arg7 harg7 hc0 hc1 x0 x1).1 S1024x1.size (by sl_kernel_rfl) y
/-- What the step leaves in the running maximum. -/
def smax_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) : Vec F S1024x1 .f32 :=
  VMax.read (Elt F) (VMax.writes (Elt F) VMax.junk (kernelRun_A c i arg3 harg3 arg4 harg4 arg5 harg5 arg6 harg6 arg7 harg7 hc0 hc1 x0 x1).1)
/-- The pieces for the running sum cover it. -/
theorem coverSum_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) (y : S1024x1.Idx) :
    ∃ pc ∈ (kernelRun_A c i arg3 harg3 arg4 harg4 arg5 harg5 arg6 harg6 arg7 harg7 hc0 hc1 x0 x1).2.1, y ∈ pc.1.set :=
  View.cover_of_tiledL (kernelRun_A c i arg3 harg3 arg4 harg4 arg5 harg5 arg6 harg6 arg7 harg7 hc0 hc1 x0 x1).2.1 S1024x1.size (by sl_kernel_rfl) y
/-- What the step leaves in the running sum. -/
def ssum_A (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) : Vec F S1024x1 .f32 :=
  VSum.read (Elt F) (VSum.writes (Elt F) VSum.junk (kernelRun_A c i arg3 harg3 arg4 harg4 arg5 harg5 arg6 harg6 arg7 harg7 hc0 hc1 x0 x1).2.1)

/-- The pieces for the running maximum cover it. -/
theorem coverMax_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) (y : S1024x1.Idx) :
    ∃ pc ∈ (kernelRun_B c i arg3 harg3 arg4 harg4 arg5 harg5 arg6 harg6 arg7 harg7 hc0 hc1 x0 x1 xs0 xs1).1, y ∈ pc.1.set :=
  View.cover_of_tiledL (kernelRun_B c i arg3 harg3 arg4 harg4 arg5 harg5 arg6 harg6 arg7 harg7 hc0 hc1 x0 x1 xs0 xs1).1 S1024x1.size (by sl_kernel_rfl) y
/-- What the step leaves in the running maximum. -/
def smax_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) : Vec F S1024x1 .f32 :=
  VMax.read (Elt F) (VMax.writes (Elt F) VMax.junk (kernelRun_B c i arg3 harg3 arg4 harg4 arg5 harg5 arg6 harg6 arg7 harg7 hc0 hc1 x0 x1 xs0 xs1).1)
/-- The pieces for the running sum cover it. -/
theorem coverSum_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) (y : S1024x1.Idx) :
    ∃ pc ∈ (kernelRun_B c i arg3 harg3 arg4 harg4 arg5 harg5 arg6 harg6 arg7 harg7 hc0 hc1 x0 x1 xs0 xs1).2.1, y ∈ pc.1.set :=
  View.cover_of_tiledL (kernelRun_B c i arg3 harg3 arg4 harg4 arg5 harg5 arg6 harg6 arg7 harg7 hc0 hc1 x0 x1 xs0 xs1).2.1 S1024x1.size (by sl_kernel_rfl) y
/-- What the step leaves in the running sum. -/
def ssum_B (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 : Vec F S1024x1 .f32) (xs1 : Vec F S1024x1 .f32) : Vec F S1024x1 .f32 :=
  VSum.read (Elt F) (VSum.writes (Elt F) VSum.junk (kernelRun_B c i arg3 harg3 arg4 harg4 arg5 harg5 arg6 harg6 arg7 harg7 hc0 hc1 x0 x1 xs0 xs1).2.1)

/-- The pieces for the running maximum cover it. -/
theorem coverMax_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) (y : S1024x1.Idx) :
    ∃ pc ∈ (kernelRun_C c i arg3 harg3 arg4 harg4 arg5 harg5 arg6 harg6 arg7 harg7 hc0 hc1 x0 x1 xs0 xs1).2.1, y ∈ pc.1.set :=
  View.cover_of_tiledL (kernelRun_C c i arg3 harg3 arg4 harg4 arg5 harg5 arg6 harg6 arg7 harg7 hc0 hc1 x0 x1 xs0 xs1).2.1 S1024x1.size (by sl_kernel_rfl) y
/-- What the step leaves in the running maximum. -/
def smax_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) : Vec F S1024x1 .f32 :=
  VMax.read (Elt F) (VMax.writes (Elt F) VMax.junk (kernelRun_C c i arg3 harg3 arg4 harg4 arg5 harg5 arg6 harg6 arg7 harg7 hc0 hc1 x0 x1 xs0 xs1).2.1)
/-- The pieces for the running sum cover it. -/
theorem coverSum_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) (y : S1024x1.Idx) :
    ∃ pc ∈ (kernelRun_C c i arg3 harg3 arg4 harg4 arg5 harg5 arg6 harg6 arg7 harg7 hc0 hc1 x0 x1 xs0 xs1).2.2.1, y ∈ pc.1.set :=
  View.cover_of_tiledL (kernelRun_C c i arg3 harg3 arg4 harg4 arg5 harg5 arg6 harg6 arg7 harg7 hc0 hc1 x0 x1 xs0 xs1).2.2.1 S1024x1.size (by sl_kernel_rfl) y
/-- What the step leaves in the running sum. -/
def ssum_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) : Vec F S1024x1 .f32 :=
  VSum.read (Elt F) (VSum.writes (Elt F) VSum.junk (kernelRun_C c i arg3 harg3 arg4 harg4 arg5 harg5 arg6 harg6 arg7 harg7 hc0 hc1 x0 x1 xs0 xs1).2.2.1)
/-- The pieces for the output block cover it. -/
theorem coverOut_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) (y : S1x1x1024.Idx) :
    ∃ pc ∈ (kernelRun_C c i arg3 harg3 arg4 harg4 arg5 harg5 arg6 harg6 arg7 harg7 hc0 hc1 x0 x1 xs0 xs1).1, y ∈ pc.1.set :=
  View.cover_of_tiledL (kernelRun_C c i arg3 harg3 arg4 harg4 arg5 harg5 arg6 harg6 arg7 harg7 hc0 hc1 x0 x1 xs0 xs1).1 S1x1x1024.size (by sl_kernel_rfl) y
/-- What the last step leaves in the output block. -/
def out_C (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 : Vec F S1024x1 .f32) (xs1 : Vec F S1024x1 .f32) : Vec F S1x1x1024 .f32 :=
  VO.read (Elt F) (VO.writes (Elt F) VO.junk (kernelRun_C c i arg3 harg3 arg4 harg4 arg5 harg5 arg6 harg6 arg7 harg7 hc0 hc1 x0 x1 xs0 xs1).1)

/-- The output block where the kernel does not store into it: a placeholder nothing reads. -/
def outIdle : Vec F S1x1x1024 .f32 := VO.read (Elt F) (VO.writes (Elt F) VO.junk [])

/-! ## Point by point -/

/-- What the output block, the running maximum and the running sum hold after the body at position `n`. -/
def outsAt (c : Dev nD) : (n : ℕ) → n < cfg0.N → Vec F S1x1x1024 .f32 × Vec F S1024x1 .f32 × Vec F S1024x1 .f32
  | 0, hn => (outIdle,
      smax_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scMax (Memref.isWhole_whole _) scSum (Memref.isWhole_whole _) ((hcondFirst ⟨0, hn⟩).mpr (Nat.zero_mod _)) (fun h => absurd ((hcondLast ⟨0, hn⟩).mp h) (by dsimp only; omega)) (iblk V c 0 ⟨0, hn⟩) (iblk V c 1 ⟨0, hn⟩),
      ssum_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) scMax (Memref.isWhole_whole _) scSum (Memref.isWhole_whole _) ((hcondFirst ⟨0, hn⟩).mpr (Nat.zero_mod _)) (fun h => absurd ((hcondLast ⟨0, hn⟩).mp h) (by dsimp only; omega)) (iblk V c 0 ⟨0, hn⟩) (iblk V c 1 ⟨0, hn⟩))
  | n + 1, hn =>
    if h0 : (n + 1) % 4 = 0 then
      (outIdle,
        smax_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) ((hcondFirst ⟨n + 1, hn⟩).mpr h0) (fun h => absurd ((hcondLast ⟨n + 1, hn⟩).mp h) (by dsimp only; omega)) (iblk V c 0 ⟨n + 1, hn⟩) (iblk V c 1 ⟨n + 1, hn⟩),
        ssum_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) ((hcondFirst ⟨n + 1, hn⟩).mpr h0) (fun h => absurd ((hcondLast ⟨n + 1, hn⟩).mp h) (by dsimp only; omega)) (iblk V c 0 ⟨n + 1, hn⟩) (iblk V c 1 ⟨n + 1, hn⟩))
    else if h1 : (n + 1) % 4 = 3 then
      (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        smax_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2,
        ssum_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (outsAt c n (Nat.lt_of_succ_lt hn)).2.1 (outsAt c n (Nat.lt_of_succ_lt hn)).2.2)
    else
      (outIdle,
        smax_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2,
        ssum_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) scMax (Memref.isWhole_whole _) scSum (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (outsAt c n (Nat.lt_of_succ_lt hn)).2.1 (outsAt c n (Nat.lt_of_succ_lt hn)).2.2)

/-- The step before point `t` (for `t` not the first). -/
abbrev prev (t : Fin cfg0.N) : t.val - 1 < cfg0.N := Nat.lt_of_le_of_lt (Nat.sub_le _ _) t.isLt

theorem outsAt_A (c : Dev nD) (t : Fin cfg0.N) (h0 : t.val % 4 = 0) (h1 : ¬t.val % 4 = 3) :
    outsAt V c t.val t.isLt = (outIdle,
      smax_A c (grid0.coords t) (ms_0 t) (hs_0 t) (ms_1 t) (hs_1 t) (ms_2 t) (hs_2 t) scMax (Memref.isWhole_whole _) scSum (Memref.isWhole_whole _) ((hcondFirst t).mpr h0) (fun h => h1 ((hcondLast t).mp h)) (iblk V c 0 t) (iblk V c 1 t),
      ssum_A c (grid0.coords t) (ms_0 t) (hs_0 t) (ms_1 t) (hs_1 t) (ms_2 t) (hs_2 t) scMax (Memref.isWhole_whole _) scSum (Memref.isWhole_whole _) ((hcondFirst t).mpr h0) (fun h => h1 ((hcondLast t).mp h)) (iblk V c 0 t) (iblk V c 1 t)) := by
  obtain ⟨n, hn⟩ := t
  cases n with
  | zero => exact rfl
  | succ n => exact (dif_pos h0).trans rfl

theorem outsAt_B (c : Dev nD) (t : Fin cfg0.N) (h0 : ¬t.val % 4 = 0) (h1 : ¬t.val % 4 = 3) :
    outsAt V c t.val t.isLt = (outIdle,
      smax_B c (grid0.coords t) (ms_0 t) (hs_0 t) (ms_1 t) (hs_1 t) (ms_2 t) (hs_2 t) scMax (Memref.isWhole_whole _) scSum (Memref.isWhole_whole _) (fun h => h0 ((hcondFirst t).mp h)) (fun h => h1 ((hcondLast t).mp h)) (iblk V c 0 t) (iblk V c 1 t) (outsAt V c (t.val - 1) (prev t)).2.1 (outsAt V c (t.val - 1) (prev t)).2.2,
      ssum_B c (grid0.coords t) (ms_0 t) (hs_0 t) (ms_1 t) (hs_1 t) (ms_2 t) (hs_2 t) scMax (Memref.isWhole_whole _) scSum (Memref.isWhole_whole _) (fun h => h0 ((hcondFirst t).mp h)) (fun h => h1 ((hcondLast t).mp h)) (iblk V c 0 t) (iblk V c 1 t) (outsAt V c (t.val - 1) (prev t)).2.1 (outsAt V c (t.val - 1) (prev t)).2.2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 4 = 0) (h1 : t.val % 4 = 3) :
    outsAt V c t.val t.isLt = (
      out_C c (grid0.coords t) (ms_0 t) (hs_0 t) (ms_1 t) (hs_1 t) (ms_2 t) (hs_2 t) scMax (Memref.isWhole_whole _) scSum (Memref.isWhole_whole _) (fun h => h0 ((hcondFirst t).mp h)) ((hcondLast t).mpr h1) (iblk V c 0 t) (iblk V c 1 t) (outsAt V c (t.val - 1) (prev t)).2.1 (outsAt V c (t.val - 1) (prev t)).2.2,
      smax_C c (grid0.coords t) (ms_0 t) (hs_0 t) (ms_1 t) (hs_1 t) (ms_2 t) (hs_2 t) scMax (Memref.isWhole_whole _) scSum (Memref.isWhole_whole _) (fun h => h0 ((hcondFirst t).mp h)) ((hcondLast t).mpr h1) (iblk V c 0 t) (iblk V c 1 t) (outsAt V c (t.val - 1) (prev t)).2.1 (outsAt V c (t.val - 1) (prev t)).2.2,
      ssum_C c (grid0.coords t) (ms_0 t) (hs_0 t) (ms_1 t) (hs_1 t) (ms_2 t) (hs_2 t) scMax (Memref.isWhole_whole _) scSum (Memref.isWhole_whole _) (fun h => h0 ((hcondFirst t).mp h)) ((hcondLast t).mpr h1) (iblk V c 0 t) (iblk V c 1 t) (outsAt V c (t.val - 1) (prev t)).2.1 (outsAt V c (t.val - 1) (prev t)).2.2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Every scoped buffer of the core that is neither a staging buffer of this kernel nor one of its two scratch vectors. -/
abbrev RestBut (c : Dev nD) : sProp 𝕄 :=
  Pipeline.scopedRestBut (Ix := Unit) (Name := ℕ) (U := UR sig nD τ) (Lvl := ℕ) (Val := Elt F) spec0 c [cc0_scratch0, cc0_scratch1]

/-- The class invariant with the two scratch vectors split out, each at some contents. -/
theorem PhiA_eq (c : Dev nD) :
    (Pipeline.ΦA spec0 c : sProp 𝕄)
      = iprop(iprop(iprop((∃ d, owns (c : Thread nD τ) scMax fullShare d) ∗ (∃ d, owns (c : Thread nD τ) scSum fullShare d)) ∗ RestBut c) ∗ (∃ r, prngReg c r)) := by
  unfold Pipeline.ΦA
  rw [Pipeline.scopedRest_split_of_list spec0 c [cc0_scratch0, cc0_scratch1] (by decide) (by decide)]
  simp only [bigSepL_cons_cons, bigSepL_singleton, scMax, scSum, owns_whole]; try rfl

/-- Before the first point the class invariant; afterwards the two scratch vectors at what the point before left. -/
def PhiS (c : Dev nD) : (n : ℕ) → n ≤ cfg0.N → sProp 𝕄
  | 0, _ => Pipeline.ΦA spec0 c
  | n + 1, hn => iprop(iprop(iprop(owns (c : Thread nD τ) scMax fullShare ((outsAt V c n hn).2.1) ∗ owns (c : Thread nD τ) scSum fullShare ((outsAt V c n hn).2.2)) ∗ RestBut c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(iprop(owns (c : Thread nD τ) scMax fullShare ((outsAt V c n hn).2.1) ∗ owns (c : Thread nD τ) scSum fullShare ((outsAt V c n hn).2.2)) ∗ RestBut c) ∗ (∃ r, prngReg c r)) := rfl

theorem PhiS_pos (c : Dev nD) (n : ℕ) (h : n ≤ cfg0.N) (hz : n ≠ 0) :
    PhiS V c n h = iprop(iprop(iprop(owns (c : Thread nD τ) scMax fullShare ((outsAt V c (n - 1) (by omega)).2.1) ∗ owns (c : Thread nD τ) scSum fullShare ((outsAt V c (n - 1) (by omega)).2.2)) ∗ RestBut c) ∗ (∃ r, prngReg c r)) := by
  cases n with
  | zero => exact absurd rfl hz
  | succ n => rfl

/-! ## The proof data -/

/-- The proof data of the statistics pipeline on core `c`: the two input windows read the same array, each
    at half of it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
  owed _ := 0

theorem A_eq (c : Dev nD) (w : Fin cfg0.W) : (dat V c).A w = V c (Pipeline.arrRef spec0 w) := by
  dsimp only [dat]

theorem PhiS_castSucc (c : Dev nD) (t : Fin cfg0.N) :
    (dat V c).Φ t.castSucc = PhiS V c t.val (Nat.le_of_lt t.isLt) := by
  dsimp only [dat]; simp only [Fin.coe_castSucc]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = (outsAt V c t.val t.isLt).1 := by dsimp only [dat]

theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d)))

def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 8000000 in
/-- The body at any point: which case the point is in is read off its position; the scratch vectors come in at what
    the point before left (at anything at the very first point) and go out at what this point leaves. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
      unfold Dat.leavesExact; rw [liveAt_0 t], after_0]
  rw [show (dat V c).leavesExact 1 t = owns (c : Thread nD τ) (ms_1 t) fullShare ((dat V c).after 1 t) from by
      unfold Dat.leavesExact; rw [liveAt_1 t], after_1]
  by_cases h0 : t.val % 4 = 0
  · have h1 : ¬t.val % 4 = 3 := by omega
    rw [Dat.leavesExact_idle (dat V c) 2 t (idleAt_2 t (fun h => h1 ((hcondLast t).mp h))) (noFlush_2 t (fun h => h1 ((hcondLast t).mp h)))]
    rw [outsAt_A V c t h0 h1]
    unfold smax_A ssum_A; (try dsimp only)
    by_cases hz : t.val = 0
    · rw [PhiS_castSucc V c t, PhiS_zero V c _ _ hz, PhiA_eq]
      iintro ⟨⟨⟨⟨HS0, HS1⟩, HR⟩, Hg⟩, Ho, ⟨%d0, H0⟩, ⟨%d1, H1⟩, ⟨%d2, H2⟩⟩
      iapply ((kernelRun_A c (grid0.coords t) _ _ _ _ _ _ _ _ _ _ ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_A c _ _ _ _ _ _ _ _ _ _ _ _ _ _ _)
            · unfold owns; iexists _; isplitr
              swap; · iexact HS1
              ipureintro; exact View.read_writes_of_cover _ _ _ _ _ (coverSum_A c _ _ _ _ _ _ _ _ _ _ _ _ _ _ _)
          iexact HR
        iexact Hg
      isplitl [Ho]; · iexact Ho
      isplitl [H0]; · iexact H0
      isplitl [H1]; · iexact H1
      iexists _; iexact H2
    · rw [PhiS_castSucc V c t, PhiS_pos V c _ _ hz]
      iintro ⟨⟨⟨⟨HS0, HS1⟩, HR⟩, Hg⟩, Ho, ⟨%d0, H0⟩, ⟨%d1, H1⟩, ⟨%d2, H2⟩⟩
      iapply ((kernelRun_A c (grid0.coords t) _ _ _ _ _ _ _ _ _ _ ((hcondFirst t).mpr h0) (fun h => h1 ((hcondLast t).mp h)) (iblk V c 0 t) (iblk V c 1 t)).2.2 _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_A c _ _ _ _ _ _ _ _ _ _ _ _ _ _ _)
            · unfold owns; iexists _; isplitr
              swap; · iexact HS1
              ipureintro; exact View.read_writes_of_cover _ _ _ _ _ (coverSum_A c _ _ _ _ _ _ _ _ _ _ _ _ _ _ _)
          iexact HR
        iexact Hg
      isplitl [Ho]; · iexact Ho
      isplitl [H0]; · iexact H0
      isplitl [H1]; · iexact H1
      iexists _; iexact H2
  · have hz : t.val ≠ 0 := fun e => h0 (by rw [e])
    by_cases h1 : t.val % 4 = 3
    · rw [show (dat V c).leavesExact 2 t = owns (c : Thread nD τ) (ms_2 t) fullShare ((dat V c).after 2 t) from by
        unfold Dat.leavesExact; rw [liveAt_2 t ((hcondLast t).mpr h1)], after_2]
      rw [outsAt_C V c t h0 h1]
      unfold out_C smax_C ssum_C; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩⟩
      iapply ((kernelRun_C c (grid0.coords t) _ _ _ _ _ _ _ _ _ _ (fun h => h0 ((hcondFirst t).mp h)) ((hcondLast t).mpr h1) (iblk V c 0 t) (iblk V c 1 t) _ _).2.2.2 Set.univ _)
      isplitl [H0]; · iexact H0
      isplitl [H1]; · iexact H1
      isplitl [H2]; · iexists _; iexact H2
      isplitl [HS0]; · iexact HS0
      isplitl [HS1]; · iexact HS1
      iintro ⟨H0, H1, ⟨%e2, H2⟩, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_C c _ _ _ _ _ _ _ _ _ _ _ _ _ _ _ _ _)
            · unfold owns; iexists _; isplitr
              swap; · iexact HS1
              ipureintro; exact View.read_writes_of_cover _ _ _ _ _ (coverSum_C c _ _ _ _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (coverOut_C c _ _ _ _ _ _ _ _ _ _ _ _ _ _ _ _ _)
    · rw [Dat.leavesExact_idle (dat V c) 2 t (idleAt_2 t (fun h => h1 ((hcondLast t).mp h))) (noFlush_2 t (fun h => h1 ((hcondLast t).mp h)))]
      rw [outsAt_B V c t h0 h1]
      unfold smax_B ssum_B; (try dsimp only)
      rw [PhiS_castSucc V c t, PhiS_pos V c _ _ hz]
      iintro ⟨⟨⟨⟨HS0, HS1⟩, HR⟩, Hg⟩, Ho, ⟨%d0, H0⟩, ⟨%d1, H1⟩, ⟨%d2, H2⟩⟩
      iapply ((kernelRun_B c (grid0.coords t) _ _ _ _ _ _ _ _ _ _ (fun h => h0 ((hcondFirst t).mp h)) (fun h => h1 ((hcondLast t).mp h)) (iblk V c 0 t) (iblk V c 1 t) _ _).2.2 _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 HR Hg]
      · isplitl [HS0 HS1 HR]
        · isplitl [HS0 HS1]
          · isplitl [HS0]
            · unfold owns; iexists _; isplitr
              swap; · iexact HS0
              ipureintro; exact View.read_writes_of_cover _ _ _ _ _ (coverMax_B c _ _ _ _ _ _ _ _ _ _ _ _ _ _ _ _ _)
            · unfold owns; iexists _; isplitr
              swap; · iexact HS1
              ipureintro; exact View.read_writes_of_cover _ _ _ _ _ (coverSum_B c _ _ _ _ _ _ _ _ _ _ _ _ _ _ _ _ _)
          iexact HR
        iexact Hg
      isplitl [Ho]; · iexact Ho
      isplitl [H0]; · iexact H0
      isplitl [H1]; · iexact H1
      iexists _; iexact H2

/-- The body obligation of the statistics pipeline, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class invariant back: the scratch contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨⟨HS0, HS1⟩, HR⟩, Hg⟩
  isplitl [HS0 HS1 HR]
  · isplitl [HS0 HS1]
    · isplitl [HS0]
      · iexists _; iexact HS0
      · iexists _; iexact HS1
    iexact HR
  iexact Hg

theorem hout (c : Dev nD) : (dat V c).Φ (Fin.last cfg0.N) ⊢ Pipeline.ΦA spec0 c :=
  Phi_out V c _ (by rw [Fin.val_last]; have : cfg0.N = 64 := N_0; omega)

end Cert.KernelIdeal.Stats

end
-- ==== Proof.KernelIdeal.OutBase.lean ====
/-
  The output kernel (the second of the two kernel regions): what its runs share.
  Its grid is 8 x 4 x 4: a batch, a tile of 512 output rows, and a reduction over four tiles of 512 columns.
  The accumulator (a scratch block of 512 x 1024) is reset at a first step of the reduction, added to at
  every step, and copied into the output block at a last step; at the other steps the output block is left alone.
-/
import proofs.«180204_j89017492177648_2_alg».proof.Proof.Gen.KernelIdeal.Launch
import proofs.«180204_j89017492177648_2_alg».proof.Proof.Gen.KernelIdeal.Skeleton
import proofs.«180204_j89017492177648_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The two conditions of the body -/

abbrev condFirst (i : grid1.Coords) : Prop := (Scalar.cmpi .ne (Scalar.extui (Scalar.cmpi .eq (BitVec.ofNat 32 (i 2).val) 0#32)) 0#32) = 1#1
theorem hcondFirst : ∀ t : Fin cfg1.N, condFirst (grid1.coords t) ↔ t.val % 4 = 0 :=
  (by decide +kernel : ∀ t : Fin grid1.N, condFirst (grid1.coords t) ↔ t.val % 4 = 0)

abbrev condLast (i : grid1.Coords) : Prop := k1_cond2 i = 1#1
theorem hcondLast : ∀ t : Fin cfg1.N, condLast (grid1.coords t) ↔ t.val % 4 = 3 :=
  (by decide +kernel : ∀ t : Fin grid1.N, condLast (grid1.coords t) ↔ t.val % 4 = 3)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem idleAt_3 : ∀ t : Fin cfg1.N, ¬condLast (grid1.coords t) → cfg1.idle 3 (grid1.coords t) = true := by decide +kernel
theorem noFlush_3 : ∀ t : Fin cfg1.N, ¬condLast (grid1.coords t) → (cfg1.win 3).flush t = false := by decide +kernel
theorem liveAt_3 : ∀ t : Fin cfg1.N, condLast (grid1.coords t) → cfg1.idle 3 (grid1.coords t) = false := by decide +kernel

/-! ## The memrefs the body is called with -/

abbrev VO : View sig .tc .vmem S1x512x1024 .f32 := (Memref.whole cc1_stg3_0 : Memref sig .tc .vmem S1x512x1024 .f32).view
abbrev ms_0 (t : Fin cfg1.N) : Memref sig .tc .vmem S1x512x1024 .f32 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S1x512x1024 .f32 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x1x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S1x512x1024 .f32 := win1_3.stage (cfg1.slots t 3)
abbrev hs_3 (t : Fin cfg1.N) : (ms_3 t).IsWhole := hstage1_3 ((cfg1.slots t 3).cast nbuf1_3)
/-- The accumulator: a whole scratch buffer of the kernel's own. -/
abbrev scAcc : Memref sig .tc .vmem S512x1024 .f32 := Memref.whole cc1_scratch0
abbrev VAcc : View sig .tc .vmem S512x1024 .f32 := scAcc.view

end Cert.KernelIdeal.Out

end
-- ==== Proof.KernelIdeal.OutRunA.lean ====
/-
  The output kernel's body, run whole at a first step of the reduction that is not the last:
  what its stores leave in the accumulator, as pieces (the last store first),
  with the proof that the body runs from whole buffers to its return.
-/
import proofs.«180204_j89017492177648_2_alg».proof.Proof.KernelIdeal.OutBase

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, and its run:
    the three input blocks are handed back as they were, the idle output block too. -/
noncomputable def kernelRun_A (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i)
    (x0 : Vec F S1x512x1024 .f32) (x1 : Vec F S1x512x1024 .f32) (x2 : Vec F S1x1x512 .f32) :
    { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg3 harg3 arg4 harg4 arg5 harg5 arg6 harg6 arg7 harg7) K } := by
  refine ⟨?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Out

end
-- ==== Proof.KernelIdeal.OutRunB.lean ====
/-
  The output kernel's body, run whole at a step of the reduction that is neither the first nor the last:
  what its stores leave in the accumulator, as pieces (the last store first),
  with the proof that the body runs from whole buffers to its return.
-/
import proofs.«180204_j89017492177648_2_alg».proof.Proof.KernelIdeal.OutRunA

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the accumulator (\`xs0\`), and its run:
    the three input blocks are handed back as they were, the idle output block too. -/
noncomputable def kernelRun_B (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i)
    (x0 : Vec F S1x512x1024 .f32) (x1 : Vec F S1x512x1024 .f32) (x2 : Vec F S1x1x512 .f32) (xs0 : Vec F S512x1024 .f32) :
    { LS0 : List (View.Piece (Elt F) S512x1024 .f32) //
      ∀ (xi3 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg3 harg3 arg4 harg4 arg5 harg5 arg6 harg6 arg7 harg7) K } := by
  refine ⟨?_, fun xi3 E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Out

end
-- ==== Proof.KernelIdeal.OutRunC.lean ====
/-
  The output kernel's body, run whole at a last step of the reduction (which is not a first one):
  what its stores leave in the accumulator and in the output block, as pieces (the last store first),
  with the proof that the body runs from whole buffers to its return.
-/
import proofs.«180204_j89017492177648_2_alg».proof.Proof.KernelIdeal.OutRunB

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave, over what the step before left in the accumulator (\`xs0\`), and its run:
    the three input blocks are handed back as they were. -/
noncomputable def kernelRun_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i)
    (x0 : Vec F S1x512x1024 .f32) (x1 : Vec F S1x512x1024 .f32) (x2 : Vec F S1x1x512 .f32) (xs0 : Vec F S512x1024 .f32) :
    Σ' (L3 : List (View.Piece (Elt F) S1x512x1024 .f32)), { LS0 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__out_kernel i arg3 harg3 arg4 harg4 arg5 harg5 arg6 harg6 arg7 harg7) K } := by
  refine ⟨?_, ?_, fun E K => ?run⟩
  case run =>
    simp only [cc1__out_kernel_eq_skeleton]; unfold cc1__out_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Out

end
-- ==== Proof.KernelIdeal.OutFrame.lean ====
/-
  The output kernel: what the output block and the accumulator hold after each point of the grid,
  the proof data of its pipeline, and the body obligation at every point.
-/
import proofs.«180204_j89017492177648_2_alg».proof.Proof.KernelIdeal.OutRunC

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The pieces for the accumulator cover it. -/
theorem coverAcc_A (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i) (x0 : Vec F S1x512x1024 .f32) (x1 : Vec F S1x512x1024 .f32) (x2 : Vec F S1x1x512 .f32) (y : S512x1024.Idx) :
    ∃ pc ∈ (kernelRun_A c i arg3 harg3 arg4 harg4 arg5 harg5 arg6 harg6 arg7 harg7 hc0 hc1 x0 x1 x2).1, y ∈ pc.1.set :=
  View.cover_of_tiledL (kernelRun_A c i arg3 harg3 arg4 harg4 arg5 harg5 arg6 harg6 arg7 harg7 hc0 hc1 x0 x1 x2).1 S512x1024.size (by sl_kernel_rfl) y
/-- What the step leaves in the accumulator. -/
def sacc_A (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i) (x0 : Vec F S1x512x1024 .f32) (x1 : Vec F S1x512x1024 .f32) (x2 : Vec F S1x1x512 .f32) : Vec F S512x1024 .f32 :=
  VAcc.read (Elt F) (VAcc.writes (Elt F) VAcc.junk (kernelRun_A c i arg3 harg3 arg4 harg4 arg5 harg5 arg6 harg6 arg7 harg7 hc0 hc1 x0 x1 x2).1)

/-- The pieces for the accumulator cover it. -/
theorem coverAcc_B (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i) (x0 : Vec F S1x512x1024 .f32) (x1 : Vec F S1x512x1024 .f32) (x2 : Vec F S1x1x512 .f32) (xs0 : Vec F S512x1024 .f32) (y : S512x1024.Idx) :
    ∃ pc ∈ (kernelRun_B c i arg3 harg3 arg4 harg4 arg5 harg5 arg6 harg6 arg7 harg7 hc0 hc1 x0 x1 x2 xs0).1, y ∈ pc.1.set :=
  View.cover_of_tiledL (kernelRun_B c i arg3 harg3 arg4 harg4 arg5 harg5 arg6 harg6 arg7 harg7 hc0 hc1 x0 x1 x2 xs0).1 S512x1024.size (by sl_kernel_rfl) y
/-- What the step leaves in the accumulator. -/
def sacc_B (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i) (x0 : Vec F S1x512x1024 .f32) (x1 : Vec F S1x512x1024 .f32) (x2 : Vec F S1x1x512 .f32) (xs0 : Vec F S512x1024 .f32) : Vec F S512x1024 .f32 :=
  VAcc.read (Elt F) (VAcc.writes (Elt F) VAcc.junk (kernelRun_B c i arg3 harg3 arg4 harg4 arg5 harg5 arg6 harg6 arg7 harg7 hc0 hc1 x0 x1 x2 xs0).1)

/-- The pieces for the accumulator cover it. -/
theorem coverAcc_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) (y : S512x1024.Idx) :
    ∃ pc ∈ (kernelRun_C c i arg3 harg3 arg4 harg4 arg5 harg5 arg6 harg6 arg7 harg7 hc0 hc1 x0 x1 x2 xs0).2.1, y ∈ pc.1.set :=
  View.cover_of_tiledL (kernelRun_C c i arg3 harg3 arg4 harg4 arg5 harg5 arg6 harg6 arg7 harg7 hc0 hc1 x0 x1 x2 xs0).2.1 S512x1024.size (by sl_kernel_rfl) y
/-- What the step leaves in the accumulator. -/
def sacc_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) : Vec F S512x1024 .f32 :=
  VAcc.read (Elt F) (VAcc.writes (Elt F) VAcc.junk (kernelRun_C c i arg3 harg3 arg4 harg4 arg5 harg5 arg6 harg6 arg7 harg7 hc0 hc1 x0 x1 x2 xs0).2.1)
/-- The pieces for the output block cover it. -/
theorem coverOut_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) (y : S1x512x1024.Idx) :
    ∃ pc ∈ (kernelRun_C c i arg3 harg3 arg4 harg4 arg5 harg5 arg6 harg6 arg7 harg7 hc0 hc1 x0 x1 x2 xs0).1, y ∈ pc.1.set :=
  View.cover_of_tiledL (kernelRun_C c i arg3 harg3 arg4 harg4 arg5 harg5 arg6 harg6 arg7 harg7 hc0 hc1 x0 x1 x2 xs0).1 S1x512x1024.size (by sl_kernel_rfl) y
/-- What the last step leaves in the output block. -/
def out_C (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) : Vec F S1x512x1024 .f32 :=
  VO.read (Elt F) (VO.writes (Elt F) VO.junk (kernelRun_C c i arg3 harg3 arg4 harg4 arg5 harg5 arg6 harg6 arg7 harg7 hc0 hc1 x0 x1 x2 xs0).1)

/-- The output block where the kernel does not store into it: a placeholder nothing reads. -/
def outIdle : Vec F S1x512x1024 .f32 := VO.read (Elt F) (VO.writes (Elt F) VO.junk [])

/-! ## Point by point -/

/-- What the output block and the accumulator hold after the body at position `n`. -/
def outsAt (c : Dev nD) : (n : ℕ) → n < cfg1.N → Vec F S1x512x1024 .f32 × Vec F S512x1024 .f32
  | 0, hn => (outIdle,
      sacc_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) scAcc (Memref.isWhole_whole _) ((hcondFirst ⟨0, hn⟩).mpr (Nat.zero_mod _)) (fun h => absurd ((hcondLast ⟨0, hn⟩).mp h) (by dsimp only; omega)) (iblk V c 0 ⟨0, hn⟩) (iblk V c 1 ⟨0, hn⟩) (iblk V c 2 ⟨0, hn⟩))
  | n + 1, hn =>
    if h0 : (n + 1) % 4 = 0 then
      (outIdle,
        sacc_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) ((hcondFirst ⟨n + 1, hn⟩).mpr h0) (fun h => absurd ((hcondLast ⟨n + 1, hn⟩).mp h) (by dsimp only; omega)) (iblk V c 0 ⟨n + 1, hn⟩) (iblk V c 1 ⟨n + 1, hn⟩) (iblk V c 2 ⟨n + 1, hn⟩))
    else if h1 : (n + 1) % 4 = 3 then
      (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2,
        sacc_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) (fun h => h0 ((hcondFirst ⟨n + 1, hn⟩).mp h)) ((hcondLast ⟨n + 1, hn⟩).mpr h1) (iblk V c 0 ⟨n + 1, hn⟩) (iblk V c 1 ⟨n + 1, hn⟩) (iblk V c 2 ⟨n + 1, hn⟩) (outsAt c n (Nat.lt_of_succ_lt hn)).2)
    else
      (outIdle,
        sacc_B c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) scAcc (Memref.isWhole_whole _) (fun h => h0 ((hcondFirst ⟨n + 1, hn⟩).mp h)) (fun h => h1 ((hcondLast ⟨n + 1, hn⟩).mp h)) (iblk V c 0 ⟨n + 1, hn⟩) (iblk V c 1 ⟨n + 1, hn⟩) (iblk V c 2 ⟨n + 1, hn⟩) (outsAt c n (Nat.lt_of_succ_lt hn)).2)

abbrev prev (t : Fin cfg1.N) : t.val - 1 < cfg1.N := Nat.lt_of_le_of_lt (Nat.sub_le _ _) t.isLt

theorem outsAt_A (c : Dev nD) (t : Fin cfg1.N) (h0 : t.val % 4 = 0) (h1 : ¬t.val % 4 = 3) :
    outsAt V c t.val t.isLt = (outIdle,
      sacc_A c (grid1.coords t) (ms_0 t) (hs_0 t) (ms_1 t) (hs_1 t) (ms_2 t) (hs_2 t) (ms_3 t) (hs_3 t) scAcc (Memref.isWhole_whole _) ((hcondFirst t).mpr h0) (fun h => h1 ((hcondLast t).mp h)) (iblk V c 0 t) (iblk V c 1 t) (iblk V c 2 t)) := by
  obtain ⟨n, hn⟩ := t
  cases n with
  | zero => exact rfl
  | succ n => exact (dif_pos h0).trans rfl

theorem outsAt_B (c : Dev nD) (t : Fin cfg1.N) (h0 : ¬t.val % 4 = 0) (h1 : ¬t.val % 4 = 3) :
    outsAt V c t.val t.isLt = (outIdle,
      sacc_B c (grid1.coords t) (ms_0 t) (hs_0 t) (ms_1 t) (hs_1 t) (ms_2 t) (hs_2 t) (ms_3 t) (hs_3 t) scAcc (Memref.isWhole_whole _) (fun h => h0 ((hcondFirst t).mp h)) (fun h => h1 ((hcondLast t).mp h)) (iblk V c 0 t) (iblk V c 1 t) (iblk V c 2 t) (outsAt V c (t.val - 1) (prev t)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg1.N) (h0 : ¬t.val % 4 = 0) (h1 : t.val % 4 = 3) :
    outsAt V c t.val t.isLt = (
      out_C c (grid1.coords t) (ms_0 t) (hs_0 t) (ms_1 t) (hs_1 t) (ms_2 t) (hs_2 t) (ms_3 t) (hs_3 t) scAcc (Memref.isWhole_whole _) (fun h => h0 ((hcondFirst t).mp h)) ((hcondLast t).mpr h1) (iblk V c 0 t) (iblk V c 1 t) (iblk V c 2 t) (outsAt V c (t.val - 1) (prev t)).2,
      sacc_C c (grid1.coords t) (ms_0 t) (hs_0 t) (ms_1 t) (hs_1 t) (ms_2 t) (hs_2 t) (ms_3 t) (hs_3 t) scAcc (Memref.isWhole_whole _) (fun h => h0 ((hcondFirst t).mp h)) ((hcondLast t).mpr h1) (iblk V c 0 t) (iblk V c 1 t) (iblk V c 2 t) (outsAt V c (t.val - 1) (prev t)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Every scoped buffer of the core that is neither a staging buffer of this kernel nor its accumulator. -/
abbrev RestBut (c : Dev nD) : sProp 𝕄 :=
  Pipeline.scopedRestBut (Ix := Unit) (Name := ℕ) (U := UR sig nD τ) (Lvl := ℕ) (Val := Elt F) spec1 c [cc1_scratch0]

theorem PhiA_eq (c : Dev nD) :
    (Pipeline.ΦA spec1 c : sProp 𝕄)
      = iprop(iprop((∃ d, owns (c : Thread nD τ) scAcc fullShare d) ∗ RestBut c) ∗ (∃ r, prngReg c r)) := by
  unfold Pipeline.ΦA
  rw [Pipeline.scopedRest_split_of_list spec1 c [cc1_scratch0] (by decide) (by decide)]
  simp only [bigSepL_singleton, scAcc, owns_whole]; try rfl

def PhiS (c : Dev nD) : (n : ℕ) → n ≤ cfg1.N → sProp 𝕄
  | 0, _ => Pipeline.ΦA spec1 c
  | n + 1, hn => iprop(iprop(owns (c : Thread nD τ) scAcc fullShare ((outsAt V c n hn).2) ∗ RestBut c) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(owns (c : Thread nD τ) scAcc fullShare ((outsAt V c n hn).2) ∗ RestBut c) ∗ (∃ r, prngReg c r)) := rfl

theorem PhiS_pos (c : Dev nD) (n : ℕ) (h : n ≤ cfg1.N) (hz : n ≠ 0) :
    PhiS V c n h = iprop(iprop(owns (c : Thread nD τ) scAcc fullShare ((outsAt V c (n - 1) (by omega)).2) ∗ RestBut c) ∗ (∃ r, prngReg c r)) := by
  cases n with
  | zero => exact absurd rfl hz
  | succ n => rfl

/-! ## The proof data -/

/-- The proof data of the output pipeline on core `c`: the two windows on the input array hold half of it each. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]

theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

/-! ## The body obligation -/

def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 8000000 in
/-- The body at any point: which case the point is in is read off its position; the accumulator comes in at what
    the point before left (at anything at the very first point) and goes out at what this point leaves. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms_0 t) fullShare ((dat V c).after 0 t) from by
      unfold Dat.leavesExact; rw [liveAt_0 t], after_0]
  rw [show (dat V c).leavesExact 1 t = owns (c : Thread nD τ) (ms_1 t) fullShare ((dat V c).after 1 t) from by
      unfold Dat.leavesExact; rw [liveAt_1 t], after_1]
  rw [show (dat V c).leavesExact 2 t = owns (c : Thread nD τ) (ms_2 t) fullShare ((dat V c).after 2 t) from by
      unfold Dat.leavesExact; rw [liveAt_2 t], after_2]
  by_cases h0 : t.val % 4 = 0
  · have h1 : ¬t.val % 4 = 3 := by omega
    rw [Dat.leavesExact_idle (dat V c) 3 t (idleAt_3 t (fun h => h1 ((hcondLast t).mp h))) (noFlush_3 t (fun h => h1 ((hcondLast t).mp h)))]
    rw [outsAt_A V c t h0 h1]
    unfold sacc_A; (try dsimp only)
    by_cases hz : t.val = 0
    · rw [PhiS_castSucc V c t, PhiS_zero V c _ _ hz, PhiA_eq]
      iintro ⟨⟨⟨HS0, HR⟩, Hg⟩, Ho, ⟨%d0, H0⟩, ⟨%d1, H1⟩, ⟨%d2, H2⟩, ⟨%d3, H3⟩⟩
      iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_A c _ _ _ _ _ _ _ _ _ _ _ _ _ _ _ _ )
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun_A c (grid1.coords t) _ _ _ _ _ _ _ _ _ _ ((hcondFirst t).mpr h0) (fun h => h1 ((hcondLast t).mp h)) (iblk V c 0 t) (iblk V c 1 t) (iblk V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_A c _ _ _ _ _ _ _ _ _ _ _ _ _ _ _ _ )
          iexact HR
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 4 = 3
    · rw [show (dat V c).leavesExact 3 t = owns (c : Thread nD τ) (ms_3 t) fullShare ((dat V c).after 3 t) from by
        unfold Dat.leavesExact; rw [liveAt_3 t ((hcondLast t).mpr h1)], after_3]
      rw [outsAt_C V c t h0 h1]
      unfold out_C sacc_C; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((hcondFirst t).mp h)) ((hcondLast t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_C c _ _ _ _ _ _ _ _ _ _ _ _ _ _ _ _ _ )
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverOut_C c _ _ _ _ _ _ _ _ _ _ _ _ _ _ _ _ _ )
    · rw [Dat.leavesExact_idle (dat V c) 3 t (idleAt_3 t (fun h => h1 ((hcondLast t).mp h))) (noFlush_3 t (fun h => h1 ((hcondLast t).mp h)))]
      rw [outsAt_B V c t h0 h1]
      unfold sacc_B; (try dsimp only)
      rw [PhiS_castSucc V c t, PhiS_pos V c _ _ hz]
      iintro ⟨⟨⟨HS0, HR⟩, Hg⟩, Ho, ⟨%d0, H0⟩, ⟨%d1, H1⟩, ⟨%d2, H2⟩, ⟨%d3, H3⟩⟩
      iapply ((kernelRun_B c (grid1.coords t) _ _ _ _ _ _ _ _ _ _ (fun h => h0 ((hcondFirst t).mp h)) (fun h => h1 ((hcondLast t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (coverAcc_B c _ _ _ _ _ _ _ _ _ _ _ _ _ _ _ _ _ )
          iexact HR
        iexact Hg
      isplitl [Ho]; · iexact Ho
      isplitl [H0]; · iexact H0
      isplitl [H1]; · iexact H1
      isplitl [H2]; · iexact H2
      iexists _; iexact H3

/-- The body obligation of the output pipeline, at every point. -/
theorem body_obligation (c : Dev nD) : BodyObligation (dat (F := F) V c) (defs₀ (F := F)) Variants.none () Set.univ := fun t => by
  rw [bigSep_W1, bigSep_W1]
  exact sound_body V c t

theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, HR⟩, Hg⟩
  isplitl [HS0 HR]
  · isplitl [HS0]
    · iexists _; iexact HS0
    iexact HR
  iexact Hg

theorem hout (c : Dev nD) : (dat V c).Φ (Fin.last cfg1.N) ⊢ Pipeline.ΦA spec1 c :=
  Phi_out V c _ (by rw [Fin.val_last]; have : cfg1.N = 128 := N_1; omega)

end Cert.KernelIdeal.Out

end
-- ==== Proof.KernelIdeal.Run.lean ====
/-
  The whole program: the statistics kernel, then the output kernel, as two regions of @main.
  Between them the core holds its three arrays whole: the input, the row statistics (written by the first
  kernel, read by the second) and the result (written by the second).  Inside a region the input array is
  read through two windows at once, so each holds half of it; the halves are joined again at the exit.
  The run: every weakly fair execution terminates, the result array ends at what the second pipeline's
  write-backs leave, and the input array ends as launched.
-/
import proofs.«180204_j89017492177648_2_alg».proof.Proof.KernelIdeal.StatsFrame
import proofs.«180204_j89017492177648_2_alg».proof.Proof.KernelIdeal.OutFrame
import Idealize.ShloMosaic.Lib.Pipeline.Regions
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays' contents between the regions -/

/-- At launch. -/
abbrev W0 (c : Dev nD) : Valuation τ sig (Elt F) := fun b => m (c, b)
abbrev U0 (c : Dev nD) (b : Ref sig .tc) : Buf (Elt F) ((c : Thread nD τ).loc b) := W0 m c b
/-- The row statistics the first kernel leaves: its output array after all its write-backs. -/
def lse (c : Dev nD) : Buf (Elt F) ((c : Thread nD τ).loc main_v0) := (Stats.dat (U0 m) c).arrAt 2 cfg0.N
/-- After the first kernel. -/
def W1 (c : Dev nD) : Valuation τ sig (Elt F) := Function.update (W0 m c) main_v0 (lse m c)
abbrev U1 (c : Dev nD) (b : Ref sig .tc) : Buf (Elt F) ((c : Thread nD τ).loc b) := W1 m c b
/-- The result the second kernel leaves: its output array after all its write-backs. -/
def res (c : Dev nD) : Buf (Elt F) ((c : Thread nD τ).loc main_v1) := (Out.dat (U1 m) c).arrAt 3 cfg1.N
/-- After the second kernel. -/
def W2 (c : Dev nD) : Valuation τ sig (Elt F) := Function.update (W1 m c) main_v1 (res m c)

theorem W1_arg0 (c : Dev nD) : W1 m c main_arg0 = W0 m c main_arg0 :=
  Function.update_of_ne (StableHlo.devRef_ne_of_ne (by decide) : (Proc.devRef .tc main_arg0 : DevRef τ sig) ≠ Proc.devRef .tc main_v0) _ _
theorem W1_v0 (c : Dev nD) : W1 m c main_v0 = lse m c := Function.update_self _ _ _
theorem W1_v1 (c : Dev nD) : W1 m c main_v1 = W0 m c main_v1 :=
  Function.update_of_ne (StableHlo.devRef_ne_of_ne (by decide) : (Proc.devRef .tc main_v1 : DevRef τ sig) ≠ Proc.devRef .tc main_v0) _ _
theorem W2_arg0 (c : Dev nD) : W2 m c main_arg0 = W0 m c main_arg0 :=
  (Function.update_of_ne (StableHlo.devRef_ne_of_ne (by decide) : (Proc.devRef .tc main_arg0 : DevRef τ sig) ≠ Proc.devRef .tc main_v1) _ _).trans (W1_arg0 m c)
theorem W2_v0 (c : Dev nD) : W2 m c main_v0 = W1 m c main_v0 :=
  Function.update_of_ne (StableHlo.devRef_ne_of_ne (by decide) : (Proc.devRef .tc main_v0 : DevRef τ sig) ≠ Proc.devRef .tc main_v1) _ _
theorem W2_v1 (c : Dev nD) : W2 m c main_v1 = res m c := Function.update_self _ _ _

/-! ## The core's unscoped buffers and the pipelines' arrays, one by one -/

theorem held_eq (c : Dev nD) (W : Valuation τ sig (Elt F)) :
    (StableHlo.held (c : Thread nD τ) (Pipeline.ucRefs τ sig) W : sProp 𝕄)
      = iprop((((c : Thread nD τ).loc main_arg0) ↦{fullShare} W main_arg0) ∗ (((c : Thread nD τ).loc main_v0) ↦{fullShare} W main_v0) ∗ (((c : Thread nD τ).loc main_v1) ↦{fullShare} W main_v1)) := by
  rw [← Pipeline.unscopedBufs_held (Ix := Unit) (Name := ℕ) (U := UR sig nD τ) (Lvl := ℕ) c W]
  unfold unscopedBufs
  exact bigSep_eq_bigSepL_of_eq [main_arg0, main_v0, main_v1] (by decide) (by decide) _

section
variable (V : (c : Dev nD) → (b : Ref sig .tc) → Buf (Elt F) ((c : Thread nD τ).loc b))

theorem arrays0_eq (c : Dev nD) (Fn : (w : Fin cfg0.W) → Buf (Elt F) ((cfg0.win w).arr.view.loc (c : Thread nD τ))) :
    ((Stats.dat V c).arrays Fn : sProp 𝕄)
      = iprop((((c : Thread nD τ).loc main_arg0) ↦{fullShare.left} Fn 0) ∗ (((c : Thread nD τ).loc main_arg0) ↦{fullShare.right} Fn 1) ∗ (((c : Thread nD τ).loc main_v0) ↦{fullShare} Fn 2)) := by
  unfold Dat.arrays
  rw [bigSep_W0]
  rw [(arr_whole0 0).set_eq_univ, (arr_whole0 2).set_eq_univ]
  rfl

theorem arrays1_eq (c : Dev nD) (Fn : (w : Fin cfg1.W) → Buf (Elt F) ((cfg1.win w).arr.view.loc (c : Thread nD τ))) :
    ((Out.dat V c).arrays Fn : sProp 𝕄)
      = iprop((((c : Thread nD τ).loc main_arg0) ↦{fullShare.left} Fn 0) ∗ (((c : Thread nD τ).loc main_arg0) ↦{fullShare.right} Fn 1) ∗ (((c : Thread nD τ).loc main_v0) ↦{fullShare} Fn 2) ∗ (((c : Thread nD τ).loc main_v1) ↦{fullShare} Fn 3)) := by
  unfold Dat.arrays
  rw [bigSep_W1]
  rw [(arr_whole1 0).set_eq_univ, (arr_whole1 2).set_eq_univ, (arr_whole1 3).set_eq_univ]
  rfl
end

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => Stats.dat (U0 m) c
  | ⟨1, _⟩ => fun c => Out.dat (U1 m) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev Tₙ (c : Dev nD) : sProp 𝕄 := iprop(StableHlo.held (c : Thread nD τ) (Pipeline.ucRefs τ sig) (W2 m c) ∗ ∃ r, prngReg c r)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions -/

set_option backward.isDefEq.respectTransparency.types false in
/-- The statistics kernel's region: entered with the three arrays at their launch contents, left with the
    statistics array at what the pipeline wrote. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (Stats.body_obligation (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := (((c : Thread nD τ).loc main_v1) ↦{fullShare} W0 m c main_v1)
  hentry c := by
    rw [Pipeline.ownSems0_none, held_eq]
    rw [show ((pdats m 0 c).arrays ((pdats m 0 c).arrAt · 0) : sProp 𝕄) = _ from arrays0_eq (U0 m) c _]
    iintro ⟨⟨⟨Ha, Hv0, Hv1⟩, Hp, HO⟩, -, -⟩
    ihave Ha := (pointsTo_share (PosShare.mem_left_op_right fullShare)).1 $$ Ha
    icases Ha with ⟨Ha1, Ha2⟩
    imodintro
    isplitl [Ha1 Ha2 Hv0]
    · isplitl [Ha1]; · iexact Ha1
      isplitl [Ha2]; · iexact Ha2
      iexact Hv0
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hv1
  hin c := by
    refine .trans ?_ (Stats.hin (U0 m) c)
    unfold Pipeline.ΦA
    iintro ⟨Hp, -, Hr⟩
    isplitl [Hr]; · iexact Hr
    iexact Hp
  hout c := by
    rw [Pipeline.ownSems0_none]
    refine (Stats.hout (U0 m) c).trans ?_
    unfold Pipeline.ΦA
    iintro ⟨Hr, Hp⟩
    isplitl [Hp]; · iexact Hp
    isplitr; · iempintro
    iexact Hr
  hexit c := by
    rw [held_eq, W1_arg0, W1_v0, W1_v1]
    rw [show ((pdats m 0 c).arrays ((pdats m 0 c).arrAt · (Pipeline.pin (pcfgs (F := F)) adm 0).N) : sProp 𝕄) = _ from arrays0_eq (U0 m) c _]
    rw [show (pdats m 0 c).arrAt 0 (Pipeline.pin (pcfgs (F := F)) adm 0).N = W0 m c main_arg0 from ((Stats.dat (U0 m) c).arrAt_in 0 rfl _).trans rfl,
      show (pdats m 0 c).arrAt 1 (Pipeline.pin (pcfgs (F := F)) adm 0).N = W0 m c main_arg0 from ((Stats.dat (U0 m) c).arrAt_in 1 rfl _).trans rfl]
    iintro ⟨⟨Ha1, Ha2, Hv0⟩, HO, HY, Hv1⟩
    ihave Ha := (pointsTo_share (PosShare.mem_left_op_right fullShare)).2 $$ [Ha1 Ha2]
    · isplitl [Ha1] <;> iassumption
    imodintro
    isplitl [Ha Hv0 Hv1]
    · isplitl [Ha]; · iexact Ha
      isplitl [Hv0]; · iexact Hv0
      iexact Hv1
    isplitl [HY]; · iexact HY
    unfold Pipeline.Dat.owesAt Pipeline.owesWithin
    icases HO with ⟨%W, -, HO⟩; iexists W; iexact HO

set_option backward.isDefEq.respectTransparency.types false in
/-- The output kernel's region: entered with the statistics array at what the first kernel wrote, left with
    the result array at what this pipeline wrote. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (Out.body_obligation (U1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := iprop(emp)
  hentry c := by
    rw [Pipeline.ownSems0_none, held_eq]
    rw [show ((pdats m 1 c).arrays ((pdats m 1 c).arrAt · 0) : sProp 𝕄) = _ from arrays1_eq (U1 m) c _]
    iintro ⟨⟨⟨Ha, Hv0, Hv1⟩, Hp, HO⟩, -, -⟩
    ihave Ha := (pointsTo_share (PosShare.mem_left_op_right fullShare)).1 $$ Ha
    icases Ha with ⟨Ha1, Ha2⟩
    imodintro
    isplitl [Ha1 Ha2 Hv0 Hv1]
    · isplitl [Ha1]; · iexact Ha1
      isplitl [Ha2]; · iexact Ha2
      isplitl [Hv0]; · iexact Hv0
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iempintro
  hin c := by
    refine .trans ?_ (Out.hin (U1 m) c)
    unfold Pipeline.ΦA
    iintro ⟨Hp, -, Hr⟩
    isplitl [Hr]; · iexact Hr
    iexact Hp
  hout c := by
    rw [Pipeline.ownSems0_none]
    refine (Out.hout (U1 m) c).trans ?_
    unfold Pipeline.ΦA
    iintro ⟨Hr, Hp⟩
    isplitl [Hp]; · iexact Hp
    isplitr; · iempintro
    iexact Hr
  hexit c := by
    unfold Tₙ
    rw [held_eq, W2_arg0, W2_v0, W2_v1]
    rw [show ((pdats m 1 c).arrays ((pdats m 1 c).arrAt · (Pipeline.pin (pcfgs (F := F)) adm 1).N) : sProp 𝕄) = _ from arrays1_eq (U1 m) c _]
    rw [show (pdats m 1 c).arrAt 0 (Pipeline.pin (pcfgs (F := F)) adm 1).N = W0 m c main_arg0 from (((Out.dat (U1 m) c).arrAt_in 0 rfl _).trans rfl).trans (W1_arg0 m c),
      show (pdats m 1 c).arrAt 1 (Pipeline.pin (pcfgs (F := F)) adm 1).N = W0 m c main_arg0 from (((Out.dat (U1 m) c).arrAt_in 1 rfl _).trans rfl).trans (W1_arg0 m c),
      show (pdats m 1 c).arrAt 2 (Pipeline.pin (pcfgs (F := F)) adm 1).N = W1 m c main_v0 from ((Out.dat (U1 m) c).arrAt_in 2 rfl _).trans rfl]
    iintro ⟨⟨Ha1, Ha2, Hv0, Hv1⟩, HO, HY, -⟩
    ihave Ha := (pointsTo_share (PosShare.mem_left_op_right fullShare)).2 $$ [Ha1 Ha2]
    · isplitl [Ha1] <;> iassumption
    imodintro
    isplitl [Ha Hv0 Hv1 HY]
    · isplitl [Ha Hv0 Hv1]
      · isplitl [Ha]; · iexact Ha
        isplitl [Hv0]; · iexact Hv0
        iexact Hv1
      iexact HY
    unfold Pipeline.Dat.owesAt Pipeline.owesWithin
    icases HO with ⟨%W, -, HO⟩; iexists W; iexact HO

/-! ## The run -/

set_option backward.isDefEq.respectTransparency.types false in
/-- Every weakly fair execution of @main terminates; the result array ends at what the second pipeline's
    write-backs leave and the input array as launched. -/
theorem run : θ_run defs (onTc (τ := τ) (main (F := F))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)) :=
  Pipeline.θ_run_regions_kit (pcfgs (F := F)) adm (pdats m) () cellOf_inj emb₁ defs₀ 𝒱₀ L lv m ρ main
    [.region (reg0 m), .region (reg1 m)]
    (fun c Q => by rw [main_segs adm (pdats m) () 𝒱₀ L lv (reg0 m) (reg1 m) c])
    (by simp only [Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_v1 m c), (h c _ (mem_uc main_arg0 (by decide))).trans (W2_arg0 m c)⟩)

/-- The frame: the program runs and leaves its input array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run m ρ)

end Cert.KernelIdeal.Hand

end
-- ==== Proof.RefFrame.lean ====
/-
  The reference program is a straight line of host operations: its run terminates, faults nowhere and leaves the
  argument array as launched. The frame claim of the reference is that run with the result's value dropped.
-/
import proofs.«180204_j89017492177648_2_alg».proof.Defs
import proofs.«180204_j89017492177648_2_alg».proof.Proof.Gen.ReferenceIdeal
import proofs.«180204_j89017492177648_2_alg».proof.Proof.Gen.ReferenceIdeal.Read

noncomputable section

namespace Cert.Proof.RefFrame

open Idealize.ShloMosaic Idealize.SL.Sem

/-- Every weakly fair execution of the reference ends with the argument array unchanged. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.KernelIdeal.Pieces.lean ====
/-
  What each case of the two kernels leaves, as the named arithmetic of what it loaded:
  the running maximum and the running sum after a step of the statistics kernel, the output block of its last step,
  the accumulator after a step of the output kernel, the output block of its last step.
  A load of a scratch vector that the same step has just stored into reads what was stored.
-/
import proofs.«180204_j89017492177648_2_alg».proof.Proof.KernelIdeal.StatsFrame
import proofs.«180204_j89017492177648_2_alg».proof.Proof.KernelIdeal.OutFrame
import Idealize.ShloMosaic.Lib.Pipeline.Value

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

namespace Stats

theorem smax_A_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) :
    smax_A c i arg3 harg3 arg4 harg4 arg5 harg5 arg6 harg6 arg7 harg7 hc0 hc1 x0 x1 = k0_pay7 x0 x1 (k0_pay2 (F := F)) := by
  unfold smax_A
  rw [View.read_writes_eq_canon _ _ _ (coverMax_A c i arg3 harg3 arg4 harg4 arg5 harg5 arg6 harg6 arg7 harg7 hc0 hc1 x0 x1)]
  unfold kernelRun_A
  dsimp only
  try sl_unfold_words
  rw [View.canon_cons_unit_zero hz2]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

theorem ssum_A_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : condFirst i) (hc1 : ¬condLast i) (x0 : Vec F S1x1024x1024 .f32) (x1 : Vec F S1x512x1024 .f32) :
    ssum_A c i arg3 harg3 arg4 harg4 arg5 harg5 arg6 harg6 arg7 harg7 hc0 hc1 x0 x1 = k0_pay6 x0 x1 (k0_pay2 (F := F)) (k0_pay2 (F := F)) (k0_pay3 (F := F)) := by
  unfold ssum_A
  rw [View.read_writes_eq_canon _ _ _ (coverSum_A c i arg3 harg3 arg4 harg4 arg5 harg5 arg6 harg6 arg7 harg7 hc0 hc1 x0 x1)]
  unfold kernelRun_A
  dsimp only
  try sl_unfold_words
  rw [View.canon_cons_unit_zero hz2]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

theorem smax_B_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 xs1 : Vec F S1024x1 .f32) :
    smax_B c i arg3 harg3 arg4 harg4 arg5 harg5 arg6 harg6 arg7 harg7 hc0 hc1 x0 x1 xs0 xs1 = k0_pay7 x0 x1 xs0 := by
  unfold smax_B
  rw [View.read_writes_eq_canon _ _ _ (coverMax_B c i arg3 harg3 arg4 harg4 arg5 harg5 arg6 harg6 arg7 harg7 hc0 hc1 x0 x1 xs0 xs1)]
  unfold kernelRun_B
  dsimp only
  try sl_unfold_words
  rw [View.canon_unit_zero hz2]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

theorem ssum_B_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : ¬condLast i) (x0 : Vec F S1x1024x1024 .f32) (x1 : Vec F S1x512x1024 .f32) (xs0 xs1 : Vec F S1024x1 .f32) :
    ssum_B c i arg3 harg3 arg4 harg4 arg5 harg5 arg6 harg6 arg7 harg7 hc0 hc1 x0 x1 xs0 xs1 = k0_pay6 x0 x1 xs0 xs0 xs1 := by
  unfold ssum_B
  rw [View.read_writes_eq_canon _ _ _ (coverSum_B c i arg3 harg3 arg4 harg4 arg5 harg5 arg6 harg6 arg7 harg7 hc0 hc1 x0 x1 xs0 xs1)]
  unfold kernelRun_B
  dsimp only
  try sl_unfold_words
  rw [View.canon_unit_zero hz2]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

theorem smax_C_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 xs1 : Vec F S1024x1 .f32) :
    smax_C c i arg3 harg3 arg4 harg4 arg5 harg5 arg6 harg6 arg7 harg7 hc0 hc1 x0 x1 xs0 xs1 = k0_pay7 x0 x1 xs0 := by
  unfold smax_C
  rw [View.read_writes_eq_canon _ _ _ (coverMax_C c i arg3 harg3 arg4 harg4 arg5 harg5 arg6 harg6 arg7 harg7 hc0 hc1 x0 x1 xs0 xs1)]
  unfold kernelRun_C
  dsimp only
  try sl_unfold_words
  rw [View.canon_unit_zero hz2]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

theorem ssum_C_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 xs1 : Vec F S1024x1 .f32) :
    ssum_C c i arg3 harg3 arg4 harg4 arg5 harg5 arg6 harg6 arg7 harg7 hc0 hc1 x0 x1 xs0 xs1 = k0_pay6 x0 x1 xs0 xs0 xs1 := by
  unfold ssum_C
  rw [View.read_writes_eq_canon _ _ _ (coverSum_C c i arg3 harg3 arg4 harg4 arg5 harg5 arg6 harg6 arg7 harg7 hc0 hc1 x0 x1 xs0 xs1)]
  unfold kernelRun_C
  dsimp only
  try sl_unfold_words
  rw [View.canon_unit_zero hz2]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

theorem out_C_eq (c : Dev nD) (i : grid0.Coords) (arg3 : Memref sig .tc .vmem S1x1024x1024 .f32) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1024x1 .f32) (harg6 : arg6.IsWhole) (arg7 : Memref sig .tc .vmem S1024x1 .f32) (harg7 : arg7.IsWhole) (hc0 : ¬condFirst i) (hc1 : condLast i) (x0 : Vec F S1x1024x1024 .f32) (x1 : Vec F S1x512x1024 .f32) (xs0 xs1 : Vec F S1024x1 .f32) :
    out_C c i arg3 harg3 arg4 harg4 arg5 harg5 arg6 harg6 arg7 harg7 hc0 hc1 x0 x1 xs0 xs1 = k0_pay1 (k0_pay7 x0 x1 xs0) (k0_pay6 x0 x1 xs0 xs0 xs1) := by
  unfold out_C
  rw [View.read_writes_eq_canon _ _ _ (coverOut_C c i arg3 harg3 arg4 harg4 arg5 harg5 arg6 harg6 arg7 harg7 hc0 hc1 x0 x1 xs0 xs1)]
  unfold kernelRun_C
  dsimp only
  try sl_unfold_words
  rw [View.canon_unit_zero hz3]
  simp only [View.readAt_eq_ld, harg3.read_unread, harg4.read_unread, harg6.read_unread, harg7.read_unread, View.ld_unit_zero (S := S1x1024x1024) hz3, View.ld_unit_zero (S := S1x512x1024) hz3, View.ld_unit_zero (S := S1024x1) hz2, View.readCov_unit_zero (S := S1024x1) _ hz2]

end Stats

namespace Out

theorem sacc_A_eq (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : condFirst i) (hc1 : ¬condLast i) (x0 : Vec F S1x512x1024 .f32) (x1 : Vec F S1x512x1024 .f32) (x2 : Vec F S1x1x512 .f32) :
    sacc_A c i arg3 harg3 arg4 harg4 arg5 harg5 arg6 harg6 arg7 harg7 hc0 hc1 x0 x1 x2 = k1_pay2 x0 x1 x2 (k1_pay1 (F := F)) := by
  unfold sacc_A
  rw [View.read_writes_eq_canon _ _ _ (coverAcc_A c i arg3 harg3 arg4 harg4 arg5 harg5 arg6 harg6 arg7 harg7 hc0 hc1 x0 x1 x2)]
  unfold kernelRun_A
  dsimp only
  try sl_unfold_words
  rw [View.canon_cons_unit_zero hz2]
  simp only [View.readAt_eq_ld, harg3.read_unread, harg4.read_unread, harg5.read_unread, harg7.read_unread, View.ld_unit_zero (S := S1x512x1024) hz3, View.ld_unit_zero (S := S1x1x512) hz3, View.ld_unit_zero (S := S512x1024) hz2, View.readCov_unit_zero (S := S512x1024) _ hz2]

theorem sacc_B_eq (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : ¬condLast i) (x0 : Vec F S1x512x1024 .f32) (x1 : Vec F S1x512x1024 .f32) (x2 : Vec F S1x1x512 .f32) (xs0 : Vec F S512x1024 .f32) :
    sacc_B c i arg3 harg3 arg4 harg4 arg5 harg5 arg6 harg6 arg7 harg7 hc0 hc1 x0 x1 x2 xs0 = k1_pay2 x0 x1 x2 xs0 := by
  unfold sacc_B
  rw [View.read_writes_eq_canon _ _ _ (coverAcc_B c i arg3 harg3 arg4 harg4 arg5 harg5 arg6 harg6 arg7 harg7 hc0 hc1 x0 x1 x2 xs0)]
  unfold kernelRun_B
  dsimp only
  try sl_unfold_words
  rw [View.canon_unit_zero hz2]
  simp only [View.readAt_eq_ld, harg3.read_unread, harg4.read_unread, harg5.read_unread, harg7.read_unread, View.ld_unit_zero (S := S1x512x1024) hz3, View.ld_unit_zero (S := S1x1x512) hz3, View.ld_unit_zero (S := S512x1024) hz2, View.readCov_unit_zero (S := S512x1024) _ hz2]

theorem sacc_C_eq (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) :
    sacc_C c i arg3 harg3 arg4 harg4 arg5 harg5 arg6 harg6 arg7 harg7 hc0 hc1 x0 x1 x2 xs0 = k1_pay2 x0 x1 x2 xs0 := by
  unfold sacc_C
  rw [View.read_writes_eq_canon _ _ _ (coverAcc_C c i arg3 harg3 arg4 harg4 arg5 harg5 arg6 harg6 arg7 harg7 hc0 hc1 x0 x1 x2 xs0)]
  unfold kernelRun_C
  dsimp only
  try sl_unfold_words
  rw [View.canon_unit_zero hz2]
  simp only [View.readAt_eq_ld, harg3.read_unread, harg4.read_unread, harg5.read_unread, harg7.read_unread, View.ld_unit_zero (S := S1x512x1024) hz3, View.ld_unit_zero (S := S1x1x512) hz3, View.ld_unit_zero (S := S512x1024) hz2, View.readCov_unit_zero (S := S512x1024) _ hz2]

theorem out_C_eq (c : Dev nD) (i : grid1.Coords) (arg3 : Memref sig .tc .vmem S1x512x1024 .f32) (harg3 : arg3.IsWhole) (arg4 : Memref sig .tc .vmem S1x512x1024 .f32) (harg4 : arg4.IsWhole) (arg5 : Memref sig .tc .vmem S1x1x512 .f32) (harg5 : arg5.IsWhole) (arg6 : Memref sig .tc .vmem S1x512x1024 .f32) (harg6 : arg6.IsWhole) (arg7 : Memref sig .tc .vmem S512x1024 .f32) (harg7 : arg7.IsWhole) (hc0 : ¬condFirst i) (hc1 : condLast i) (x0 : Vec F S1x512x1024 .f32) (x1 : Vec F S1x512x1024 .f32) (x2 : Vec F S1x1x512 .f32) (xs0 : Vec F S512x1024 .f32) :
    out_C c i arg3 harg3 arg4 harg4 arg5 harg5 arg6 harg6 arg7 harg7 hc0 hc1 x0 x1 x2 xs0 = k1_pay3 (k1_pay2 x0 x1 x2 xs0) := by
  unfold out_C
  rw [View.read_writes_eq_canon _ _ _ (coverOut_C c i arg3 harg3 arg4 harg4 arg5 harg5 arg6 harg6 arg7 harg7 hc0 hc1 x0 x1 x2 xs0)]
  unfold kernelRun_C
  dsimp only
  try sl_unfold_words
  rw [View.canon_unit_zero hz3]
  simp only [View.readAt_eq_ld, harg3.read_unread, harg4.read_unread, harg5.read_unread, harg7.read_unread, View.ld_unit_zero (S := S1x512x1024) hz3, View.ld_unit_zero (S := S1x1x512) hz3, View.ld_unit_zero (S := S512x1024) hz2, View.readCov_unit_zero (S := S512x1024) _ hz2]

end Out

end Cert.KernelIdeal

end
-- ==== Proof.KernelIdeal.Blocks.lean ====
/-
  The windows' blocks as reads of their arrays.  A point of the statistics kernel's grid, in position order, is
  t = 8 b + 4 i + j (batch b, row tile i of 1024 rows, column tile j of 512 rows); a point of the output kernel's grid
  is t = 16 b + 4 i + j (batch b, query tile i of 512 rows, key tile j of 512 rows).  A block's element at an offset
  inside the block is the array's element at (block index) x (block size) + offset, axis by axis.
-/
import proofs.«180204_j89017492177648_2_alg».proof.Proof.KernelIdeal.StatsFrame
import proofs.«180204_j89017492177648_2_alg».proof.Proof.KernelIdeal.OutFrame
import Idealize.ShloMosaic.Lib.Pipeline.Value
import Idealize.ShloMosaic.Lib.ValueIdx

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

namespace Stats

/-- The block indices of the three windows, decided over the grid. -/
theorem idx0 : ∀ t : Fin cfg0.N, win0_0.index t 0 = t.val / 8 ∧ win0_0.index t 1 = t.val / 4 % 2 ∧ win0_0.index t 2 = 0 :=
  (by decide +kernel : ∀ t : Fin grid0.N, win0_0.index t 0 = t.val / 8 ∧ win0_0.index t 1 = t.val / 4 % 2 ∧ win0_0.index t 2 = 0)
theorem idx1 : ∀ t : Fin cfg0.N, win0_1.index t 0 = t.val / 8 ∧ win0_1.index t 1 = t.val % 4 ∧ win0_1.index t 2 = 0 :=
  (by decide +kernel : ∀ t : Fin grid0.N, win0_1.index t 0 = t.val / 8 ∧ win0_1.index t 1 = t.val % 4 ∧ win0_1.index t 2 = 0)
theorem idx2 : ∀ t : Fin cfg0.N, win0_2.index t 0 = t.val / 8 ∧ win0_2.index t 1 = 0 ∧ win0_2.index t 2 = t.val / 4 % 2 :=
  (by decide +kernel : ∀ t : Fin grid0.N, win0_2.index t 0 = t.val / 8 ∧ win0_2.index t 1 = 0 ∧ win0_2.index t 2 = t.val / 4 % 2)

/-- The row tile's block: rows 1024 i … 1024 i + 1023 of batch b. -/
theorem iblk0_apply (c : Dev nD) (t : Fin cfg0.N) (x : S1x1024x1024.Idx) (k : S8x2048x1024.Idx)
    (hk0 : (k 0).val = t.val / 8) (hk1 : (k 1).val = t.val / 4 % 2 * 1024 + (x 1).val) (hk2 : (k 2).val = (x 2).val) :
    (iblk V c 0 t : Vec F S1x1024x1024 .f32) x = (V c main_arg0 : S8x2048x1024.Idx → Elt F .f32) k := by
  obtain ⟨h0, h1, h2⟩ := idx0 t
  have hx0 : (x 0).val = 0 := by have h : (x 0).val < 1 := (x 0).isLt; omega
  unfold iblk
  rw [View.read_apply]
  show V c main_arg0 _ = V c main_arg0 _
  congr 1
  funext a
  apply Fin.ext
  match a with
  | ⟨0, _⟩ => show win0_0.index t 0 * 1 + 1 * (x 0).val = (k 0).val; rw [h0, hk0]; omega
  | ⟨1, _⟩ => show win0_0.index t 1 * 1024 + 1 * (x 1).val = (k 1).val; rw [h1, hk1]; omega
  | ⟨2, _⟩ => show win0_0.index t 2 * 1024 + 1 * (x 2).val = (k 2).val; rw [h2, hk2]; omega

/-- The column tile's block: rows 512 j … 512 j + 511 of batch b. -/
theorem iblk1_apply (c : Dev nD) (t : Fin cfg0.N) (x : S1x512x1024.Idx) (k : S8x2048x1024.Idx)
    (hk0 : (k 0).val = t.val / 8) (hk1 : (k 1).val = t.val % 4 * 512 + (x 1).val) (hk2 : (k 2).val = (x 2).val) :
    (iblk V c 1 t : Vec F S1x512x1024 .f32) x = (V c main_arg0 : S8x2048x1024.Idx → Elt F .f32) k := by
  obtain ⟨h0, h1, h2⟩ := idx1 t
  have hx0 : (x 0).val = 0 := by have h : (x 0).val < 1 := (x 0).isLt; omega
  unfold iblk
  rw [View.read_apply]
  show V c main_arg0 _ = V c main_arg0 _
  congr 1
  funext a
  apply Fin.ext
  match a with
  | ⟨0, _⟩ => show win0_1.index t 0 * 1 + 1 * (x 0).val = (k 0).val; rw [h0, hk0]; omega
  | ⟨1, _⟩ => show win0_1.index t 1 * 512 + 1 * (x 1).val = (k 1).val; rw [h1, hk1]; omega
  | ⟨2, _⟩ => show win0_1.index t 2 * 1024 + 1 * (x 2).val = (k 2).val; rw [h2, hk2]; omega

end Stats

namespace Out

theorem idx0 : ∀ t : Fin cfg1.N, win1_0.index t 0 = t.val / 16 ∧ win1_0.index t 1 = t.val / 4 % 4 ∧ win1_0.index t 2 = 0 :=
  (by decide +kernel : ∀ t : Fin grid1.N, win1_0.index t 0 = t.val / 16 ∧ win1_0.index t 1 = t.val / 4 % 4 ∧ win1_0.index t 2 = 0)
theorem idx1 : ∀ t : Fin cfg1.N, win1_1.index t 0 = t.val / 16 ∧ win1_1.index t 1 = t.val % 4 ∧ win1_1.index t 2 = 0 :=
  (by decide +kernel : ∀ t : Fin grid1.N, win1_1.index t 0 = t.val / 16 ∧ win1_1.index t 1 = t.val % 4 ∧ win1_1.index t 2 = 0)
theorem idx2 : ∀ t : Fin cfg1.N, win1_2.index t 0 = t.val / 16 ∧ win1_2.index t 1 = 0 ∧ win1_2.index t 2 = t.val % 4 :=
  (by decide +kernel : ∀ t : Fin grid1.N, win1_2.index t 0 = t.val / 16 ∧ win1_2.index t 1 = 0 ∧ win1_2.index t 2 = t.val % 4)
theorem idx3 : ∀ t : Fin cfg1.N, win1_3.index t 0 = t.val / 16 ∧ win1_3.index t 1 = t.val / 4 % 4 ∧ win1_3.index t 2 = 0 :=
  (by decide +kernel : ∀ t : Fin grid1.N, win1_3.index t 0 = t.val / 16 ∧ win1_3.index t 1 = t.val / 4 % 4 ∧ win1_3.index t 2 = 0)

/-- The query tile's block. -/
theorem iblk0_apply (c : Dev nD) (t : Fin cfg1.N) (x : S1x512x1024.Idx) (k : S8x2048x1024.Idx)
    (hk0 : (k 0).val = t.val / 16) (hk1 : (k 1).val = t.val / 4 % 4 * 512 + (x 1).val) (hk2 : (k 2).val = (x 2).val) :
    (iblk V c 0 t : Vec F S1x512x1024 .f32) x = (V c main_arg0 : S8x2048x1024.Idx → Elt F .f32) k := by
  obtain ⟨h0, h1, h2⟩ := idx0 t
  have hx0 : (x 0).val = 0 := by have h : (x 0).val < 1 := (x 0).isLt; omega
  unfold iblk
  rw [View.read_apply]
  show V c main_arg0 _ = V c main_arg0 _
  congr 1
  funext a
  apply Fin.ext
  match a with
  | ⟨0, _⟩ => show win1_0.index t 0 * 1 + 1 * (x 0).val = (k 0).val; rw [h0, hk0]; omega
  | ⟨1, _⟩ => show win1_0.index t 1 * 512 + 1 * (x 1).val = (k 1).val; rw [h1, hk1]; omega
  | ⟨2, _⟩ => show win1_0.index t 2 * 1024 + 1 * (x 2).val = (k 2).val; rw [h2, hk2]; omega

/-- The key tile's block. -/
theorem iblk1_apply (c : Dev nD) (t : Fin cfg1.N) (x : S1x512x1024.Idx) (k : S8x2048x1024.Idx)
    (hk0 : (k 0).val = t.val / 16) (hk1 : (k 1).val = t.val % 4 * 512 + (x 1).val) (hk2 : (k 2).val = (x 2).val) :
    (iblk V c 1 t : Vec F S1x512x1024 .f32) x = (V c main_arg0 : S8x2048x1024.Idx → Elt F .f32) k := by
  obtain ⟨h0, h1, h2⟩ := idx1 t
  have hx0 : (x 0).val = 0 := by have h : (x 0).val < 1 := (x 0).isLt; omega
  unfold iblk
  rw [View.read_apply]
  show V c main_arg0 _ = V c main_arg0 _
  congr 1
  funext a
  apply Fin.ext
  match a with
  | ⟨0, _⟩ => show win1_1.index t 0 * 1 + 1 * (x 0).val = (k 0).val; rw [h0, hk0]; omega
  | ⟨1, _⟩ => show win1_1.index t 1 * 512 + 1 * (x 1).val = (k 1).val; rw [h1, hk1]; omega
  | ⟨2, _⟩ => show win1_1.index t 2 * 1024 + 1 * (x 2).val = (k 2).val; rw [h2, hk2]; omega

/-- The key tile's row statistics. -/
theorem iblk2_apply (c : Dev nD) (t : Fin cfg1.N) (x : S1x1x512.Idx) (k : S8x1x2048.Idx)
    (hk0 : (k 0).val = t.val / 16) (hk2 : (k 2).val = t.val % 4 * 512 + (x 2).val) :
    (iblk V c 2 t : Vec F S1x1x512 .f32) x = (V c main_v0 : S8x1x2048.Idx → Elt F .f32) k := by
  obtain ⟨h0, h1, h2⟩ := idx2 t
  have hx0 : (x 0).val = 0 := by have h : (x 0).val < 1 := (x 0).isLt; omega
  have hx1 : (x 1).val = 0 := by have h : (x 1).val < 1 := (x 1).isLt; omega
  have hk1 : (k 1).val = 0 := by have h : (k 1).val < 1 := (k 1).isLt; omega
  unfold iblk
  rw [View.read_apply]
  show V c main_v0 _ = V c main_v0 _
  congr 1
  funext a
  apply Fin.ext
  match a with
  | ⟨0, _⟩ => show win1_2.index t 0 * 1 + 1 * (x 0).val = (k 0).val; rw [h0, hk0]; omega
  | ⟨1, _⟩ => show win1_2.index t 1 * 1 + 1 * (x 1).val = (k 1).val; rw [h1, hk1]; omega
  | ⟨2, _⟩ => show win1_2.index t 2 * 512 + 1 * (x 2).val = (k 2).val; rw [h2, hk2]; omega

end Out

end Cert.KernelIdeal

end
-- ==== Proof.KernelIdeal.Cover.lean ====
/-
  From blocks to arrays.  The statistics kernel writes its output back at the last step of each reduction: the block
  (batch b, row tile i) of 1024 statistics; these blocks tile the statistics array [8, 1, 2048].  The output kernel
  writes back the block (batch b, query tile i) of 512 x 1024 results at the last step of each reduction; these tile
  the result array [8, 2048, 1024].  So if each written block is the matching block of one whole-array function,
  the array ends holding that function.
-/
import proofs.«180204_j89017492177648_2_alg».proof.Proof.KernelIdeal.Blocks

set_option maxRecDepth 16384

noncomputable section

namespace Cert.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt F) ((c : Thread nD τ).loc b))

namespace Stats

/-- An index of the statistics array is in point `t`'s block iff each coordinate is in the block's range. -/
theorem mem_blk2 (t : Fin cfg0.N) (i : S8x1x2048.Idx) :
    i ∈ ((cfg0.win 2).blk t).view.set ↔ ∀ a : Fin 3, win0_2.index t a * S1x1x1024.size a ≤ (i a).val ∧ (i a).val < win0_2.index t a * S1x1x1024.size a + S1x1x1024.size a := by
  show i ∈ ((View.whole main_v0).slice (win0_2.rect t)).set ↔ _
  rw [View.set_slice_whole, Rect.mem_set_unit]
  exact Iff.rfl

/-- Every statistic is written by the last step of its row tile's reduction. -/
theorem cover2 (i : S8x1x2048.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 2048 := (i 2).isLt
  have hN : cfg0.N = 64 := N_0
  let t : Fin cfg0.N := ⟨8 * (i 0).val + 4 * ((i 2).val / 1024) + 3, by omega⟩
  have ht : t.val = 8 * (i 0).val + 4 * ((i 2).val / 1024) + 3 := rfl
  refine ⟨t, (flush0_2 t).mpr (by omega), ?_⟩
  rw [mem_blk2]
  obtain ⟨e0, e1, e2⟩ := idx2 t
  intro a
  match a with
  | ⟨0, _⟩ => show win0_2.index t 0 * 1 ≤ (i 0).val ∧ (i 0).val < win0_2.index t 0 * 1 + 1; rw [e0]; omega
  | ⟨1, _⟩ => show win0_2.index t 1 * 1 ≤ (i 1).val ∧ (i 1).val < win0_2.index t 1 * 1 + 1; rw [e1]; omega
  | ⟨2, _⟩ => show win0_2.index t 2 * 1024 ≤ (i 2).val ∧ (i 2).val < win0_2.index t 2 * 1024 + 1024; rw [e2]; omega

/-- If the block each last step stores is the matching block of `G`, the statistics array ends at `G`. -/
theorem final2 (c : Dev nD) (G : S8x1x2048.Idx → Elt F .f32)
    (hG : ∀ t : Fin cfg0.N, t.val % 4 = 3 → ∀ (y : S1x1x1024.Idx) (k : S8x1x2048.Idx), (k 0).val = t.val / 8 →
      (k 2).val = t.val / 4 % 2 * 1024 + (y 2).val → (outsAt V c t.val t.isLt).1 y = G k) :
    (dat V c).arrAt 2 cfg0.N = G := by
  refine (dat V c).arrAt_eq_of_cover 2 G (fun t hf => ?_) cover2
  have h3 := (flush0_2 t).mp hf
  show (cfg0.win 2).cut (grid0.coords t) ((dat V c).after 2 t) = _
  rw [after_2]
  funext y
  show (outsAt V c t.val t.isLt).1 y = G (((cfg0.win 2).blk t).view.emb y)
  obtain ⟨e0, e1, e2⟩ := idx2 t
  refine hG t h3 y _ ?_ ?_
  · show win0_2.index t 0 * 1 + 1 * (y 0).val = t.val / 8
    have hy : (y 0).val < 1 := (y 0).isLt
    rw [e0]; omega
  · show win0_2.index t 2 * 1024 + 1 * (y 2).val = t.val / 4 % 2 * 1024 + (y 2).val
    rw [e2]; omega

end Stats

namespace Out

theorem mem_blk3 (t : Fin cfg1.N) (i : S8x2048x1024.Idx) :
    i ∈ ((cfg1.win 3).blk t).view.set ↔ ∀ a : Fin 3, win1_3.index t a * S1x512x1024.size a ≤ (i a).val ∧ (i a).val < win1_3.index t a * S1x512x1024.size a + S1x512x1024.size a := by
  show i ∈ ((View.whole main_v1).slice (win1_3.rect t)).set ↔ _
  rw [View.set_slice_whole, Rect.mem_set_unit]
  exact Iff.rfl

/-- Every result is written by the last step of its query tile's reduction. -/
theorem cover3 (i : S8x2048x1024.Idx) : ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  have hN : cfg1.N = 128 := N_1
  let t : Fin cfg1.N := ⟨16 * (i 0).val + 4 * ((i 1).val / 512) + 3, by omega⟩
  have ht : t.val = 16 * (i 0).val + 4 * ((i 1).val / 512) + 3 := rfl
  refine ⟨t, (flush1_3 t).mpr (by omega), ?_⟩
  rw [mem_blk3]
  obtain ⟨e0, e1, e2⟩ := idx3 t
  intro a
  match a with
  | ⟨0, _⟩ => show win1_3.index t 0 * 1 ≤ (i 0).val ∧ (i 0).val < win1_3.index t 0 * 1 + 1; rw [e0]; omega
  | ⟨1, _⟩ => show win1_3.index t 1 * 512 ≤ (i 1).val ∧ (i 1).val < win1_3.index t 1 * 512 + 512; rw [e1]; omega
  | ⟨2, _⟩ => show win1_3.index t 2 * 1024 ≤ (i 2).val ∧ (i 2).val < win1_3.index t 2 * 1024 + 1024; rw [e2]; omega

/-- If the block each last step stores is the matching block of `G`, the result array ends at `G`. -/
theorem final3 (c : Dev nD) (G : S8x2048x1024.Idx → Elt F .f32)
    (hG : ∀ t : Fin cfg1.N, t.val % 4 = 3 → ∀ (y : S1x512x1024.Idx) (k : S8x2048x1024.Idx), (k 0).val = t.val / 16 →
      (k 1).val = t.val / 4 % 4 * 512 + (y 1).val → (k 2).val = (y 2).val → (outsAt V c t.val t.isLt).1 y = G k) :
    (dat V c).arrAt 3 cfg1.N = G := by
  refine (dat V c).arrAt_eq_of_cover 3 G (fun t hf => ?_) cover3
  have h3 := (flush1_3 t).mp hf
  show (cfg1.win 3).cut (grid1.coords t) ((dat V c).after 3 t) = _
  rw [after_3]
  funext y
  show (outsAt V c t.val t.isLt).1 y = G (((cfg1.win 3).blk t).view.emb y)
  obtain ⟨e0, e1, e2⟩ := idx3 t
  refine hG t h3 y _ ?_ ?_ ?_
  · show win1_3.index t 0 * 1 + 1 * (y 0).val = t.val / 16
    have hy : (y 0).val < 1 := (y 0).isLt
    rw [e0]; omega
  · show win1_3.index t 1 * 512 + 1 * (y 1).val = t.val / 4 % 4 * 512 + (y 1).val
    rw [e1]; omega
  · show win1_3.index t 2 * 1024 + 1 * (y 2).val = (y 2).val
    rw [e2]; omega

end Out

end Cert.KernelIdeal

end
-- ==== Proof.LibOnlineSoftmax.lean ====
/-
  Online softmax on the extended reals.

  A running pair (M, Z) starts at (-∞, 0). A tile of scores with maximum c updates it to
      M' = max M c,      Z' = Z · exp (M - M') + ∑ₖ exp (sₖ - M').
  By induction on the number of tiles, M is the maximum m of all the scores seen and
  Z = ∑ exp (s - m) over them; the start is covered because exp (-∞) = 0 and 0 · 0 = 0 in the
  extended reals. At the end M + log Z = log ∑ exp s, since m + log ∑ exp (s - m) = log ∑ exp s for
  every real m. So a weight exp (a - (M + log Z)) is the real exp a / ∑ exp s, which is also what
  exp (a - mx) / ∑ exp (s - mx) is for every real shift mx.

  Everything is stated with the scalar operations of the extended-real float model:
  `Idealize.ShloMosaic.Ideal.exp`, `Ideal.log`, `Ideal.div`, and EReal's own `+ - * max`.
-/
import Idealize.ShloMosaic.PureOps.Ideal
import Mathlib.Analysis.SpecialFunctions.Log.Basic
import Mathlib.Algebra.BigOperators.Fin
import Mathlib.Algebra.Order.BigOperators.Ring.Finset

noncomputable section

namespace Cert.Lib.OnlineSoftmax

open Idealize.ShloMosaic
open scoped BigOperators

/-! ## (A) Values of the scalar operations, and the embedding of the reals -/

/-- The exponential of a finite extended real is the real exponential. -/
theorem exp_coe (a : ℝ) : Ideal.exp (a : EReal) = ((Real.exp a : ℝ) : EReal) := rfl

/-- The exponential of `-∞` is `0`. -/
theorem exp_bot : Ideal.exp (⊥ : EReal) = 0 := rfl

/-- The logarithm of a positive real is the real logarithm. -/
theorem log_coe_of_pos {z : ℝ} (hz : 0 < z) : Ideal.log (z : EReal) = ((Real.log z : ℝ) : EReal) := by
  rw [Ideal.log_coe, if_neg (not_le.2 hz)]

/-- `-∞` minus a real is `-∞`. -/
theorem ereal_bot_sub_coe (a : ℝ) : (⊥ : EReal) - (a : EReal) = ⊥ := EReal.bot_sub _

/-- `-∞` is neutral for `max`. -/
theorem ereal_max_bot (x : EReal) : max ⊥ x = x := max_eq_right bot_le

/-- The embedding of the reals commutes with `max`. -/
theorem ereal_coe_max (a b : ℝ) : ((max a b : ℝ) : EReal) = max (a : EReal) (b : EReal) :=
  EReal.coe_strictMono.monotone.map_max

/-- The embedding of the reals commutes with finite sums. -/
theorem ereal_coe_sum {ι : Type*} (S : Finset ι) (f : ι → ℝ) :
    ((∑ i ∈ S, f i : ℝ) : EReal) = ∑ i ∈ S, (f i : EReal) := by
  classical
  induction S using Finset.induction_on with
  | empty => simp
  | insert a s ha ih => rw [Finset.sum_insert ha, Finset.sum_insert ha, EReal.coe_add, ih]

/-- A finite sum of exponentials of shifted reals, computed in the extended reals, is the real sum. -/
theorem sum_exp_sub_coe {ι : Type*} (S : Finset ι) (b : ι → ℝ) (m : ℝ) :
    ∑ i ∈ S, Ideal.exp ((b i : EReal) - (m : EReal)) = ((∑ i ∈ S, Real.exp (b i - m) : ℝ) : EReal) := by
  rw [ereal_coe_sum]
  exact Finset.sum_congr rfl (fun i _ => rfl)

/-! ## Real identities behind the recurrence -/

/-- A nonempty finite sum of exponentials is positive. -/
theorem real_sum_exp_pos {ι : Type*} {S : Finset ι} (hS : S.Nonempty) (b : ι → ℝ) :
    0 < ∑ i ∈ S, Real.exp (b i) :=
  Finset.sum_pos (fun i _ => Real.exp_pos _) hS

/-- Shifting every exponent by `m` divides the sum of exponentials by `exp m`. -/
theorem real_sum_exp_sub {ι : Type*} (S : Finset ι) (b : ι → ℝ) (m : ℝ) :
    ∑ i ∈ S, Real.exp (b i - m) = (∑ i ∈ S, Real.exp (b i)) / Real.exp m := by
  rw [Finset.sum_div]
  exact Finset.sum_congr rfl (fun i _ => Real.exp_sub _ _)

/-- Rescaling a sum of exponentials shifted by `m` to the shift `m'`: multiply by `exp (m - m')`. -/
theorem real_rescale {ι : Type*} (S : Finset ι) (b : ι → ℝ) (m m' : ℝ) :
    (∑ i ∈ S, Real.exp (b i - m)) * Real.exp (m - m') = ∑ i ∈ S, Real.exp (b i - m') := by
  rw [Finset.sum_mul]
  refine Finset.sum_congr rfl (fun i _ => ?_)
  rw [← Real.exp_add]
  congr 1
  ring

/-- Log-sum-exp does not depend on the shift: `m + log ∑ exp (b i - m) = log ∑ exp (b i)`. -/
theorem real_lse {ι : Type*} {S : Finset ι} (hS : S.Nonempty) (b : ι → ℝ) (m : ℝ) :
    m + Real.log (∑ i ∈ S, Real.exp (b i - m)) = Real.log (∑ i ∈ S, Real.exp (b i)) := by
  rw [real_sum_exp_sub, Real.log_div (ne_of_gt (real_sum_exp_pos hS b)) (Real.exp_ne_zero m), Real.log_exp]
  ring

/-! ## (C), direct form -/

/-- Log-sum-exp from a finite running pair: if the maximum slot holds a real `m` and the sum slot holds
    `∑ exp (b i - m)` over a nonempty finite set, then `M + log Z` is `log ∑ exp (b i)`, whatever `m` is. -/
theorem lse_direct {ι : Type*} {S : Finset ι} (hS : S.Nonempty) (b : ι → ℝ) (m : ℝ) :
    (m : EReal) + Ideal.log (((∑ i ∈ S, Real.exp (b i - m) : ℝ)) : EReal)
      = ((Real.log (∑ i ∈ S, Real.exp (b i)) : ℝ) : EReal) := by
  rw [log_coe_of_pos (real_sum_exp_pos hS (fun i => b i - m)), ← EReal.coe_add, real_lse hS]

/-- The same with the sum computed in the extended reals. -/
theorem lse_direct' {ι : Type*} {S : Finset ι} (hS : S.Nonempty) (b : ι → ℝ) (m : ℝ) :
    (m : EReal) + Ideal.log (∑ i ∈ S, Ideal.exp ((b i : EReal) - (m : EReal)))
      = ((Real.log (∑ i ∈ S, Real.exp (b i)) : ℝ) : EReal) := by
  rw [sum_exp_sub_coe, lse_direct hS]

/-! ## (D) The two forms of a softmax weight -/

/-- Kernel form of a softmax weight: `exp (a - log ∑ exp (b i))` is the real `exp a / ∑ exp (b i)`. -/
theorem weight_kernel {ι : Type*} {S : Finset ι} (hS : S.Nonempty) (a : ℝ) (b : ι → ℝ) :
    Ideal.exp ((a : EReal) - ((Real.log (∑ i ∈ S, Real.exp (b i)) : ℝ) : EReal))
      = ((Real.exp a / ∑ i ∈ S, Real.exp (b i) : ℝ) : EReal) := by
  rw [← EReal.coe_sub, exp_coe, Real.exp_sub, Real.exp_log (real_sum_exp_pos hS b)]

/-- Reference form of a softmax weight: `exp (a - mx) / ∑ exp (b i - mx)`, for ANY real shift `mx`,
    is the same real `exp a / ∑ exp (b i)`. -/
theorem weight_reference {ι : Type*} {S : Finset ι} (hS : S.Nonempty) (a mx : ℝ) (b : ι → ℝ) :
    Ideal.div (Ideal.exp ((a : EReal) - (mx : EReal))) (∑ i ∈ S, Ideal.exp ((b i : EReal) - (mx : EReal)))
      = ((Real.exp a / ∑ i ∈ S, Real.exp (b i) : ℝ) : EReal) := by
  have hpos := real_sum_exp_pos hS (fun i => b i - mx)
  have hpos' := real_sum_exp_pos hS b
  rw [sum_exp_sub_coe, Ideal.div_coe (ne_of_gt hpos), ← EReal.coe_sub, exp_coe, ← EReal.coe_mul]
  congr 1
  rw [real_sum_exp_sub, Real.exp_sub]
  have h1 := Real.exp_pos mx
  field_simp

/-- Reference form with the host's `0 +` in front of the sum. -/
theorem weight_reference_zero_add {ι : Type*} {S : Finset ι} (hS : S.Nonempty) (a mx : ℝ) (b : ι → ℝ) :
    Ideal.div (Ideal.exp ((a : EReal) - (mx : EReal)))
        (0 + ∑ i ∈ S, Ideal.exp ((b i : EReal) - (mx : EReal)))
      = ((Real.exp a / ∑ i ∈ S, Real.exp (b i) : ℝ) : EReal) := by
  rw [zero_add, weight_reference hS]

/-- The two forms agree. -/
theorem weight_kernel_eq_reference {ι : Type*} {S : Finset ι} (hS : S.Nonempty) (a mx : ℝ) (b : ι → ℝ) :
    Ideal.exp ((a : EReal) - ((Real.log (∑ i ∈ S, Real.exp (b i)) : ℝ) : EReal))
      = Ideal.div (Ideal.exp ((a : EReal) - (mx : EReal)))
          (0 + ∑ i ∈ S, Ideal.exp ((b i : EReal) - (mx : EReal))) := by
  rw [weight_kernel hS, weight_reference_zero_add hS]

/-! ## (E) Reindexing a sum over `Fin (T * K)` by tiles -/

/-- The flat index of position `k` in tile `j` is in range. -/
theorem idx_lt {T K : ℕ} (j : Fin T) (k : Fin K) : j.val * K + k.val < T * K := by
  calc j.val * K + k.val < j.val * K + K := Nat.add_lt_add_left k.isLt _
    _ = (j.val + 1) * K := by ring
    _ ≤ T * K := Nat.mul_le_mul_right K j.isLt

/-- A sum over `Fin (T * K)` is the sum over the `T` tiles of the sums over the `K` positions of a tile. -/
theorem sum_fin_mul {M : Type*} [AddCommMonoid M] (T K : ℕ) (f : Fin (T * K) → M) :
    ∑ i : Fin (T * K), f i = ∑ j : Fin T, ∑ k : Fin K, f ⟨j.val * K + k.val, idx_lt j k⟩ := by
  rw [← Equiv.sum_comp finProdFinEquiv f, Fintype.sum_prod_type]
  refine Finset.sum_congr rfl (fun j _ => Finset.sum_congr rfl (fun k _ => ?_))
  congr 1
  apply Fin.ext
  rw [finProdFinEquiv_apply_val]
  show k.val + K * j.val = j.val * K + k.val
  ring

/-- The same for a function of the flat natural-number index. -/
theorem sum_fin_mul_nat {M : Type*} [AddCommMonoid M] (T K : ℕ) (g : ℕ → M) :
    ∑ i : Fin (T * K), g i.val = ∑ j : Fin T, ∑ k : Fin K, g (j.val * K + k.val) :=
  sum_fin_mul T K (fun i => g i.val)

/-- Four tiles, summed left-nested from `0` as a grid of four steps accumulates them. -/
theorem sum_four_tiles {M : Type*} [AddCommMonoid M] (K : ℕ) (f : Fin (4 * K) → M) :
    (((0 + ∑ k : Fin K, f ⟨0 * K + k.val, idx_lt (0 : Fin 4) k⟩)
        + ∑ k : Fin K, f ⟨1 * K + k.val, idx_lt (1 : Fin 4) k⟩)
        + ∑ k : Fin K, f ⟨2 * K + k.val, idx_lt (2 : Fin 4) k⟩)
        + ∑ k : Fin K, f ⟨3 * K + k.val, idx_lt (3 : Fin 4) k⟩
      = ∑ i : Fin (4 * K), f i := by
  rw [sum_fin_mul 4 K f, Fin.sum_univ_four, zero_add]
  rfl

/-- The literal case: 2048 terms in four tiles of 512. -/
theorem sum_2048_four_tiles {M : Type*} [AddCommMonoid M] (f : Fin 2048 → M) :
    (((0 + ∑ k : Fin 512, f ⟨k.val, by omega⟩)
        + ∑ k : Fin 512, f ⟨512 + k.val, by omega⟩)
        + ∑ k : Fin 512, f ⟨1024 + k.val, by omega⟩)
        + ∑ k : Fin 512, f ⟨1536 + k.val, by omega⟩
      = ∑ i : Fin 2048, f i := by
  have h := sum_four_tiles 512 (fun i : Fin (4 * 512) => f ⟨i.val, i.isLt⟩)
  rw [← h]
  simp only [Nat.zero_mul, Nat.zero_add, Nat.one_mul]

/-! ## (B) The online recurrence -/

section Step

variable {ι : Type*} [DecidableEq ι]

/-- The running pair `(M, Z)` after the reals `a i`, `i ∈ S`, have been seen: nothing seen and the pair is
    `(-∞, 0)`, or `S` is nonempty, `M` is the real maximum `m` of `a` over `S`, and `Z` is the real
    `∑ i ∈ S, exp (a i - m)`. -/
def Inv (a : ι → ℝ) (S : Finset ι) (M Z : EReal) : Prop :=
  (S = ∅ ∧ M = ⊥ ∧ Z = 0) ∨
    ∃ h : S.Nonempty, M = ((S.sup' h a : ℝ) : EReal) ∧
      Z = ((∑ i ∈ S, Real.exp (a i - S.sup' h a) : ℝ) : EReal)

/-- The start: nothing seen, the pair `(-∞, 0)`. -/
theorem inv_init (a : ι → ℝ) : Inv a ∅ ⊥ 0 := Or.inl ⟨rfl, rfl, rfl⟩

/-- The invariant at a nonempty set, unfolded. -/
theorem inv_of_nonempty {a : ι → ℝ} {S : Finset ι} {M Z : EReal} (h : Inv a S M Z) (hS : S.Nonempty) :
    M = ((S.sup' hS a : ℝ) : EReal) ∧ Z = ((∑ i ∈ S, Real.exp (a i - S.sup' hS a) : ℝ) : EReal) := by
  rcases h with ⟨h0, -, -⟩ | ⟨_, hM, hZ⟩
  · exact absurd h0 hS.ne_empty
  · exact ⟨hM, hZ⟩

/-- The maximum over a set does not depend on how the set is written. -/
theorem sup'_congr_set {a : ι → ℝ} {A B : Finset ι} (hA : A.Nonempty) (hB : B.Nonempty) (h : A = B) :
    A.sup' hA a = B.sup' hB a := by
  subst h; rfl

/-- ONE STEP of the online recurrence. From a pair satisfying the invariant on the seen set `S`, a new nonempty
    tile `N` disjoint from `S`, with tile maximum `c`: the new maximum `max M c` and the rescaled sum
    `Z * exp (M - max M c) + ∑ i ∈ N, exp (a i - max M c)` satisfy the invariant on `S ∪ N`. The start
    `(-∞, 0)` is covered: there `exp (-∞ - c) = 0` and `0 * 0 = 0`. -/
theorem inv_step {a : ι → ℝ} {S N : Finset ι} {M Z c : EReal} (h : Inv a S M Z) (hN : N.Nonempty)
    (hd : Disjoint S N) (hc : c = ((N.sup' hN a : ℝ) : EReal)) :
    Inv a (S ∪ N) (max M c)
      (Z * Ideal.exp (M - max M c) + ∑ i ∈ N, Ideal.exp ((a i : EReal) - max M c)) := by
  subst hc
  rcases h with ⟨hS, hM, hZ⟩ | ⟨hS, hM, hZ⟩
  · subst hS hM hZ
    have hU : (∅ ∪ N).Nonempty := by rw [Finset.empty_union]; exact hN
    have hm : N.sup' hN a = (∅ ∪ N).sup' hU a := sup'_congr_set hN hU (Finset.empty_union N).symm
    refine Or.inr ⟨hU, ?_, ?_⟩
    · rw [ereal_max_bot, hm]
    · rw [ereal_max_bot, zero_mul, zero_add, sum_exp_sub_coe, hm]
      congr 1
      exact Finset.sum_congr (Finset.empty_union N).symm (fun _ _ => rfl)
  · subst hM hZ
    have hU : (S ∪ N).Nonempty := hS.mono Finset.subset_union_left
    have hmax : max ((S.sup' hS a : ℝ) : EReal) ((N.sup' hN a : ℝ) : EReal)
        = (((S ∪ N).sup' hU a : ℝ) : EReal) := by
      rw [← ereal_coe_max, Finset.sup'_union hS hN]
    refine Or.inr ⟨hU, hmax, ?_⟩
    rw [hmax, sum_exp_sub_coe, ← EReal.coe_sub, exp_coe, ← EReal.coe_mul, ← EReal.coe_add, real_rescale,
      Finset.sum_union hd]

/-- The step with the host's `0 +` in front of the tile's sum. -/
theorem inv_step_zero_add {a : ι → ℝ} {S N : Finset ι} {M Z c : EReal} (h : Inv a S M Z) (hN : N.Nonempty)
    (hd : Disjoint S N) (hc : c = ((N.sup' hN a : ℝ) : EReal)) :
    Inv a (S ∪ N) (max M c)
      (Z * Ideal.exp (M - max M c) + (0 + ∑ i ∈ N, Ideal.exp ((a i : EReal) - max M c))) := by
  rw [zero_add]; exact inv_step h hN hd hc

/-- (C) from the invariant: once something has been seen, `M + log Z` is the log-sum-exp of what was seen. -/
theorem inv_lse {a : ι → ℝ} {S : Finset ι} {M Z : EReal} (h : Inv a S M Z) (hS : S.Nonempty) :
    M + Ideal.log Z = ((Real.log (∑ i ∈ S, Real.exp (a i)) : ℝ) : EReal) := by
  obtain ⟨hM, hZ⟩ := inv_of_nonempty h hS
  rw [hM, hZ, lse_direct hS]

end Step

/-! ## The tile maximum as a fold of `max` from `-∞` -/

/-- The embedding of the reals commutes with the maximum over a nonempty finite set. -/
theorem ereal_coe_sup' {κ : Type*} {S : Finset κ} (hS : S.Nonempty) (r : κ → ℝ) :
    ((S.sup' hS r : ℝ) : EReal) = S.sup' hS (fun k => (r k : EReal)) :=
  Finset.comp_sup'_eq_sup'_comp hS (fun x : ℝ => (x : EReal)) ereal_coe_max

/-- The supremum (from `-∞`) of finitely many reals, taken in the extended reals, is their real maximum. -/
theorem sup_coe_eq {κ : Type*} {S : Finset κ} (hS : S.Nonempty) (r : κ → ℝ) :
    S.sup (fun k => (r k : EReal)) = ((S.sup' hS r : ℝ) : EReal) := by
  rw [ereal_coe_sup' hS, Finset.sup'_eq_sup]

/-- The fold of `max` from `-∞` over finitely many reals is their real maximum. -/
theorem fold_max_coe_eq {κ : Type*} {S : Finset κ} (hS : S.Nonempty) (r : κ → ℝ) :
    S.fold max (⊥ : EReal) (fun k => (r k : EReal)) = ((S.sup' hS r : ℝ) : EReal) :=
  sup_coe_eq hS r

/-- A row of `0 < K` positions is nonempty. -/
theorem row_nonempty {K : ℕ} (hK : 0 < K) : (Finset.univ : Finset (Fin K)).Nonempty :=
  ⟨⟨0, hK⟩, Finset.mem_univ _⟩

/-- The row form: the fold of `max` from `-∞` over a whole row `Fin K`, `0 < K`. -/
theorem fold_max_row {K : ℕ} (hK : 0 < K) (r : Fin K → ℝ) :
    (Finset.univ : Finset (Fin K)).fold max (⊥ : EReal) (fun k => (r k : EReal))
      = ((Finset.univ.sup' (row_nonempty hK) r : ℝ) : EReal) :=
  fold_max_coe_eq _ r

/-- The row form with `Finset.sup`. -/
theorem sup_row {K : ℕ} (hK : 0 < K) (r : Fin K → ℝ) :
    (Finset.univ : Finset (Fin K)).sup (fun k => (r k : EReal))
      = ((Finset.univ.sup' (row_nonempty hK) r : ℝ) : EReal) :=
  sup_coe_eq _ r

/-! ## Tiles of a `T × K` array of scores -/

section Tiles

variable {T K : ℕ}

/-- Tile `j`: the positions `(j, k)`, `k : Fin K`. -/
def tile (T K : ℕ) (j : Fin T) : Finset (Fin T × Fin K) := Finset.univ.image (fun k => (j, k))

/-- The positions of the first `n` tiles. -/
def seen (T K n : ℕ) : Finset (Fin T × Fin K) := Finset.univ.filter (fun p => p.1.val < n)

/-- Membership in a tile. -/
theorem mem_tile {j : Fin T} {p : Fin T × Fin K} : p ∈ tile T K j ↔ p.1 = j := by
  constructor
  · intro h
    obtain ⟨k, -, rfl⟩ := Finset.mem_image.1 h
    rfl
  · intro h
    exact Finset.mem_image.2 ⟨p.2, Finset.mem_univ _, by rw [← h]⟩

/-- Membership in the first `n` tiles. -/
theorem mem_seen {n : ℕ} {p : Fin T × Fin K} : p ∈ seen T K n ↔ p.1.val < n := by
  rw [seen, Finset.mem_filter]
  exact ⟨fun h => h.2, fun h => ⟨Finset.mem_univ _, h⟩⟩

/-- A tile with `0 < K` positions is nonempty. -/
theorem tile_nonempty (hK : 0 < K) (j : Fin T) : (tile T K j).Nonempty :=
  ⟨(j, ⟨0, hK⟩), mem_tile.2 rfl⟩

/-- Before any tile nothing is seen. -/
theorem seen_zero : seen T K 0 = ∅ := by
  apply Finset.eq_empty_of_forall_notMem
  intro p hp
  exact absurd (mem_seen.1 hp) (Nat.not_lt_zero _)

/-- After tile `n` the seen positions are those before, and tile `n`. -/
theorem seen_succ {n : ℕ} (h : n < T) : seen T K (n + 1) = seen T K n ∪ tile T K ⟨n, h⟩ := by
  ext p
  rw [Finset.mem_union, mem_seen, mem_seen, mem_tile]
  constructor
  · intro hp
    rcases Nat.lt_succ_iff_lt_or_eq.1 hp with h1 | h1
    · exact Or.inl h1
    · exact Or.inr (Fin.ext h1)
  · rintro (h1 | h1)
    · exact Nat.lt_succ_of_lt h1
    · rw [h1]; exact Nat.lt_succ_self n

/-- Tile `n` is new. -/
theorem seen_disjoint_tile {n : ℕ} (h : n < T) : Disjoint (seen T K n) (tile T K ⟨n, h⟩) := by
  rw [Finset.disjoint_left]
  intro p hp hq
  have h1 := mem_seen.1 hp
  have h2 := mem_tile.1 hq
  rw [h2] at h1
  exact absurd h1 (lt_irrefl n)

/-- After all `T` tiles every position is seen. -/
theorem seen_all : seen T K T = Finset.univ := by
  ext p
  rw [mem_seen]
  exact ⟨fun _ => Finset.mem_univ _, fun _ => p.1.isLt⟩

/-- A sum over a tile is the sum over its `K` positions. -/
theorem sum_tile {M : Type*} [AddCommMonoid M] (j : Fin T) (g : Fin T × Fin K → M) :
    ∑ p ∈ tile T K j, g p = ∑ k : Fin K, g (j, k) :=
  Finset.sum_image (fun x _ y _ hxy => (Prod.mk.inj hxy).2)

/-- The maximum over a tile is the maximum over its `K` positions. -/
theorem sup'_tile (hK : 0 < K) (j : Fin T) (a : Fin T × Fin K → ℝ) :
    (tile T K j).sup' (tile_nonempty hK j) a
      = Finset.univ.sup' (row_nonempty hK) (fun k : Fin K => a (j, k)) := by
  apply le_antisymm
  · refine Finset.sup'_le _ _ (fun p hp => ?_)
    have hp1 : p = (j, p.2) := by rw [← mem_tile.1 hp]
    rw [hp1]
    exact Finset.le_sup' (fun k : Fin K => a (j, k)) (Finset.mem_univ p.2)
  · refine Finset.sup'_le _ _ (fun k _ => ?_)
    exact Finset.le_sup' a (mem_tile.2 rfl)

end Tiles

/-! ## The recurrence over the tiles, and its result -/

section Recurrence

variable {T K : ℕ}

/-- The scores as one family on the positions `(j, k)`. -/
def flat (s : Fin T → Fin K → ℝ) : Fin T × Fin K → ℝ := fun p => s p.1 p.2

/-- After at least one tile something has been seen. -/
theorem seen_nonempty (hK : 0 < K) {n : ℕ} (hn : 0 < n) (hnT : n ≤ T) : (seen T K n).Nonempty :=
  ⟨(⟨0, lt_of_lt_of_le hn hnT⟩, ⟨0, hK⟩), mem_seen.2 hn⟩

/-- THE INVARIANT OF THE ONLINE RECURRENCE, for any two sequences that satisfy it. `M 0 = -∞`, `Z 0 = 0`;
    tile `n` has maximum `c n` (the real maximum of its `K` scores); `M (n+1) = max (M n) (c n)` and
    `Z (n+1) = Z n * exp (M n - M (n+1)) + ∑ k, exp (s n k - M (n+1))`. Then after `n ≤ T` tiles the pair
    `(M n, Z n)` satisfies `Inv` on the positions of the first `n` tiles: `M n` is the real maximum `mₙ` of the
    scores seen and `Z n` is the real sum of `exp (s j k - mₙ)` over them. -/
theorem online_inv (hK : 0 < K) (s : Fin T → Fin K → ℝ) (M Z : ℕ → EReal) (c : ∀ n, n < T → EReal)
    (hc : ∀ n (h : n < T), c n h = ((Finset.univ.sup' (row_nonempty hK) (s ⟨n, h⟩) : ℝ) : EReal))
    (hM0 : M 0 = ⊥) (hZ0 : Z 0 = 0)
    (hM : ∀ n (h : n < T), M (n + 1) = max (M n) (c n h))
    (hZ : ∀ n (h : n < T), Z (n + 1) = Z n * Ideal.exp (M n - M (n + 1))
      + ∑ k : Fin K, Ideal.exp ((s ⟨n, h⟩ k : EReal) - M (n + 1))) :
    ∀ n, n ≤ T → Inv (flat s) (seen T K n) (M n) (Z n) := by
  intro n
  induction n with
  | zero =>
    intro _
    rw [seen_zero, hM0, hZ0]
    exact inv_init _
  | succ n ih =>
    intro hn
    have h : n < T := hn
    have ih' := ih (le_of_lt h)
    have hc' : c n h = (((tile T K ⟨n, h⟩).sup' (tile_nonempty hK _) (flat s) : ℝ) : EReal) := by
      rw [hc n h]
      exact congrArg _ (sup'_tile hK ⟨n, h⟩ (flat s)).symm
    have key := inv_step ih' (tile_nonempty hK ⟨n, h⟩) (seen_disjoint_tile h) hc'
    rw [sum_tile] at key
    rw [seen_succ h, hZ n h, hM n h]
    exact key

/-- The running maximum and sum after `n` tiles, `1 ≤ n ≤ T`, as reals. -/
theorem online_values (hK : 0 < K) (s : Fin T → Fin K → ℝ) (M Z : ℕ → EReal) (c : ∀ n, n < T → EReal)
    (hc : ∀ n (h : n < T), c n h = ((Finset.univ.sup' (row_nonempty hK) (s ⟨n, h⟩) : ℝ) : EReal))
    (hM0 : M 0 = ⊥) (hZ0 : Z 0 = 0)
    (hM : ∀ n (h : n < T), M (n + 1) = max (M n) (c n h))
    (hZ : ∀ n (h : n < T), Z (n + 1) = Z n * Ideal.exp (M n - M (n + 1))
      + ∑ k : Fin K, Ideal.exp ((s ⟨n, h⟩ k : EReal) - M (n + 1)))
    {n : ℕ} (hn : 0 < n) (hnT : n ≤ T) :
    M n = (((seen T K n).sup' (seen_nonempty hK hn hnT) (flat s) : ℝ) : EReal) ∧
      Z n = ((∑ p ∈ seen T K n,
        Real.exp (flat s p - (seen T K n).sup' (seen_nonempty hK hn hnT) (flat s)) : ℝ) : EReal) :=
  inv_of_nonempty (online_inv hK s M Z c hc hM0 hZ0 hM hZ n hnT) (seen_nonempty hK hn hnT)

/-- (C) THE RESULT: after all `T` tiles, `M T + log (Z T)` is the log-sum-exp of all `T * K` scores. -/
theorem online_lse (hT : 0 < T) (hK : 0 < K) (s : Fin T → Fin K → ℝ) (M Z : ℕ → EReal)
    (c : ∀ n, n < T → EReal)
    (hc : ∀ n (h : n < T), c n h = ((Finset.univ.sup' (row_nonempty hK) (s ⟨n, h⟩) : ℝ) : EReal))
    (hM0 : M 0 = ⊥) (hZ0 : Z 0 = 0)
    (hM : ∀ n (h : n < T), M (n + 1) = max (M n) (c n h))
    (hZ : ∀ n (h : n < T), Z (n + 1) = Z n * Ideal.exp (M n - M (n + 1))
      + ∑ k : Fin K, Ideal.exp ((s ⟨n, h⟩ k : EReal) - M (n + 1))) :
    M T + Ideal.log (Z T) = ((Real.log (∑ j : Fin T, ∑ k : Fin K, Real.exp (s j k)) : ℝ) : EReal) := by
  have h := online_inv hK s M Z c hc hM0 hZ0 hM hZ T le_rfl
  rw [seen_all] at h
  have hne : (Finset.univ : Finset (Fin T × Fin K)).Nonempty :=
    ⟨(⟨0, hT⟩, ⟨0, hK⟩), Finset.mem_univ _⟩
  rw [inv_lse h hne, Fintype.sum_prod_type]
  rfl

/-! ### The recurrence as a function -/

/-- One step on a pair `p = (M, Z)` with tile maximum `c` and the tile's scores `row`. -/
def stepWith (c : EReal) (row : Fin K → ℝ) (p : EReal × EReal) : EReal × EReal :=
  (max p.1 c,
    p.2 * Ideal.exp (p.1 - max p.1 c) + ∑ k : Fin K, Ideal.exp ((row k : EReal) - max p.1 c))

/-- One step with the tile maximum computed as the fold of `max` from `-∞`. -/
def step (row : Fin K → ℝ) (p : EReal × EReal) : EReal × EReal :=
  stepWith ((Finset.univ : Finset (Fin K)).fold max (⊥ : EReal) (fun k => (row k : EReal))) row p

/-- The pair after `n` tiles, from `(-∞, 0)`; past the last tile it stays. -/
def run (s : Fin T → Fin K → ℝ) : ℕ → EReal × EReal
  | 0 => (⊥, 0)
  | n + 1 => if h : n < T then step (s ⟨n, h⟩) (run s n) else run s n

/-- The start of the run. -/
theorem run_zero (s : Fin T → Fin K → ℝ) : run s 0 = (⊥, 0) := rfl

/-- One more tile of the run. -/
theorem run_succ (s : Fin T → Fin K → ℝ) {n : ℕ} (h : n < T) :
    run s (n + 1) = step (s ⟨n, h⟩) (run s n) := by
  rw [run, dif_pos h]

/-- The run satisfies the invariant after every `n ≤ T` tiles. -/
theorem run_inv (hK : 0 < K) (s : Fin T → Fin K → ℝ) :
    ∀ n, n ≤ T → Inv (flat s) (seen T K n) (run s n).1 (run s n).2 :=
  online_inv hK s (fun n => (run s n).1) (fun n => (run s n).2)
    (fun n h => (Finset.univ : Finset (Fin K)).fold max (⊥ : EReal) (fun k => (s ⟨n, h⟩ k : EReal)))
    (fun n h => fold_max_row hK (s ⟨n, h⟩)) rfl rfl
    (fun n h => by show (run s (n + 1)).1 = _; rw [run_succ s h]; rfl)
    (fun n h => by
      show (run s (n + 1)).2 = _ * Ideal.exp (_ - (run s (n + 1)).1) + ∑ k : Fin K, Ideal.exp (_ - (run s (n + 1)).1)
      rw [run_succ s h]; rfl)

/-- (C) for the run: after all tiles, `M + log Z` is the log-sum-exp of all the scores. -/
theorem run_lse (hT : 0 < T) (hK : 0 < K) (s : Fin T → Fin K → ℝ) :
    (run s T).1 + Ideal.log (run s T).2
      = ((Real.log (∑ j : Fin T, ∑ k : Fin K, Real.exp (s j k)) : ℝ) : EReal) := by
  have h := run_inv hK s T le_rfl
  rw [seen_all] at h
  have hne : (Finset.univ : Finset (Fin T × Fin K)).Nonempty :=
    ⟨(⟨0, hT⟩, ⟨0, hK⟩), Finset.mem_univ _⟩
  rw [inv_lse h hne, Fintype.sum_prod_type]
  rfl

/-- Four tiles, unrolled. -/
theorem run_four (s : Fin 4 → Fin K → ℝ) :
    run s 4 = step (s 3) (step (s 2) (step (s 1) (step (s 0) (⊥, 0)))) := by
  rw [run_succ s (by norm_num : 3 < 4), run_succ s (by norm_num : 2 < 4), run_succ s (by norm_num : 1 < 4),
    run_succ s (by norm_num : 0 < 4), run_zero]
  rfl

/-- (C) for four unrolled tiles. -/
theorem lse_four (hK : 0 < K) (s : Fin 4 → Fin K → ℝ) :
    (step (s 3) (step (s 2) (step (s 1) (step (s 0) (⊥, 0))))).1
        + Ideal.log (step (s 3) (step (s 2) (step (s 1) (step (s 0) (⊥, 0))))).2
      = ((Real.log (∑ j : Fin 4, ∑ k : Fin K, Real.exp (s j k)) : ℝ) : EReal) := by
  rw [← run_four, run_lse (by norm_num) hK]

end Recurrence

/-! ## The kernel's and the reference's softmax weight, over tiles -/

/-- A sum over `Fin 2048` is the sum over four tiles of 512 positions. -/
theorem sum_fin_2048 {M : Type*} [AddCommMonoid M] (f : Fin 2048 → M) :
    ∑ i : Fin 2048, f i
      = ∑ j : Fin 4, ∑ k : Fin 512, f ⟨j.val * 512 + k.val, idx_lt (T := 4) (K := 512) j k⟩ :=
  sum_fin_mul 4 512 (fun i : Fin (4 * 512) => f ⟨i.val, i.isLt⟩)

/-- The weight `exp (a - L)`, with `L` the log-sum-exp accumulated tile by tile over `T` tiles of `K` scores
    `b`, is the reference's `exp (a - mx) / (0 + ∑ exp (b i - mx))` over all `T * K` scores at once, for any
    real shift `mx`. -/
theorem weight_tiles_eq_reference {T K : ℕ} (hT : 0 < T) (hK : 0 < K) (a mx : ℝ) (b : Fin (T * K) → ℝ) :
    Ideal.exp ((a : EReal)
        - ((Real.log (∑ j : Fin T, ∑ k : Fin K, Real.exp (b ⟨j.val * K + k.val, idx_lt j k⟩)) : ℝ) : EReal))
      = Ideal.div (Ideal.exp ((a : EReal) - (mx : EReal)))
          (0 + ∑ i : Fin (T * K), Ideal.exp ((b i : EReal) - (mx : EReal))) := by
  rw [← sum_fin_mul T K (fun i => Real.exp (b i))]
  exact weight_kernel_eq_reference ⟨⟨0, Nat.mul_pos hT hK⟩, Finset.mem_univ _⟩ a mx b

/-- The literal case: four tiles of 512 scores against all 2048 at once. -/
theorem weight_2048_eq_reference (a mx : ℝ) (b : Fin 2048 → ℝ) :
    Ideal.exp ((a : EReal)
        - ((Real.log (∑ j : Fin 4, ∑ k : Fin 512,
            Real.exp (b ⟨j.val * 512 + k.val, idx_lt (T := 4) (K := 512) j k⟩)) : ℝ) : EReal))
      = Ideal.div (Ideal.exp ((a : EReal) - (mx : EReal)))
          (0 + ∑ i : Fin 2048, Ideal.exp ((b i : EReal) - (mx : EReal))) :=
  weight_tiles_eq_reference (T := 4) (K := 512) (by norm_num) (by norm_num) a mx
    (fun i : Fin (4 * 512) => b ⟨i.val, i.isLt⟩)

end Cert.Lib.OnlineSoftmax

end
-- ==== Proof.StatsPayload.lean ====
/-
  The payloads of the statistics pass, read at an index.

  The pass holds, per row r of a tile of 1024 rows, a running pair (M, Z). A tile of 512 columns
  gives the scores  s(r,k) = Σ_d x0(r,d) · x1(k,d);  the pair is updated to
      M' = max M (max_k s(r,k)),      Z' = Z · exp (M − M') + Σ_k exp (s(r,k) − M'),
  starting from (−∞, 0), and at the end the row's statistic is  M + log Z.
  Each payload below is read at one index as the scalar expression it computes there, over the
  extended reals; the last section restates the update, for real inputs, as one step of the online
  softmax recurrence.
-/
import proofs.«180204_j89017492177648_2_alg».proof.Proof.Gen.KernelIdeal.Skeleton
import proofs.«180204_j89017492177648_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.StatsPayload

open Cert.KernelIdeal Cert.KernelIdeal.Gen Idealize.ShloMosaic Idealize.ShloMosaic.ValueIdx Idealize.SL.Sem
open scoped BigOperators

/-! ## The two constants: the bit pattern of −∞ and of 0 -/

/-- The f32 pattern `0xFF800000` (sign set, exponent all ones, fraction zero) denotes `−∞`. -/
theorem ofBits_neg_inf : Ideal.ofBits .f32 0xFF800000#32 = (⊥ : EReal) := by
  simp [Ideal.ofBits, Ideal.ieee]

/-- The initial running maximum: `−∞` in every row. -/
theorem pay2_apply (r : Fin 1024) : k0_pay2 (F := Ideal) (ix2 r (0 : Fin 1)) = (⊥ : EReal) := by
  unfold k0_pay2
  rw [shapeCast_self]
  exact ofBits_neg_inf

/-- The initial running sum: `0` in every row. -/
theorem pay3_apply (r : Fin 1024) : k0_pay3 (F := Ideal) (ix2 r (0 : Fin 1)) = (0 : EReal) := by
  unfold k0_pay3
  rw [shapeCast_self]
  exact Ideal.ofBits_zero_f32

/-! ## The scores: the matrix product of one tile with the transpose of the other -/

/-- The product's left operand index, on its row axis, is the output's row. -/
theorem lhsIdx_0 (i : S1024x512.Idx) (q : dot_S1024x1024_S1024x512_S1024x512_1_0_0_1_n_n.contr.Idx) :
    (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide),
    dif_pos (show (0 : Fin S1024x1024.rank) ∈ dot_S1024x1024_S1024x512_S1024x512_1_0_0_1_n_n.lhsNonContracting by decide)]
  rfl

/-- The product's left operand index, on its column axis, is the contraction position. -/
theorem lhsIdx_1 (i : S1024x512.Idx) (q : dot_S1024x1024_S1024x512_S1024x512_1_0_0_1_n_n.contr.Idx) :
    (dot_S1024x1024_S1024x512_S1024x512_1_0_0_1_n_n.lhsIdx i q 1).val = (q ⟨0, by decide⟩).val :=
  dot_S1024x1024_S1024x512_S1024x512_1_0_0_1_n_n.lhsIdx_val_of_single rfl i q

/-- The product's right operand index, on its row axis, is the contraction position. -/
theorem rhsIdx_0 (i : S1024x512.Idx) (q : dot_S1024x1024_S1024x512_S1024x512_1_0_0_1_n_n.contr.Idx) :
    (dot_S1024x1024_S1024x512_S1024x512_1_0_0_1_n_n.rhsIdx i q 0).val = (q ⟨0, by decide⟩).val :=
  dot_S1024x1024_S1024x512_S1024x512_1_0_0_1_n_n.rhsIdx_val_of_single rfl i q

/-- The product's right operand index, on its column axis, is the output's column. -/
theorem rhsIdx_1 (i : S1024x512.Idx) (q : dot_S1024x1024_S1024x512_S1024x512_1_0_0_1_n_n.contr.Idx) :
    (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide),
    dif_pos (show (1 : Fin S1024x512.rank) ∈ dot_S1024x1024_S1024x512_S1024x512_1_0_0_1_n_n.rhsNonContracting by decide)]
  rfl

/-- The left operand of the product at output `(r, k)` and contraction position `d` is read at `(r, d)`. -/
theorem lhsIdx_eq (r : Fin 1024) (k : Fin 512) (d : Fin 1024) :
    dot_S1024x1024_S1024x512_S1024x512_1_0_0_1_n_n.lhsIdx (ix2 r k)
        ((contrEquiv1 dot_S1024x1024_S1024x512_S1024x512_1_0_0_1_n_n 1024 rfl rfl).symm d) = ix2 r d := by
  have hd := contrEquiv1_symm_val dot_S1024x1024_S1024x512_S1024x512_1_0_0_1_n_n 1024 rfl rfl d
  exact funext fun a => Fin.ext (by
    match a with
    | ⟨0, _⟩ => exact lhsIdx_0 _ _
    | ⟨1, _⟩ => exact (lhsIdx_1 _ _).trans hd)

/-- The right operand of the product at output `(r, k)` and contraction position `d` is read at `(d, k)`. -/
theorem rhsIdx_eq (r : Fin 1024) (k : Fin 512) (d : Fin 1024) :
    dot_S1024x1024_S1024x512_S1024x512_1_0_0_1_n_n.rhsIdx (ix2 r k)
        ((contrEquiv1 dot_S1024x1024_S1024x512_S1024x512_1_0_0_1_n_n 1024 rfl rfl).symm d) = ix2 d k := by
  have hd := contrEquiv1_symm_val dot_S1024x1024_S1024x512_S1024x512_1_0_0_1_n_n 1024 rfl rfl d
  exact funext fun a => Fin.ext (by
    match a with
    | ⟨0, _⟩ => exact (rhsIdx_0 _ _).trans hd
    | ⟨1, _⟩ => exact rhsIdx_1 _ _)

/-- The score of row `r` of the first tile and row `k` of the second: their inner product. The zero
    accumulator contributes nothing. -/
theorem pay4_apply (x0 : Vec Ideal S1x1024x1024 .f32) (x1 : Vec Ideal S1x512x1024 .f32) (r : Fin 1024) (k : Fin 512) :
    k0_pay4 (F := Ideal) x0 x1 (ix2 r k)
      = ∑ d : Fin 1024, x0 (ix3 (0 : Fin 1) r d) * x1 (ix3 (0 : Fin 1) k d) := by
  unfold k0_pay4
  simp only [matmul]
  rw [Ideal.matmul_constant_zero_apply,
    ← Equiv.sum_comp (contrEquiv1 dot_S1024x1024_S1024x512_S1024x512_1_0_0_1_n_n 1024 rfl rfl).symm]
  refine Finset.sum_congr rfl fun d _ => ?_
  rw [lhsIdx_eq r k d, rhsIdx_eq r k d, shapeCast_1ab_ab_apply, transpose_ix2_apply, shapeCast_1ab_ab_apply]

/-! ## The running maximum -/

/-- A vector of length 1024 viewed as a `1024 × 1` column reads, at `(r, 0)`, the vector at `r`. -/
theorem shapeCast_col_apply {α : Type} (x : S1024.Idx → α) (h : S1024.ShapeCasts S1024x1) (r : Fin 1024) :
    shapeCast S1024x1 x h (ix2 r (0 : Fin 1)) = x (ix1 r) :=
  shapeCast_apply x h _ _ (by
    rw [Shape.rowMajor_val_one, Shape.rowMajor_val_two]
    show r.val = r.val * 1 + 0
    omega)

/-- Row `r` of the scores with the column `k` put back: the index `(r, k)`. -/
theorem lift_eq (h : S1024x512.Reduces [1] S1024) (r : Fin 1024) (k : Fin 512) :
    h.lift (ix1 r) k = ix2 r k :=
  funext fun a => Fin.ext (by
    match a with
    | ⟨0, _⟩ => rfl
    | ⟨1, _⟩ => rfl)

/-- The new running maximum of row `r`: the old one against the largest score of the row, the latter
    taken as the fold of `max` from `−∞` over the 512 columns. -/
theorem pay5_apply (x0 : Vec Ideal S1x1024x1024 .f32) (x1 : Vec Ideal S1x512x1024 .f32) (v11 : Vec Ideal S1024x1 .f32)
    (r : Fin 1024) :
    k0_pay5 (F := Ideal) x0 x1 v11 (ix2 r (0 : Fin 1))
      = max (v11 (ix2 r (0 : Fin 1)))
          ((Finset.univ : Finset (Fin 512)).fold max (⊥ : EReal) fun k => k0_pay4 (F := Ideal) x0 x1 (ix2 r k)) := by
  unfold k0_pay5
  rw [maximumf_apply, shapeCast_col_apply]
  refine congrArg (max (v11 (ix2 r (0 : Fin 1)))) ?_
  refine (Ideal.multiReduction_maximumf_single (k0_pay4 (F := Ideal) x0 x1) _ reduces_S1024x512_S1024 _ _
    (ix1 r)).trans ?_
  show (Finset.univ : Finset (Fin 512)).fold max (Ideal.ofBits .f32 0xFF800000#32) _ = _
  rw [ofBits_neg_inf]
  refine congrArg ((Finset.univ : Finset (Fin 512)).fold max (⊥ : EReal)) (funext fun k => ?_)
  exact congrArg (k0_pay4 (F := Ideal) x0 x1) (lift_eq _ r k)

/-- What is stored back as the running maximum is that value. -/
theorem pay7_apply (x0 : Vec Ideal S1x1024x1024 .f32) (x1 : Vec Ideal S1x512x1024 .f32) (v11 : Vec Ideal S1024x1 .f32)
    (r : Fin 1024) :
    k0_pay7 (F := Ideal) x0 x1 v11 (ix2 r (0 : Fin 1)) = k0_pay5 (F := Ideal) x0 x1 v11 (ix2 r (0 : Fin 1)) := by
  unfold k0_pay7
  rw [shapeCast_self]

/-! ## The running sum -/

/-- A `1024 × 1` column broadcast along 512 columns reads, at `(r, k)`, the column at `(r, 0)`. -/
theorem broadcastTo_col_apply {α : Type} (v : S1024x1.Idx → α) (h : S1024x1.Broadcasts S1024x512)
    (r : Fin 1024) (k : Fin 512) :
    broadcastTo S1024x512 v h (ix2 r k) = v (ix2 r (0 : Fin 1)) := by
  refine broadcastTo_apply v h (ix2 r k) (ix2 r (0 : Fin 1)) fun ax => ?_
  match ax with
  | ⟨0, _⟩ =>
    show r.val = if (1024 : Nat) = 1 then 0 else r.val
    rw [if_neg (by decide)]
  | ⟨1, _⟩ =>
    show 0 = if (1 : Nat) = 1 then 0 else k.val
    rw [if_pos rfl]

/-- The new running sum of row `r`: the old one rescaled from the old maximum to the new, plus the sum
    over the 512 columns of the exponentials of the scores shifted by the new maximum. -/
theorem pay6_apply (x0 : Vec Ideal S1x1024x1024 .f32) (x1 : Vec Ideal S1x512x1024 .f32)
    (v11 v13 v19 : Vec Ideal S1024x1 .f32) (r : Fin 1024) :
    k0_pay6 (F := Ideal) x0 x1 v11 v13 v19 (ix2 r (0 : Fin 1))
      = v19 (ix2 r (0 : Fin 1))
          * Ideal.exp (v13 (ix2 r (0 : Fin 1)) - k0_pay5 (F := Ideal) x0 x1 v11 (ix2 r (0 : Fin 1)))
        + ∑ k : Fin 512,
            Ideal.exp (k0_pay4 (F := Ideal) x0 x1 (ix2 r k) - k0_pay5 (F := Ideal) x0 x1 v11 (ix2 r (0 : Fin 1))) := by
  unfold k0_pay6
  rw [shapeCast_self, addf_apply, mulf_apply, shapeCast_col_apply]
  refine congrArg₂ (· + ·) rfl ?_
  refine (Ideal.multiReduction_add_single _ _ reduces_S1024x512_S1024 _ _ (ix1 r)).trans ?_
  refine Finset.sum_congr rfl fun (k : Fin 512) _ => ?_
  refine (congrArg (exp (subf (k0_pay4 (F := Ideal) x0 x1)
    (broadcastTo S1024x512 (k0_pay5 (F := Ideal) x0 x1 v11) broadcasts_S1024x1_S1024x512)))
    (lift_eq reduces_S1024x512_S1024 r k)).trans ?_
  show Ideal.exp (k0_pay4 (F := Ideal) x0 x1 (ix2 r k)
    - broadcastTo S1024x512 (k0_pay5 (F := Ideal) x0 x1 v11) broadcasts_S1024x1_S1024x512 (ix2 r k)) = _
  rw [broadcastTo_col_apply]

/-! ## The row statistic written out at the last tile -/

/-- The statistic of row `r`, stored at `(0, 0, r)`: the running maximum plus the logarithm of the
    running sum. -/
theorem pay1_apply (v33 v34 : Vec Ideal S1024x1 .f32) (r : Fin 1024) :
    k0_pay1 (F := Ideal) v33 v34 (ix3 (0 : Fin 1) (0 : Fin 1) r)
      = v33 (ix2 r (0 : Fin 1)) + Ideal.log (v34 (ix2 r (0 : Fin 1))) := by
  unfold k0_pay1
  rw [shapeCast_ab_1ab_apply, transpose_ix2_apply, addf_apply]
  rfl

/-! ## Real inputs: the update is one step of the online softmax recurrence -/

/-- On real inputs the score is the real inner product. -/
theorem pay4_real (xr0 : Fin 1024 → Fin 1024 → ℝ) (xr1 : Fin 512 → Fin 1024 → ℝ)
    (x0 : Vec Ideal S1x1024x1024 .f32) (x1 : Vec Ideal S1x512x1024 .f32)
    (hx0 : x0 = fun j => ((xr0 (j 1) (j 2) : ℝ) : EReal)) (hx1 : x1 = fun j => ((xr1 (j 1) (j 2) : ℝ) : EReal))
    (r : Fin 1024) (k : Fin 512) :
    k0_pay4 (F := Ideal) x0 x1 (ix2 r k) = ((∑ d : Fin 1024, xr0 r d * xr1 k d : ℝ) : EReal) := by
  subst hx0 hx1
  rw [pay4_apply, Cert.Lib.OnlineSoftmax.ereal_coe_sum]
  refine Finset.sum_congr rfl fun d _ => ?_
  exact (EReal.coe_mul (xr0 r d) (xr1 k d)).symm

/-- On real inputs the new running maximum is the old one against the fold of `max` from `−∞` over
    the row's real scores. -/
theorem pay5_real (xr0 : Fin 1024 → Fin 1024 → ℝ) (xr1 : Fin 512 → Fin 1024 → ℝ)
    (x0 : Vec Ideal S1x1024x1024 .f32) (x1 : Vec Ideal S1x512x1024 .f32)
    (hx0 : x0 = fun j => ((xr0 (j 1) (j 2) : ℝ) : EReal)) (hx1 : x1 = fun j => ((xr1 (j 1) (j 2) : ℝ) : EReal))
    (v11 : Vec Ideal S1024x1 .f32) (r : Fin 1024) :
    k0_pay5 (F := Ideal) x0 x1 v11 (ix2 r (0 : Fin 1))
      = max (v11 (ix2 r (0 : Fin 1)))
          ((Finset.univ : Finset (Fin 512)).fold max (⊥ : EReal)
            fun k => ((∑ d : Fin 1024, xr0 r d * xr1 k d : ℝ) : EReal)) := by
  rw [pay5_apply]
  refine congrArg (max (v11 (ix2 r (0 : Fin 1)))) ?_
  exact congrArg (fun f => (Finset.univ : Finset (Fin 512)).fold max (⊥ : EReal) f)
    (funext fun k => pay4_real xr0 xr1 x0 x1 hx0 hx1 r k)

/-- On real inputs, what one tile stores back as the pair (running maximum, running sum) of row `r` is
    one step of the online softmax recurrence on the row's 512 real scores, from the pair it read. -/
theorem pair_step (xr0 : Fin 1024 → Fin 1024 → ℝ) (xr1 : Fin 512 → Fin 1024 → ℝ)
    (x0 : Vec Ideal S1x1024x1024 .f32) (x1 : Vec Ideal S1x512x1024 .f32)
    (hx0 : x0 = fun j => ((xr0 (j 1) (j 2) : ℝ) : EReal)) (hx1 : x1 = fun j => ((xr1 (j 1) (j 2) : ℝ) : EReal))
    (v11 v19 : Vec Ideal S1024x1 .f32) (r : Fin 1024) :
    (k0_pay7 (F := Ideal) x0 x1 v11 (ix2 r (0 : Fin 1)), k0_pay6 (F := Ideal) x0 x1 v11 v11 v19 (ix2 r (0 : Fin 1)))
      = Cert.Lib.OnlineSoftmax.step (fun k : Fin 512 => ∑ d : Fin 1024, xr0 r d * xr1 k d)
          (v11 (ix2 r (0 : Fin 1)), v19 (ix2 r (0 : Fin 1))) := by
  unfold Cert.Lib.OnlineSoftmax.step Cert.Lib.OnlineSoftmax.stepWith
  refine Prod.ext ?_ ?_
  · show k0_pay7 (F := Ideal) x0 x1 v11 (ix2 r (0 : Fin 1))
      = max (v11 (ix2 r (0 : Fin 1)))
          ((Finset.univ : Finset (Fin 512)).fold max (⊥ : EReal)
            fun k => ((∑ d : Fin 1024, xr0 r d * xr1 k d : ℝ) : EReal))
    rw [pay7_apply, pay5_real xr0 xr1 x0 x1 hx0 hx1]
  · show k0_pay6 (F := Ideal) x0 x1 v11 v11 v19 (ix2 r (0 : Fin 1))
      = v19 (ix2 r (0 : Fin 1))
          * Ideal.exp (v11 (ix2 r (0 : Fin 1)) - max (v11 (ix2 r (0 : Fin 1)))
              ((Finset.univ : Finset (Fin 512)).fold max (⊥ : EReal)
                fun k => ((∑ d : Fin 1024, xr0 r d * xr1 k d : ℝ) : EReal)))
        + ∑ k : Fin 512, Ideal.exp (((∑ d : Fin 1024, xr0 r d * xr1 k d : ℝ) : EReal)
            - max (v11 (ix2 r (0 : Fin 1)))
              ((Finset.univ : Finset (Fin 512)).fold max (⊥ : EReal)
                fun k => ((∑ d : Fin 1024, xr0 r d * xr1 k d : ℝ) : EReal)))
    rw [pay6_apply, pay5_real xr0 xr1 x0 x1 hx0 hx1]
    refine congrArg (_ + ·) (Finset.sum_congr rfl fun k _ => ?_)
    rw [pay4_real xr0 xr1 x0 x1 hx0 hx1]

end Cert.KernelIdeal.StatsPayload

end
-- ==== Proof.Spec.lean ====
/-
  The specification both programs are compared with, over a real input x of shape [8, 2048, 1024]:
    score b p q  = sum over d of x[b,p,d] * x[b,q,d]            (symmetric in p and q)
    weight b l p = exp (score b l p) / sum over q of exp (score b p q)
    out b l d    = sum over p of weight b l p * x[b,p,d].
  The reference normalises exp (score[l,p] - max) over the FIRST score axis l; by the symmetry of the scores that
  column sum is the row sum at p, which is what the kernel's first pass computes as a log-sum-exp per row.
-/
import Idealize.ShloMosaic.PureOps.Ideal
import Idealize.ShloMosaic.Lib.ValueIdx
import Mathlib.Analysis.SpecialFunctions.Log.Basic

noncomputable section

namespace Cert.Spec

open Idealize.ShloMosaic Idealize.ShloMosaic.ValueIdx

/-- A real input. -/
abbrev RIn : Type := Fin 8 → Fin 2048 → Fin 1024 → ℝ

/-- The score of rows `p` and `q` of batch `b`: their inner product. -/
def score (xr : RIn) (b : Fin 8) (p q : Fin 2048) : ℝ := ∑ d : Fin 1024, xr b p d * xr b q d

theorem score_comm (xr : RIn) (b : Fin 8) (p q : Fin 2048) : score xr b p q = score xr b q p := by
  unfold score; exact Finset.sum_congr rfl fun d _ => mul_comm _ _

/-- The log-sum-exp of row `p` of the scores. -/
def lse (xr : RIn) (b : Fin 8) (p : Fin 2048) : ℝ := Real.log (∑ q : Fin 2048, Real.exp (score xr b p q))

/-- The softmax weight of the pair (l, p), normalised over the first axis. -/
def weight (xr : RIn) (b : Fin 8) (l p : Fin 2048) : ℝ := Real.exp (score xr b l p) / ∑ q : Fin 2048, Real.exp (score xr b p q)

/-- The output. -/
def out (xr : RIn) (b : Fin 8) (l : Fin 2048) (d : Fin 1024) : ℝ := ∑ p : Fin 2048, weight xr b l p * xr b p d

/-- The input, the row statistics and the output as arrays of extended reals. -/
def inArr (xr : RIn) : (⟨3, ![8, 2048, 1024]⟩ : Shape).Idx → EReal := fun i => ((xr (i 0) (i 1) (i 2) : ℝ) : EReal)
def lseArr (xr : RIn) : (⟨3, ![8, 1, 2048]⟩ : Shape).Idx → EReal := fun i => ((lse xr (i 0) (i 2) : ℝ) : EReal)
def outArr (xr : RIn) : (⟨3, ![8, 2048, 1024]⟩ : Shape).Idx → EReal := fun i => ((out xr (i 0) (i 1) (i 2) : ℝ) : EReal)

end Cert.Spec

end
-- ==== Proof.KernelIdeal.StatsValue.lean ====
/-
  The statistics kernel at the extended reals, over a real input x.
  At the point (batch b, row tile i, column tile j) the two input blocks are rows 1024 i + r and 512 j + k of x[b];
  the step's matrix product is the scores of those rows, so the pair (running maximum, running sum) of row r is
  updated by one step of the online recurrence with the tile's scores.  The first step starts from (-inf, 0).
  After the fourth step the stored statistic is maximum + log sum, which is the log-sum-exp of the row's 2048 scores.
-/
import proofs.«180204_j89017492177648_2_alg».proof.Proof.KernelIdeal.Pieces
import proofs.«180204_j89017492177648_2_alg».proof.Proof.KernelIdeal.Cover
import proofs.«180204_j89017492177648_2_alg».proof.Proof.StatsPayload
import proofs.«180204_j89017492177648_2_alg».proof.Proof.Spec
import proofs.«180204_j89017492177648_2_alg».proof.Proof.LibOnlineSoftmax

set_option maxRecDepth 16384

noncomputable section

namespace Cert.KernelIdeal.Stats

open Cert.KernelIdeal Cert.KernelIdeal.Gen
open Idealize.ShloMosaic Idealize.ShloMosaic.TcCoe Idealize.SL.Sem
open Idealize.ShloMosaic.Pipeline (Dat)
open Idealize.ShloMosaic.ValueIdx
open Cert.Lib.OnlineSoftmax (step)

variable (V : (c : Dev nD) → (b : Ref sig .tc) → Buf (Elt Ideal) ((c : Thread nD τ).loc b))
variable (xr : Cert.Spec.RIn) (c : Dev nD)

theorem N64 : cfg0.N = 64 := N_0

/-- The batch, the row and the column a point's blocks hold. -/
def bOf (t : Fin cfg0.N) : Fin 8 := ⟨t.val / 8, by have := t.isLt; have := N64; omega⟩
def rowOf (t : Fin cfg0.N) (r : Fin 1024) : Fin 2048 := ⟨t.val / 4 % 2 * 1024 + r.val, by omega⟩
def colOf (t : Fin cfg0.N) (k : Fin 512) : Fin 2048 := ⟨t.val % 4 * 512 + k.val, by omega⟩
/-- The two blocks as real arrays. -/
def xr0 (t : Fin cfg0.N) : Fin 1024 → Fin 1024 → ℝ := fun r d => xr (bOf t) (rowOf t r) d
def xr1 (t : Fin cfg0.N) : Fin 512 → Fin 1024 → ℝ := fun k d => xr (bOf t) (colOf t k) d
/-- The scores of row `r` of the row tile against the column tile. -/
def stile (t : Fin cfg0.N) (r : Fin 1024) : Fin 512 → ℝ := fun k => ∑ d : Fin 1024, xr0 xr t r d * xr1 xr t k d

theorem stile_eq (t : Fin cfg0.N) (r : Fin 1024) (k : Fin 512) :
    stile xr t r k = Cert.Spec.score xr (bOf t) (rowOf t r) (colOf t k) := rfl

/-- The tile's scores are the spec's scores of the row against columns 512 j … 512 j + 511. -/
theorem stile_score (t' t : Fin cfg0.N) (j : Fin 4) (hb : t'.val / 8 = t.val / 8) (hm : t'.val / 4 % 2 = t.val / 4 % 2)
    (hj : t'.val % 4 = j.val) (r : Fin 1024) :
    stile xr t' r = fun k : Fin 512 => Cert.Spec.score xr (bOf t) (rowOf t r) ⟨j.val * 512 + k.val, by have := j.isLt; have := k.isLt; omega⟩ := by
  funext k
  rw [stile_eq]
  have e1 : bOf t' = bOf t := Fin.ext hb
  have e2 : rowOf t' r = rowOf t r := Fin.ext (by show t'.val / 4 % 2 * 1024 + r.val = t.val / 4 % 2 * 1024 + r.val; rw [hm])
  have e3 : colOf t' k = ⟨j.val * 512 + k.val, by have := j.isLt; have := k.isLt; omega⟩ :=
    Fin.ext (by show t'.val % 4 * 512 + k.val = j.val * 512 + k.val; rw [hj])
  rw [e1, e2, e3]

/-- The row's 2048 scores in four tiles of 512. -/
def srow (b : Fin 8) (p : Fin 2048) : Fin 4 → Fin 512 → ℝ :=
  fun j k => Cert.Spec.score xr b p ⟨j.val * 512 + k.val, by have := j.isLt; have := k.isLt; omega⟩

section
variable (hV : (V c main_arg0 : S8x2048x1024.Idx → EReal) = Cert.Spec.inArr xr)
include hV

theorem blk0 (t : Fin cfg0.N) : (iblk V c 0 t : Vec Ideal S1x1024x1024 .f32) = fun j => ((xr0 xr t (j 1) (j 2) : ℝ) : EReal) := by
  funext j
  rw [iblk0_apply V c t j (ix3 (bOf t) (rowOf t (j 1)) (j 2)) rfl rfl rfl, hV]
  rfl

theorem blk1 (t : Fin cfg0.N) : (iblk V c 1 t : Vec Ideal S1x512x1024 .f32) = fun j => ((xr1 xr t (j 1) (j 2) : ℝ) : EReal) := by
  funext j
  rw [iblk1_apply V c t j (ix3 (bOf t) (colOf t (j 1)) (j 2)) rfl rfl rfl, hV]
  rfl

/-- The pair (running maximum, running sum) of row `r` after point `t`. -/
abbrev pairAt (t : Fin cfg0.N) (r : Fin 1024) : EReal × EReal :=
  ((outsAt V c t.val t.isLt).2.1 (ix2 r (0 : Fin 1)), (outsAt V c t.val t.isLt).2.2 (ix2 r (0 : Fin 1)))

/-- A first step starts the recurrence from (-inf, 0). -/
theorem pair_first (t : Fin cfg0.N) (h0 : t.val % 4 = 0) (r : Fin 1024) :
    pairAt V c t r = step (stile xr t r) (⊥, 0) := by
  have h1 : ¬t.val % 4 = 3 := by omega
  unfold pairAt
  rw [outsAt_A V c t h0 h1]
  dsimp only
  rw [smax_A_eq, ssum_A_eq]
  refine (StatsPayload.pair_step (xr0 xr t) (xr1 xr t) (iblk V c 0 t) (iblk V c 1 t) (blk0 V xr c hV t) (blk1 V xr c hV t)
    (k0_pay2 (F := Ideal)) (k0_pay3 (F := Ideal)) r).trans ?_
  rw [StatsPayload.pay2_apply, StatsPayload.pay3_apply]
  rfl

/-- A later step continues it from the pair the step before left. -/
theorem pair_next (t : Fin cfg0.N) (h0 : ¬t.val % 4 = 0) (r : Fin 1024) :
    pairAt V c t r = step (stile xr t r) (pairAt V c ⟨t.val - 1, prev t⟩ r) := by
  by_cases h1 : t.val % 4 = 3
  · unfold pairAt
    rw [outsAt_C V c t h0 h1]
    dsimp only
    rw [smax_C_eq, ssum_C_eq]
    exact StatsPayload.pair_step (xr0 xr t) (xr1 xr t) (iblk V c 0 t) (iblk V c 1 t) (blk0 V xr c hV t) (blk1 V xr c hV t) _ _ r
  · unfold pairAt
    rw [outsAt_B V c t h0 h1]
    dsimp only
    rw [smax_B_eq, ssum_B_eq]
    exact StatsPayload.pair_step (xr0 xr t) (xr1 xr t) (iblk V c 0 t) (iblk V c 1 t) (blk0 V xr c hV t) (blk1 V xr c hV t) _ _ r

/-- What a last step stores: maximum + log sum of the pair it has just computed. -/
theorem out_pair (t : Fin cfg0.N) (h3 : t.val % 4 = 3) (r : Fin 1024) :
    (outsAt V c t.val t.isLt).1 (ix3 (0 : Fin 1) (0 : Fin 1) r) = (pairAt V c t r).1 + Ideal.log (pairAt V c t r).2 := by
  have h0 : ¬t.val % 4 = 0 := by omega
  unfold pairAt
  rw [outsAt_C V c t h0 h3]
  dsimp only
  rw [out_C_eq, StatsPayload.pay1_apply, smax_C_eq, ssum_C_eq]

/-- After the last step of a reduction the pair is the four steps of the recurrence over the row's four tiles. -/
theorem pair_last (t : Fin cfg0.N) (h3 : t.val % 4 = 3) (r : Fin 1024) :
    pairAt V c t r = step (srow xr (bOf t) (rowOf t r) 3) (step (srow xr (bOf t) (rowOf t r) 2)
      (step (srow xr (bOf t) (rowOf t r) 1) (step (srow xr (bOf t) (rowOf t r) 0) (⊥, 0)))) := by
  have ht := t.isLt
  have h64 := N64
  have n1 : t.val - 1 < cfg0.N := by omega
  have n2 : t.val - 1 - 1 < cfg0.N := by omega
  have n3 : t.val - 1 - 1 - 1 < cfg0.N := by omega
  rw [pair_next V xr c hV t (by omega) r]
  rw [pair_next V xr c hV ⟨t.val - 1, prev t⟩ (by show ¬(t.val - 1) % 4 = 0; omega) r]
  rw [pair_next V xr c hV ⟨t.val - 1 - 1, prev ⟨t.val - 1, prev t⟩⟩ (by show ¬(t.val - 1 - 1) % 4 = 0; omega) r]
  rw [pair_first V xr c hV ⟨t.val - 1 - 1 - 1, prev ⟨t.val - 1 - 1, prev ⟨t.val - 1, prev t⟩⟩⟩ (by show (t.val - 1 - 1 - 1) % 4 = 0; omega) r]
  rw [stile_score xr t t 3 rfl rfl (by rw [h3]; rfl) r,
    stile_score xr ⟨t.val - 1, prev t⟩ t 2 (by show (t.val - 1) / 8 = t.val / 8; omega) (by show (t.val - 1) / 4 % 2 = t.val / 4 % 2; omega) (by show (t.val - 1) % 4 = (2 : Fin 4).val; show (t.val - 1) % 4 = 2; omega) r,
    stile_score xr ⟨t.val - 1 - 1, prev ⟨t.val - 1, prev t⟩⟩ t 1 (by show (t.val - 1 - 1) / 8 = t.val / 8; omega) (by show (t.val - 1 - 1) / 4 % 2 = t.val / 4 % 2; omega) (by show (t.val - 1 - 1) % 4 = 1; omega) r,
    stile_score xr ⟨t.val - 1 - 1 - 1, prev ⟨t.val - 1 - 1, prev ⟨t.val - 1, prev t⟩⟩⟩ t 0 (by show (t.val - 1 - 1 - 1) / 8 = t.val / 8; omega) (by show (t.val - 1 - 1 - 1) / 4 % 2 = t.val / 4 % 2; omega) (by show (t.val - 1 - 1 - 1) % 4 = 0; omega) r]
  rfl

/-- What a last step stores for row `r` is the log-sum-exp of the row's scores. -/
theorem out_lse (t : Fin cfg0.N) (h3 : t.val % 4 = 3) (r : Fin 1024) :
    (outsAt V c t.val t.isLt).1 (ix3 (0 : Fin 1) (0 : Fin 1) r) = ((Cert.Spec.lse xr (bOf t) (rowOf t r) : ℝ) : EReal) := by
  rw [out_pair V xr c hV t h3 r, pair_last V xr c hV t h3 r]
  rw [Cert.Lib.OnlineSoftmax.lse_four (by norm_num) (srow xr (bOf t) (rowOf t r))]
  unfold Cert.Spec.lse
  rw [Cert.Lib.OnlineSoftmax.sum_fin_2048 (fun q => Real.exp (Cert.Spec.score xr (bOf t) (rowOf t r) q))]
  rfl

/-- The statistics array after the first kernel: the log-sum-exp of every row of the scores. -/
theorem lse_value : (dat V c).arrAt 2 cfg0.N = Cert.Spec.lseArr xr :=
  final2 V c (Cert.Spec.lseArr xr) fun t h3 y k hk0 hk2 => by
    obtain ⟨r, hr⟩ : ∃ r : Fin 1024, r = y 2 := ⟨y 2, rfl⟩
    have hy : y = ix3 (0 : Fin 1) (0 : Fin 1) r := by
      funext a
      match a with
      | ⟨0, _⟩ => exact Fin.ext (by have h : (y 0).val < 1 := (y 0).isLt; show (y 0).val = 0; omega)
      | ⟨1, _⟩ => exact Fin.ext (by have h : (y 1).val < 1 := (y 1).isLt; show (y 1).val = 0; omega)
      | ⟨2, _⟩ => exact hr.symm
    rw [hy, out_lse V xr c hV t h3 r]
    show _ = ((Cert.Spec.lse xr (k 0) (k 2) : ℝ) : EReal)
    have e0 : bOf t = k 0 := Fin.ext hk0.symm
    have e2 : rowOf t r = k 2 := Fin.ext (by show t.val / 4 % 2 * 1024 + r.val = (k 2).val; rw [hk2, hr])
    rw [e0, e2]

end

end Cert.KernelIdeal.Stats

end
-- ==== Proof.OutPayload.lean ====
/-
  The weighted-sum pass of the attention, one tile at a time, read at an index of the extended reals.

  For a tile x0 of 512 query rows, a tile x1 of 512 key rows (each row of length 1024), a statistic x2 per key row and
  an accumulator v16, the accumulated block at (r, d) is
      v16(r, d) + sum over k of exp (⟨x0 row r, x1 row k⟩ - x2(k)) * x1(k, d):
  the scores are a product of x0 with the transpose of x1 onto a zero accumulator, the row statistic is broadcast
  along the rows, the narrowing of both factors of the second product is the identity on extended reals, and the second
  product contracts the key-row axis. Over real inputs every term is the embedding of a real number.
-/
import proofs.«180204_j89017492177648_2_alg».proof.Proof.Gen.KernelIdeal.Skeleton
import proofs.«180204_j89017492177648_2_alg».proof.Proof.LibOnlineSoftmax
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

namespace Cert.KernelIdeal.OutPayload

open Cert.KernelIdeal Cert.KernelIdeal.Gen
open Idealize.ShloMosaic Idealize.ShloMosaic.ValueIdx Idealize.SL.Sem
open scoped BigOperators

/-! ## The layout operations of the payload, read at an index -/

/-- Dropping the leading unit axis of a 1 x 512 x 1024 block: entry (r, e) is entry (0, r, e). -/
theorem dropUnit_512x1024_apply (v : Vec Ideal S1x512x1024 .f32) (h : S1x512x1024.ShapeCasts S512x1024)
    (r : Fin 512) (e : Fin 1024) : shapeCast S512x1024 v h (ix2 r e) = v (ix3 0 r e) := by
  refine (shapeCast_dropUnit_apply ![512, 1024] v h (ix2 r e)).trans ?_
  exact congrArg v (funext fun a => by
    match a with
    | ⟨0, _⟩ => rfl
    | ⟨1, _⟩ => rfl
    | ⟨2, _⟩ => rfl)

/-- Dropping the leading unit axis of a 1 x 1 x 512 block: entry (0, k) is entry (0, 0, k). -/
theorem dropUnit_1x512_apply (v : Vec Ideal S1x1x512 .f32) (h : S1x1x512.ShapeCasts S1x512)
    (k : Fin 512) : shapeCast S1x512 v h (ix2 0 k) = v (ix3 0 0 k) := by
  refine (shapeCast_dropUnit_apply ![1, 512] v h (ix2 0 k)).trans ?_
  exact congrArg v (funext fun a => by
    match a with
    | ⟨0, _⟩ => rfl
    | ⟨1, _⟩ => rfl
    | ⟨2, _⟩ => rfl)

/-- The transpose of a 512 x 1024 matrix: entry (e, k) is entry (k, e). -/
theorem transpose_512x1024_apply (v : FVec Ideal S512x1024 .f32) (h : S512x1024.Transposes [1, 0] S1024x512)
    (e : Fin 1024) (k : Fin 512) : transpose S1024x512 [1, 0] v h (ix2 e k) = v (ix2 k e) :=
  transpose_apply [1, 0] v h (ix2 e k) (ix2 k e) (fun b => by
    match b with
    | ⟨0, _⟩ => rfl
    | ⟨1, _⟩ => rfl)

/-- A 1 x 512 row broadcast along 512 rows: entry (r, k) is entry (0, k). -/
theorem broadcast_1x512_apply (v : FVec Ideal S1x512 .f32) (h : S1x512.Broadcasts S512x512)
    (r k : Fin 512) : broadcastTo S512x512 v h (ix2 r k) = v (ix2 0 k) :=
  broadcastTo_apply v h (ix2 r k) (ix2 0 k) (fun a => by
    match a with
    | ⟨0, _⟩ => show 0 = if (1 : Nat) = 1 then 0 else r.val; rw [if_pos rfl]
    | ⟨1, _⟩ => show k.val = if (512 : Nat) = 1 then 0 else k.val; rw [if_neg (by decide)])

/-! ## The two matrix products, read at an index -/

/-- The left operand index of the first product on its row axis. -/
theorem lhs1_0 (j : S512x512.Idx) (q : dot_S512x1024_S1024x512_S512x512_1_0_0_1_n_n.contr.Idx) :
    (dot_S512x1024_S1024x512_S512x512_1_0_0_1_n_n.lhsIdx j q 0).val = (j 0).val := by
  unfold DotDims.lhsIdx
  rw [dif_neg (show ¬(0 : Fin S512x1024.rank) ∈ dot_S512x1024_S1024x512_S512x512_1_0_0_1_n_n.lhsBatch by decide), dif_pos (show (0 : Fin S512x1024.rank) ∈ dot_S512x1024_S1024x512_S512x512_1_0_0_1_n_n.lhsNonContracting by decide)]
  rfl
/-- The left operand index of the first product on its contracted axis. -/
theorem lhs1_1 (j : S512x512.Idx) (q : dot_S512x1024_S1024x512_S512x512_1_0_0_1_n_n.contr.Idx) :
    (dot_S512x1024_S1024x512_S512x512_1_0_0_1_n_n.lhsIdx j q 1).val = (q ⟨0, by decide⟩).val :=
  dot_S512x1024_S1024x512_S512x512_1_0_0_1_n_n.lhsIdx_val_of_single rfl j q
/-- The right operand index of the first product on its contracted axis. -/
theorem rhs1_0 (j : S512x512.Idx) (q : dot_S512x1024_S1024x512_S512x512_1_0_0_1_n_n.contr.Idx) :
    (dot_S512x1024_S1024x512_S512x512_1_0_0_1_n_n.rhsIdx j q 0).val = (q ⟨0, by decide⟩).val :=
  dot_S512x1024_S1024x512_S512x512_1_0_0_1_n_n.rhsIdx_val_of_single rfl j q
/-- The right operand index of the first product on its column axis. -/
theorem rhs1_1 (j : S512x512.Idx) (q : dot_S512x1024_S1024x512_S512x512_1_0_0_1_n_n.contr.Idx) :
    (dot_S512x1024_S1024x512_S512x512_1_0_0_1_n_n.rhsIdx j q 1).val = (j 1).val := by
  unfold DotDims.rhsIdx
  rw [dif_neg (show ¬(1 : Fin S1024x512.rank) ∈ dot_S512x1024_S1024x512_S512x512_1_0_0_1_n_n.rhsBatch by decide), dif_pos (show (1 : Fin S1024x512.rank) ∈ dot_S512x1024_S1024x512_S512x512_1_0_0_1_n_n.rhsNonContracting by decide)]
  rfl

/-- The first product, a 512 x 1024 matrix times a 1024 x 512 matrix onto the zero accumulator: entry (r, k) is the
    sum over e of a(r, e) * b(e, k). -/
theorem matmul1_apply (prec : Option ContractPrecision) (a : FVec Ideal S512x1024 .f32) (b : FVec Ideal S1024x512 .f32) (r k : Fin 512) :
    matmul dot_S512x1024_S1024x512_S512x512_1_0_0_1_n_n prec a b (constant S512x512 .f32 0x00000000#32) (ix2 r k)
      = ∑ e : Fin 1024, a (ix2 r e) * b (ix2 e k) := by
  show FloatOps.matmul dot_S512x1024_S1024x512_S512x512_1_0_0_1_n_n prec a b (constant S512x512 .f32 0x00000000#32) (ix2 r k) = _
  rw [Ideal.matmul_constant_zero_apply, ← Equiv.sum_comp (contrEquiv1 dot_S512x1024_S1024x512_S512x512_1_0_0_1_n_n 1024 rfl rfl).symm]
  refine Finset.sum_congr rfl fun e _ => ?_
  have hk := contrEquiv1_symm_val dot_S512x1024_S1024x512_S512x512_1_0_0_1_n_n 1024 rfl rfl e
  have el : dot_S512x1024_S1024x512_S512x512_1_0_0_1_n_n.lhsIdx (ix2 r k) ((contrEquiv1 dot_S512x1024_S1024x512_S512x512_1_0_0_1_n_n 1024 rfl rfl).symm e) = ix2 r e := funext fun a => Fin.ext (by
    match a with
    | ⟨0, _⟩ => exact lhs1_0 _ _
    | ⟨1, _⟩ => exact (lhs1_1 _ _).trans hk)
  have er : dot_S512x1024_S1024x512_S512x512_1_0_0_1_n_n.rhsIdx (ix2 r k) ((contrEquiv1 dot_S512x1024_S1024x512_S512x512_1_0_0_1_n_n 1024 rfl rfl).symm e) = ix2 e k := funext fun a => Fin.ext (by
    match a with
    | ⟨0, _⟩ => exact (rhs1_0 _ _).trans hk
    | ⟨1, _⟩ => exact rhs1_1 _ _)
  rw [el, er]

/-- The left operand index of the second product on its row axis. -/
theorem lhs2_0 (j : S512x1024.Idx) (q : dot_S512x512_S512x1024_S512x1024_1_0_0_1_n_n.contr.Idx) :
    (dot_S512x512_S512x1024_S512x1024_1_0_0_1_n_n.lhsIdx j q 0).val = (j 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
/-- The left operand index of the second product on its contracted axis. -/
theorem lhs2_1 (j : S512x1024.Idx) (q : dot_S512x512_S512x1024_S512x1024_1_0_0_1_n_n.contr.Idx) :
    (dot_S512x512_S512x1024_S512x1024_1_0_0_1_n_n.lhsIdx j q 1).val = (q ⟨0, by decide⟩).val :=
  dot_S512x512_S512x1024_S512x1024_1_0_0_1_n_n.lhsIdx_val_of_single rfl j q
/-- The right operand index of the second product on its contracted axis. -/
theorem rhs2_0 (j : S512x1024.Idx) (q : dot_S512x512_S512x1024_S512x1024_1_0_0_1_n_n.contr.Idx) :
    (dot_S512x512_S512x1024_S512x1024_1_0_0_1_n_n.rhsIdx j q 0).val = (q ⟨0, by decide⟩).val :=
  dot_S512x512_S512x1024_S512x1024_1_0_0_1_n_n.rhsIdx_val_of_single rfl j q
/-- The right operand index of the second product on its column axis. -/
theorem rhs2_1 (j : S512x1024.Idx) (q : dot_S512x512_S512x1024_S512x1024_1_0_0_1_n_n.contr.Idx) :
    (dot_S512x512_S512x1024_S512x1024_1_0_0_1_n_n.rhsIdx j q 1).val = (j 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl

/-- The second product, a 512 x 512 matrix times a 512 x 1024 matrix onto the zero accumulator: entry (r, d) is the
    sum over k of w(r, k) * v(k, d). -/
theorem matmul2_apply {φ₁ φ₂ : FTy} (prec : Option ContractPrecision) (w : FVec Ideal S512x512 φ₁) (v : FVec Ideal S512x1024 φ₂) (r : Fin 512) (d : Fin 1024) :
    matmul dot_S512x512_S512x1024_S512x1024_1_0_0_1_n_n prec w v (constant S512x1024 .f32 0x00000000#32) (ix2 r d)
      = ∑ k : Fin 512, w (ix2 r k) * v (ix2 k d) := by
  show FloatOps.matmul dot_S512x512_S512x1024_S512x1024_1_0_0_1_n_n prec w v (constant S512x1024 .f32 0x00000000#32) (ix2 r d) = _
  rw [Ideal.matmul_constant_zero_apply, ← Equiv.sum_comp (contrEquiv1 dot_S512x512_S512x1024_S512x1024_1_0_0_1_n_n 512 rfl rfl).symm]
  refine Finset.sum_congr rfl fun k _ => ?_
  have hk := contrEquiv1_symm_val dot_S512x512_S512x1024_S512x1024_1_0_0_1_n_n 512 rfl rfl k
  have el : dot_S512x512_S512x1024_S512x1024_1_0_0_1_n_n.lhsIdx (ix2 r d) ((contrEquiv1 dot_S512x512_S512x1024_S512x1024_1_0_0_1_n_n 512 rfl rfl).symm k) = ix2 r k := funext fun a => Fin.ext (by
    match a with
    | ⟨0, _⟩ => exact lhs2_0 _ _
    | ⟨1, _⟩ => exact (lhs2_1 _ _).trans hk)
  have er : dot_S512x512_S512x1024_S512x1024_1_0_0_1_n_n.rhsIdx (ix2 r d) ((contrEquiv1 dot_S512x512_S512x1024_S512x1024_1_0_0_1_n_n 512 rfl rfl).symm k) = ix2 k d := funext fun a => Fin.ext (by
    match a with
    | ⟨0, _⟩ => exact (rhs2_0 _ _).trans hk
    | ⟨1, _⟩ => exact rhs2_1 _ _)
  rw [el, er]

/-! ## The three payloads of the weighted-sum pass, read at an index -/

/-- The initial accumulator is the zero block. -/
theorem pay1_apply (r : Fin 512) (d : Fin 1024) : k1_pay1 (F := Ideal) (ix2 r d) = 0 := by
  unfold k1_pay1
  rw [shapeCast_self]
  exact Ideal.ofBits_zero_f32

/-- The stored block is the accumulator with a leading unit axis. -/
theorem pay3_apply (v25 : Vec Ideal S512x1024 .f32) (r : Fin 512) (d : Fin 1024) :
    k1_pay3 (F := Ideal) v25 (ix3 0 r d) = v25 (ix2 r d) := by
  unfold k1_pay3
  refine (shapeCast_addUnit_apply ![512, 1024] v25 _ (ix3 0 r d)).trans ?_
  exact congrArg v25 (funext fun a => by
    match a with
    | ⟨0, _⟩ => rfl
    | ⟨1, _⟩ => rfl)

/-- The score entry (r, k) of a tile of query rows against a tile of key rows: the inner product of row r and row k. -/
theorem score_apply (x0 x1 : Vec Ideal S1x512x1024 .f32) (h0 h1 : S1x512x1024.ShapeCasts S512x1024)
    (ht : S512x1024.Transposes [1, 0] S1024x512) (prec : Option ContractPrecision) (r k : Fin 512) :
    matmul (F := Ideal) dot_S512x1024_S1024x512_S512x512_1_0_0_1_n_n prec (shapeCast S512x1024 x0 h0 : FVec Ideal S512x1024 .f32)
        (transpose S1024x512 [1, 0] (shapeCast S512x1024 x1 h1 : FVec Ideal S512x1024 .f32) ht) (constant S512x512 .f32 0x00000000#32) (ix2 r k)
      = ∑ e : Fin 1024, x0 (ix3 0 r e) * x1 (ix3 0 k e) := by
  rw [matmul1_apply]
  refine Finset.sum_congr rfl fun e _ => ?_
  rw [dropUnit_512x1024_apply, transpose_512x1024_apply, dropUnit_512x1024_apply]

/-- The accumulated block: the accumulator plus, at (r, d), the sum over the key rows k of
    exp (score(r, k) - statistic(k)) * x1(k, d). -/
theorem pay2_apply (x0 x1 : Vec Ideal S1x512x1024 .f32) (x2 : Vec Ideal S1x1x512 .f32) (v16 : Vec Ideal S512x1024 .f32)
    (r : Fin 512) (d : Fin 1024) :
    k1_pay2 (F := Ideal) x0 x1 x2 v16 (ix2 r d)
      = v16 (ix2 r d) + ∑ k : Fin 512,
          Ideal.exp ((∑ e : Fin 1024, x0 (ix3 0 r e) * x1 (ix3 0 k e)) - x2 (ix3 0 0 k)) * x1 (ix3 0 k d) := by
  unfold k1_pay2
  rw [shapeCast_self]
  refine (addf_apply _ _ _).trans ?_
  refine congrArg (v16 (ix2 r d) + ·) ?_
  refine (matmul2_apply none _ _ r d).trans ?_
  refine Finset.sum_congr rfl fun k _ => ?_
  rw [truncf_apply, truncf_apply, dropUnit_512x1024_apply]
  refine congrArg (· * x1 (ix3 0 k d)) ?_
  refine (Ideal.exp_def _).trans ?_
  refine congrArg Ideal.exp ?_
  refine (subf_apply _ _ _).trans ?_
  rw [score_apply, broadcast_1x512_apply, dropUnit_1x512_apply]

/-! ## The accumulated block over real inputs -/

open Cert.Lib.OnlineSoftmax in
/-- Over real rows and a real row statistic every term of the accumulated block is real: at (r, d) the block adds the
    sum over the key rows k of exp (⟨row r, row k⟩ - statistic(k)) * xr1(k, d). The inputs are given entry by entry. -/
theorem pay2_apply_coe (x0 x1 : Vec Ideal S1x512x1024 .f32) (x2 : Vec Ideal S1x1x512 .f32) (v16 : Vec Ideal S512x1024 .f32)
    (xr0 xr1 : Fin 512 → Fin 1024 → ℝ) (lr : Fin 512 → ℝ)
    (h0 : ∀ (r : Fin 512) (e : Fin 1024), x0 (ix3 0 r e) = ((xr0 r e : ℝ) : EReal))
    (h1 : ∀ (k : Fin 512) (e : Fin 1024), x1 (ix3 0 k e) = ((xr1 k e : ℝ) : EReal))
    (h2 : ∀ k : Fin 512, x2 (ix3 0 0 k) = ((lr k : ℝ) : EReal))
    (r : Fin 512) (d : Fin 1024) :
    k1_pay2 (F := Ideal) x0 x1 x2 v16 (ix2 r d)
      = v16 (ix2 r d) + ∑ k : Fin 512, ((Real.exp ((∑ e : Fin 1024, xr0 r e * xr1 k e) - lr k) * xr1 k d : ℝ) : EReal) := by
  rw [pay2_apply]
  refine congrArg (v16 (ix2 r d) + ·) (Finset.sum_congr rfl fun k _ => ?_)
  rw [h2 k, h1 k d, EReal.coe_mul, ← exp_coe, EReal.coe_sub, ereal_coe_sum]
  refine congrArg (fun s : EReal => Ideal.exp (s - ((lr k : ℝ) : EReal)) * ((xr1 k d : ℝ) : EReal)) ?_
  refine Finset.sum_congr rfl fun e _ => ?_
  rw [h0 r e, h1 k e, EReal.coe_mul]

/-- The same with the inputs given as the arrays of the embedded reals. -/
theorem pay2_real (xr0 xr1 : Fin 512 → Fin 1024 → ℝ) (lr : Fin 512 → ℝ)
    (x0 x1 : Vec Ideal S1x512x1024 .f32) (x2 : Vec Ideal S1x1x512 .f32)
    (hx0 : x0 = fun j => ((xr0 (j 1) (j 2) : ℝ) : EReal))
    (hx1 : x1 = fun j => ((xr1 (j 1) (j 2) : ℝ) : EReal))
    (hx2 : x2 = fun j => ((lr (j 2) : ℝ) : EReal))
    (v16 : Vec Ideal S512x1024 .f32) (r : Fin 512) (d : Fin 1024) :
    k1_pay2 (F := Ideal) x0 x1 x2 v16 (ix2 r d)
      = v16 (ix2 r d) + ∑ k : Fin 512, ((Real.exp ((∑ e : Fin 1024, xr0 r e * xr1 k e) - lr k) * xr1 k d : ℝ) : EReal) :=
  pay2_apply_coe x0 x1 x2 v16 xr0 xr1 lr (fun r e => by rw [hx0]) (fun k e => by rw [hx1]) (fun k => by rw [hx2]) r d

end Cert.KernelIdeal.OutPayload

end
-- ==== Proof.KernelIdeal.OutValue.lean ====
/-
  The weighted-sum kernel at the extended reals, over a real input x and the log-sum-exp of its score rows.
  At the point (batch b, query tile i, key tile j) the blocks are the rows 512 i + r and 512 j + k of x[b] and the
  statistics lse[b, 512 j + k]; one step adds to the accumulator, at (r, d), the sum over the key tile of
      exp (score b (512 i + r) (512 j + k) - lse b (512 j + k)) * x[b, 512 j + k, d].
  The first step of a reduction starts from zero, so after the fourth the accumulator holds the four tiles' sums added
  in order, which is the sum over all 2048 key rows p of exp (score b l p - lse b p) * x[b, p, d]. Since
  exp (s - log Z) = exp s / Z for the positive row sum Z, each term is the specification's weight times x[b, p, d],
  and the stored block is the specification's output.
-/
import proofs.«180204_j89017492177648_2_alg».proof.Proof.KernelIdeal.Pieces
import proofs.«180204_j89017492177648_2_alg».proof.Proof.KernelIdeal.Cover
import proofs.«180204_j89017492177648_2_alg».proof.Proof.OutPayload
import proofs.«180204_j89017492177648_2_alg».proof.Proof.Spec
import proofs.«180204_j89017492177648_2_alg».proof.Proof.LibOnlineSoftmax

set_option maxRecDepth 16384

noncomputable section

namespace Cert.KernelIdeal.Out

open Cert.KernelIdeal Cert.KernelIdeal.Gen
open Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))
variable (xr : Cert.Spec.RIn) (c : Dev nD)

/-- The grid of the second kernel has 128 points. -/
theorem N128 : cfg1.N = 128 := N_1

/-- The batch, the query row and the key row a point's blocks hold. -/
def bOf (t : Fin cfg1.N) : Fin 8 := ⟨t.val / 16, by have := t.isLt; have := N128; omega⟩
/-- Query row `r` of the point's query tile, as a row of the input. -/
def qOf (t : Fin cfg1.N) (r : Fin 512) : Fin 2048 := ⟨t.val / 4 % 4 * 512 + r.val, by omega⟩
/-- Key row `k` of the point's key tile, as a row of the input. -/
def kOf (t : Fin cfg1.N) (k : Fin 512) : Fin 2048 := ⟨t.val % 4 * 512 + k.val, by omega⟩
/-- The query tile as a real array. -/
def xr0 (t : Fin cfg1.N) : Fin 512 → Fin 1024 → ℝ := fun r e => xr (bOf t) (qOf t r) e
/-- The key tile as a real array. -/
def xr1 (t : Fin cfg1.N) : Fin 512 → Fin 1024 → ℝ := fun k e => xr (bOf t) (kOf t k) e
/-- The key tile's row statistics as a real array. -/
def lr (t : Fin cfg1.N) : Fin 512 → ℝ := fun k => Cert.Spec.lse xr (bOf t) (kOf t k)

/-- One term of the weighted sum: `exp (score b l p - lse b p) * x[b, p, d]`. -/
def term (b : Fin 8) (l : Fin 2048) (d : Fin 1024) (p : Fin 2048) : ℝ :=
  Real.exp (Cert.Spec.score xr b l p - Cert.Spec.lse xr b p) * xr b p d

/-- What one step adds to the accumulator at `(r, d)`: the sum of the terms over the key tile. -/
def tileT (t : Fin cfg1.N) (r : Fin 512) (d : Fin 1024) : EReal :=
  ∑ k : Fin 512, ((term xr (bOf t) (qOf t r) d (kOf t k) : ℝ) : EReal)

/-- The accumulator's entry `(r, d)` after point `t`. -/
abbrev accAt (t : Fin cfg1.N) (r : Fin 512) (d : Fin 1024) : EReal :=
  (outsAt V c t.val t.isLt).2 (ix2 r d)

section
variable (hV0 : (V c main_arg0 : S8x2048x1024.Idx → EReal) = Cert.Spec.inArr xr)
variable (hV1 : (V c main_v0 : S8x1x2048.Idx → EReal) = Cert.Spec.lseArr xr)

include hV0 in
/-- The query tile's block holds the rows `512 i + r` of batch `b`. -/
theorem blk0 (t : Fin cfg1.N) :
    (iblk V c 0 t : Vec Ideal S1x512x1024 .f32) = fun j => ((xr0 xr t (j 1) (j 2) : ℝ) : EReal) := by
  funext j
  rw [iblk0_apply V c t j (ix3 (bOf t) (qOf t (j 1)) (j 2)) rfl rfl rfl, hV0]
  rfl

include hV0 in
/-- The key tile's block holds the rows `512 j + k` of batch `b`. -/
theorem blk1 (t : Fin cfg1.N) :
    (iblk V c 1 t : Vec Ideal S1x512x1024 .f32) = fun j => ((xr1 xr t (j 1) (j 2) : ℝ) : EReal) := by
  funext j
  rw [iblk1_apply V c t j (ix3 (bOf t) (kOf t (j 1)) (j 2)) rfl rfl rfl, hV0]
  rfl

include hV1 in
/-- The statistics block holds the log-sum-exp of the key tile's rows. -/
theorem blk2 (t : Fin cfg1.N) :
    (iblk V c 2 t : Vec Ideal S1x1x512 .f32) = fun j => ((lr xr t (j 2) : ℝ) : EReal) := by
  funext j
  rw [iblk2_apply V c t j (ix3 (bOf t) (0 : Fin 1) (kOf t (j 2))) rfl rfl, hV1]
  rfl

include hV0 hV1 in
/-- One step of the accumulation over real inputs: the accumulator it starts from plus the tile's sum. -/
theorem pay2_tile (t : Fin cfg1.N) (v16 : Vec Ideal S512x1024 .f32) (r : Fin 512) (d : Fin 1024) :
    k1_pay2 (F := Ideal) (iblk V c 0 t) (iblk V c 1 t) (iblk V c 2 t) v16 (ix2 r d)
      = v16 (ix2 r d) + tileT xr t r d :=
  OutPayload.pay2_real (xr0 xr t) (xr1 xr t) (lr xr t) (iblk V c 0 t) (iblk V c 1 t) (iblk V c 2 t)
    (blk0 V xr c hV0 t) (blk1 V xr c hV0 t) (blk2 V xr c hV1 t) v16 r d

include hV0 hV1 in
/-- A first step starts the accumulator from zero. -/
theorem acc_first (t : Fin cfg1.N) (h0 : t.val % 4 = 0) (r : Fin 512) (d : Fin 1024) :
    accAt V c t r d = 0 + tileT xr t r d := by
  have h1 : ¬t.val % 4 = 3 := by omega
  unfold accAt
  rw [outsAt_A V c t h0 h1]
  dsimp only
  rw [sacc_A_eq, pay2_tile V xr c hV0 hV1 t, OutPayload.pay1_apply]

include hV0 hV1 in
/-- A later step continues from the accumulator the step before left. -/
theorem acc_next (t : Fin cfg1.N) (h0 : ¬t.val % 4 = 0) (r : Fin 512) (d : Fin 1024) :
    accAt V c t r d = accAt V c ⟨t.val - 1, prev t⟩ r d + tileT xr t r d := by
  by_cases h1 : t.val % 4 = 3
  · unfold accAt
    rw [outsAt_C V c t h0 h1]
    dsimp only
    rw [sacc_C_eq, pay2_tile V xr c hV0 hV1 t]
  · unfold accAt
    rw [outsAt_B V c t h0 h1]
    dsimp only
    rw [sacc_B_eq, pay2_tile V xr c hV0 hV1 t]

/-- What a last step stores: the accumulator it has just computed, with a leading unit axis. -/
theorem out_last (t : Fin cfg1.N) (h3 : t.val % 4 = 3) (r : Fin 512) (d : Fin 1024) :
    (outsAt V c t.val t.isLt).1 (ix3 (0 : Fin 1) r d) = accAt V c t r d := by
  have h0 : ¬t.val % 4 = 0 := by omega
  unfold accAt
  rw [outsAt_C V c t h0 h3]
  dsimp only
  rw [out_C_eq, OutPayload.pay3_apply, sacc_C_eq]

end

/-! ## The four steps of one reduction -/

/-- The term is the specification's weight times the input entry: `exp (s - log Z) = exp s / Z` for the positive
    row sum `Z`. -/
theorem term_eq (b : Fin 8) (l : Fin 2048) (d : Fin 1024) (p : Fin 2048) :
    term xr b l d p = Cert.Spec.weight xr b l p * xr b p d := by
  unfold term Cert.Spec.weight Cert.Spec.lse
  rw [Real.exp_sub, Real.exp_log (Cert.Lib.OnlineSoftmax.real_sum_exp_pos Finset.univ_nonempty _)]

/-- The sum of the 2048 terms is the specification's output entry. -/
theorem sum_term_eq (b : Fin 8) (l : Fin 2048) (d : Fin 1024) :
    ∑ p : Fin 2048, ((term xr b l d p : ℝ) : EReal) = ((Cert.Spec.out xr b l d : ℝ) : EReal) := by
  rw [← Cert.Lib.OnlineSoftmax.ereal_coe_sum]
  unfold Cert.Spec.out
  exact congrArg _ (Finset.sum_congr rfl fun p _ => term_eq xr b l d p)

/-- A tile's sum, for a point whose batch, query row and key tile are known: the terms of the key rows
    `512 j + k`. -/
theorem tileT_at (t : Fin cfg1.N) (r : Fin 512) (d : Fin 1024) (b : Fin 8) (l : Fin 2048) (j : ℕ)
    (hb : t.val / 16 = b.val) (hl : t.val / 4 % 4 * 512 + r.val = l.val) (hj : t.val % 4 = j)
    (g : Fin 512 → Fin 2048) (hg : ∀ k, (g k).val = j * 512 + k.val) :
    tileT xr t r d = ∑ k : Fin 512, ((term xr b l d (g k) : ℝ) : EReal) := by
  have e1 : bOf t = b := Fin.ext hb
  have e2 : qOf t r = l := Fin.ext hl
  have e3 : ∀ k, kOf t k = g k := fun k => Fin.ext (by rw [hg k, ← hj]; rfl)
  unfold tileT
  rw [e1, e2]
  exact Finset.sum_congr rfl fun k _ => by rw [e3 k]

section
variable (hV0 : (V c main_arg0 : S8x2048x1024.Idx → EReal) = Cert.Spec.inArr xr)
variable (hV1 : (V c main_v0 : S8x1x2048.Idx → EReal) = Cert.Spec.lseArr xr)
include hV0 hV1

/-- After the fourth step of a reduction the accumulator's entry `(r, d)` is the output entry of query row
    `512 i + r`: the four tiles' sums, added in order from zero, are the sum over all 2048 key rows. -/
theorem acc_last (t : Fin cfg1.N) (h3 : t.val % 4 = 3) (r : Fin 512) (d : Fin 1024) :
    accAt V c t r d = ((Cert.Spec.out xr (bOf t) (qOf t r) d : ℝ) : EReal) := by
  have hN := N128
  have hlt := t.isLt
  have hr := r.isLt
  let t2 : Fin cfg1.N := ⟨t.val - 1, prev t⟩
  let t1 : Fin cfg1.N := ⟨t2.val - 1, prev t2⟩
  let t0 : Fin cfg1.N := ⟨t1.val - 1, prev t1⟩
  have v2 : t2.val = t.val - 1 := rfl
  have v1 : t1.val = t.val - 1 - 1 := rfl
  have v0 : t0.val = t.val - 1 - 1 - 1 := rfl
  have s3 := acc_next V xr c hV0 hV1 t (by omega) r d
  have s2 := acc_next V xr c hV0 hV1 t2 (by omega) r d
  have s1 := acc_next V xr c hV0 hV1 t1 (by omega) r d
  have s0 := acc_first V xr c hV0 hV1 t0 (by omega) r d
  have hb : t.val / 16 = (bOf t).val := rfl
  have hl : t.val / 4 % 4 * 512 + r.val = (qOf t r).val := rfl
  have T3 := tileT_at xr t r d (bOf t) (qOf t r) 3 hb hl h3
    (fun k => ⟨1536 + k.val, by omega⟩) (fun k => by show 1536 + k.val = 3 * 512 + k.val; omega)
  have T2 := tileT_at xr t2 r d (bOf t) (qOf t r) 2 (by omega) (by omega) (by omega)
    (fun k => ⟨1024 + k.val, by omega⟩) (fun k => by show 1024 + k.val = 2 * 512 + k.val; omega)
  have T1 := tileT_at xr t1 r d (bOf t) (qOf t r) 1 (by omega) (by omega) (by omega)
    (fun k => ⟨512 + k.val, by omega⟩) (fun k => by show 512 + k.val = 1 * 512 + k.val; omega)
  have T0 := tileT_at xr t0 r d (bOf t) (qOf t r) 0 (by omega) (by omega) (by omega)
    (fun k => ⟨k.val, by omega⟩) (fun k => by show k.val = 0 * 512 + k.val; omega)
  rw [s3, s2, s1, s0, T3, T2, T1, T0]
  exact (Cert.Lib.OnlineSoftmax.sum_2048_four_tiles
    (fun p : Fin 2048 => ((term xr (bOf t) (qOf t r) d p : ℝ) : EReal))).trans (sum_term_eq xr _ _ _)

/-- THE VALUE OF THE SECOND KERNEL: over a real input and its rows' log-sum-exp, the result array ends at the
    specification's output. -/
theorem res_value : (dat V c).arrAt 3 cfg1.N = Cert.Spec.outArr xr := by
  refine final3 V c (Cert.Spec.outArr xr) (fun t h3 y k hk0 hk1 hk2 => ?_)
  have hy0 : (y 0).val < 1 := (y 0).isLt
  have hy : y = ix3 (0 : Fin 1) (⟨(y 1).val, (y 1).isLt⟩ : Fin 512) (⟨(y 2).val, (y 2).isLt⟩ : Fin 1024) := by
    funext a
    match a with
    | ⟨0, _⟩ => exact Fin.ext (by show (y 0).val = 0; omega)
    | ⟨1, _⟩ => rfl
    | ⟨2, _⟩ => rfl
  refine (congrArg (outsAt V c t.val t.isLt).1 hy).trans ?_
  refine (out_last V c t h3 _ _).trans ?_
  refine (acc_last V xr c hV0 hV1 t h3 _ _).trans ?_
  have e0 : bOf t = (⟨(k 0).val, (k 0).isLt⟩ : Fin 8) := Fin.ext hk0.symm
  have e1 : qOf t (⟨(y 1).val, (y 1).isLt⟩ : Fin 512) = (⟨(k 1).val, (k 1).isLt⟩ : Fin 2048) := Fin.ext hk1.symm
  have e2 : (⟨(y 2).val, (y 2).isLt⟩ : Fin 1024) = (⟨(k 2).val, (k 2).isLt⟩ : Fin 1024) := Fin.ext hk2.symm
  rw [e0, e1, e2]
  rfl

end

end Cert.KernelIdeal.Out

end
-- ==== Proof.KernelIdeal.Value.lean ====
/-
  The kernel program's result at the extended reals, over a real input: the first kernel leaves the log-sum-exp of
  every row of the scores in the statistics array; the second kernel, reading those, leaves the spec's output.
-/
import proofs.«180204_j89017492177648_2_alg».proof.Proof.KernelIdeal.Run
import proofs.«180204_j89017492177648_2_alg».proof.Proof.KernelIdeal.StatsValue
import proofs.«180204_j89017492177648_2_alg».proof.Proof.KernelIdeal.OutValue

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ)

/-- From a real input the program's result array is the spec's output array. -/
theorem res_eq (xr : Cert.Spec.RIn) (c : Dev nD) (hx : m ((c : Thread nD τ).loc main_arg0) = Cert.Spec.inArr xr) :
    res m c = Cert.Spec.outArr xr := by
  unfold res
  refine Out.res_value (U1 m) xr c ?_ ?_
  · show W1 m c main_arg0 = _
    rw [W1_arg0]; exact hx
  · show W1 m c main_v0 = _
    rw [W1_v0]; unfold lse
    exact Stats.lse_value (U0 m) xr c hx

end Cert.KernelIdeal.Hand

end
-- ==== Proof.RefValue.lean ====
/-
  The value of the reference program on a real input, stage by stage.

  With score b l p the inner product of rows l and p of batch b, the program computes: the scores; their
  maximum over the FIRST score axis l (a fold of max from -∞, then a maximum with a broadcast -∞, which
  changes nothing); exp (score - maximum); the sum of those over l, from 0; the quotient, which is
  exp (score b l p) / ∑ₖ exp (score b k p) whatever the maximum was; and that quotient contracted with
  the input over p. The scores are symmetric, so the sum over the first axis at p is the row sum at p,
  and the quotient is the specification's weight; the last contraction is the specification's output.
-/
import proofs.«180204_j89017492177648_2_alg».proof.Proof.Gen.ReferenceIdeal.Read
import proofs.«180204_j89017492177648_2_alg».proof.Proof.Spec
import proofs.«180204_j89017492177648_2_alg».proof.Proof.LibOnlineSoftmax

noncomputable section

namespace Cert.ReferenceIdeal.RefValue

open Cert.ReferenceIdeal Cert.ReferenceIdeal.Gen Cert.ReferenceIdeal.Read Idealize.ShloMosaic Idealize.ShloMosaic.ValueIdx
open Cert.Spec Cert.Lib.OnlineSoftmax
open scoped BigOperators

/-- Stage 0, the scores: the first contraction at `(b, l, p)` is the real inner product of rows `l` and `p`. -/
theorem v0_apply (xr : RIn) (i : S8x2048x2048.Idx) :
    val_main_v0 (F := Ideal) (inArr xr) i = ((score xr (i 0) (i 1) (i 2) : ℝ) : EReal) := by
  rw [val_main_v0_apply]
  unfold score
  rw [ereal_coe_sum]
  refine Finset.sum_congr rfl (fun k _ => ?_)
  rw [EReal.coe_mul]
  rfl

/-- The bit pattern of `-∞` denotes `⊥`. -/
theorem ofBits_neg_inf : Ideal.ofBits .f32 0xFF800000#32 = (⊥ : EReal) := by
  simp [Ideal.ofBits, Ideal.ieee]

/-- The reduced index `(b, p)` with `l` put back on the reduced axis is `(b, l, p)`. -/
theorem lift_v1 (h : S8x2048x2048.Reduces [1] S8x2048) (j : S8x2048.Idx) (k : Fin (S8x2048x2048.size 1)) :
    h.lift j k = ix3 (j 0 : Fin 8) (⟨k.val, k.isLt⟩ : Fin 2048) (j 1 : Fin 2048) := by
  funext c; apply Fin.ext
  fin_cases c <;> rfl

/-- 2048 positions on the reduced axis. -/
theorem pos2048 : 0 < 2048 := by norm_num

/-- Stage 1, the column maximum: the reduction by `max` from `-∞` over the first score axis `l`, at `(b, p)`,
    is the real maximum over `l` of the scores `score b l p`. -/
theorem v1_apply (xr : RIn) (j : S8x2048.Idx) :
    val_main_v1 (F := Ideal) (inArr xr) j
      = ((Finset.univ.sup' (row_nonempty pos2048) (fun l : Fin 2048 => score xr (j 0) l (j 1)) : ℝ) : EReal) := by
  unfold val_main_v1
  have h : S8x2048x2048.Reduces [1] S8x2048 := by decide
  rw [Host.reduce_eq_fold_single FloatOps.maximumf _ _ reducesTo_S8x2048x2048_S8x2048_d1 h h_S_]
  have hf : (val_main_v0 (F := Ideal) (inArr xr) ∘ h.lift j)
      = fun k : Fin 2048 => ((score xr (j 0) k (j 1) : ℝ) : EReal) :=
    funext fun k => (congrArg (val_main_v0 (F := Ideal) (inArr xr)) (lift_v1 h j k)).trans (v0_apply xr _)
  rw [hf]
  show (Finset.univ : Finset (Fin 2048)).fold max (Ideal.ofBits .f32 0xFF800000#32) _ = _
  rw [ofBits_neg_inf]
  exact fold_max_row pos2048 _

/-- The maximum over the first score axis `l` of the scores `score b l p`. -/
def colmax (xr : RIn) (b : Fin 8) (p : Fin 2048) : ℝ :=
  Finset.univ.sup' (row_nonempty pos2048) (fun l : Fin 2048 => score xr b l p)

/-- Stage 1 restated with the name of the maximum. -/
theorem v1_apply' (xr : RIn) (j : S8x2048.Idx) :
    val_main_v1 (F := Ideal) (inArr xr) j = ((colmax xr (j 0) (j 1) : ℝ) : EReal) :=
  v1_apply xr j

/-- Stages 2 and 3: the broadcast `-∞` and the maximum with it change nothing. -/
theorem v3_apply (xr : RIn) (j : S8x2048.Idx) :
    val_main_v3 (F := Ideal) (inArr xr) j = ((colmax xr (j 0) (j 1) : ℝ) : EReal) := by
  rw [val_main_v3_apply, val_main_v2_apply, val_main_cst_0_apply, v1_apply']
  show max (Ideal.ofBits .f32 0xFF800000#32) _ = _
  rw [ofBits_neg_inf, ereal_max_bot]

/-- Stage 4: the maximum with a unit axis inserted. -/
theorem v4_apply (xr : RIn) (i : S8x1x2048.Idx) :
    val_main_v4 (F := Ideal) (inArr xr) i = ((colmax xr (i 0) (i 2) : ℝ) : EReal) := by
  rw [val_main_v4_apply, v3_apply]
  rfl

/-- Stage 5: the maximum broadcast along the first score axis. -/
theorem v5_apply (xr : RIn) (i : S8x2048x2048.Idx) :
    val_main_v5 (F := Ideal) (inArr xr) i = ((colmax xr (i 0) (i 2) : ℝ) : EReal) := by
  rw [val_main_v5_apply, v4_apply]
  rfl

/-- Stage 6: the shifted scores. -/
theorem v6_apply (xr : RIn) (i : S8x2048x2048.Idx) :
    val_main_v6 (F := Ideal) (inArr xr) i
      = ((score xr (i 0) (i 1) (i 2) : ℝ) : EReal) - ((colmax xr (i 0) (i 2) : ℝ) : EReal) := by
  rw [val_main_v6_apply, v0_apply, v5_apply]
  rfl

/-- Stage 7: the exponentials of the shifted scores. -/
theorem v7_apply (xr : RIn) (i : S8x2048x2048.Idx) :
    val_main_v7 (F := Ideal) (inArr xr) i
      = Ideal.exp (((score xr (i 0) (i 1) (i 2) : ℝ) : EReal) - ((colmax xr (i 0) (i 2) : ℝ) : EReal)) := by
  rw [val_main_v7_apply, v6_apply]
  rfl

/-- Stage 8: the column sums, from the initial value `0`. -/
theorem v8_apply (xr : RIn) (j : S8x2048.Idx) :
    val_main_v8 (F := Ideal) (inArr xr) j
      = 0 + ∑ k : Fin 2048, Ideal.exp (((score xr (j 0) k (j 1) : ℝ) : EReal) - ((colmax xr (j 0) (j 1) : ℝ) : EReal)) := by
  rw [val_main_v8_apply, val_main_cst_1_apply]
  show Ideal.ofBits .f32 0x00000000#32 + _ = _
  rw [Ideal.ofBits_zero_f32]
  refine congrArg (0 + ·) (Finset.sum_congr rfl fun k _ => ?_)
  rw [v7_apply]
  rfl

/-- Stage 9: the column sums with a unit axis inserted. -/
theorem v9_apply (xr : RIn) (i : S8x1x2048.Idx) :
    val_main_v9 (F := Ideal) (inArr xr) i
      = 0 + ∑ k : Fin 2048, Ideal.exp (((score xr (i 0) k (i 2) : ℝ) : EReal) - ((colmax xr (i 0) (i 2) : ℝ) : EReal)) := by
  rw [val_main_v9_apply, v8_apply]
  rfl

/-- Stage 10: the column sums broadcast along the first score axis. -/
theorem v10_apply (xr : RIn) (i : S8x2048x2048.Idx) :
    val_main_v10 (F := Ideal) (inArr xr) i
      = 0 + ∑ k : Fin 2048, Ideal.exp (((score xr (i 0) k (i 2) : ℝ) : EReal) - ((colmax xr (i 0) (i 2) : ℝ) : EReal)) := by
  rw [val_main_v10_apply, v9_apply]
  rfl

/-- The column sum of the exponentials is the row sum, the scores being symmetric. -/
theorem sum_exp_score_comm (xr : RIn) (b : Fin 8) (p : Fin 2048) :
    ∑ k : Fin 2048, Real.exp (score xr b k p) = ∑ q : Fin 2048, Real.exp (score xr b p q) :=
  Finset.sum_congr rfl fun k _ => by rw [score_comm]

/-- Stage 11, the quotient: the softmax weight of the specification. -/
theorem v11_apply (xr : RIn) (i : S8x2048x2048.Idx) :
    val_main_v11 (F := Ideal) (inArr xr) i = ((weight xr (i 0) (i 1) (i 2) : ℝ) : EReal) := by
  rw [val_main_v11_apply, v7_apply, v10_apply]
  show Ideal.div _ _ = _
  rw [weight_reference_zero_add Finset.univ_nonempty (score xr (i 0) (i 1) (i 2)) (colmax xr (i 0) (i 2))
    (fun k : Fin 2048 => score xr (i 0) k (i 2))]
  exact congrArg (fun z : ℝ => ((Real.exp (score xr (i 0) (i 1) (i 2)) / z : ℝ) : EReal))
    (sum_exp_score_comm xr (i 0) (i 2))

/-- Stage 12, the second contraction: the output of the specification. -/
theorem v12_apply (xr : RIn) (i : S8x2048x1024.Idx) :
    val_main_v12 (F := Ideal) (inArr xr) i = ((out xr (i 0) (i 1) (i 2) : ℝ) : EReal) := by
  rw [val_main_v12_apply]
  unfold out
  rw [ereal_coe_sum]
  refine Finset.sum_congr rfl (fun k _ => ?_)
  rw [v11_apply, EReal.coe_mul]
  rfl

/-- THE VALUE OF THE REFERENCE: on a real input its result array is the specification's output array. -/
theorem ref_value (xr : RIn) : val_main_v12 (F := Ideal) (inArr xr) = outArr xr :=
  funext fun i => v12_apply xr i

end Cert.ReferenceIdeal.RefValue

end
-- ==== Proof.Finite.lean ====
/-
  The finiteness precondition read back as mathematics. The printed predicate takes the absolute value of every input
  element, compares it strictly below +infinity and reduces the comparisons by "and" over all three axes from "true".
  Over the extended reals |v| = max v (-v), and max v (-v) < ⊤ rules out both v = ⊤ and v = ⊥ (since -⊥ = ⊤), so the
  predicate holding means that every element is the image of a real number: the input array is the image of a real array.
-/
import proofs.«180204_j89017492177648_2_alg».proof.Pre_finite_inputs
import proofs.«180204_j89017492177648_2_alg».proof.Proof.Gen.Pre_finite_inputs
import proofs.«180204_j89017492177648_2_alg».proof.Proof.Spec
import Idealize.ShloMosaic.Lib.ReduceAll
import Idealize.ShloMosaic.PureOps.Ideal
import Idealize.ShloMosaic.Lib.ValueIdx

noncomputable section

namespace Cert.Proof.Finite

open Idealize.ShloMosaic Idealize.ShloMosaic.ValueIdx

/-- The f32 pattern 0x7F800000 denotes +infinity. -/
theorem ofBits_inf : Ideal.ofBits .f32 0x7F800000#32 = (⊤ : EReal) := by
  simp [Ideal.ofBits, Ideal.ieee]

/-- An extended real whose absolute value max v (-v) is strictly below ⊤ is neither ⊤ nor ⊥. -/
theorem ne_top_bot_of_abs_lt_top (v : EReal) (h : max v (-v) < (⊤ : EReal)) : v ≠ ⊤ ∧ v ≠ ⊥ := by
  constructor
  · rintro rfl
    exact absurd h (by simp)
  · rintro rfl
    exact absurd h (by simp)

/-- A comparison word "a < b" that is 1 says a < b. -/
theorem cmp_olt_eq_one (a b : EReal) (h : Ideal.cmp .olt a b = 1#1) : a < b := by
  unfold Ideal.cmp at h
  by_contra hn
  simp [hn] at h

/-- The scalar shape has one index. -/
instance : Subsingleton Cert.Pre_finite_inputs.S_.Idx := ⟨fun a b => funext fun d => d.elim0⟩

/-- The element fact: where the predicate holds, every element's absolute value is strictly below ⊤. -/
theorem abs_lt_top (x : FVec Ideal Cert.Pre_finite_inputs.S8x2048x1024 .f32)
    (h : Cert.Pre_finite_inputs.fn (F := Ideal) x = fun _ => 1#1) (i : Cert.Pre_finite_inputs.S8x2048x1024.Idx) :
    max (x i) (-(x i)) < (⊤ : EReal) := by
  have h0 := congrFun h ix0
  dsimp only [Cert.Pre_finite_inputs.fn] at h0
  have hi := Host.reduce_andi_all _ _ _ _ ix0 h0 i
  have hc : Ideal.cmp .olt (max (x i) (-(x i))) (Ideal.ofBits .f32 0x7F800000#32) = 1#1 := hi
  rw [ofBits_inf] at hc
  exact cmp_olt_eq_one _ _ hc

/-- Where the finiteness predicate holds, the input is the image of a real array. -/
theorem real_of_finite (x : FVec Ideal Cert.Pre_finite_inputs.S8x2048x1024 .f32)
    (h : Cert.Pre_finite_inputs.fn (F := Ideal) x = fun _ => 1#1) : ∃ xr : Cert.Spec.RIn, x = Cert.Spec.inArr xr := by
  refine ⟨fun b p d => (x (ix3 b p d)).toReal, ?_⟩
  funext i
  obtain ⟨hT, hB⟩ := ne_top_bot_of_abs_lt_top (x i) (abs_lt_top x h i)
  have e : ((x (ix3 (i 0) (i 1) (i 2))).toReal : EReal) = ((x i).toReal : EReal) :=
    congrArg (fun j => ((x j).toReal : EReal)) (eq_ix3 i).symm
  exact (EReal.coe_toReal hT hB).symm.trans e.symm

end Cert.Proof.Finite

end
-- ==== Proof.Algebraic.lean ====
/-
  The algebraic claim.  Under the precondition every input entry is a real number, so on every core the input is a
  real array x.  The kernel program ends with its result array at the spec's output of x; the reference program,
  started from the same input, ends with its result at the same array: the reference's softmax weight
  exp (s[l,p] - max) / sum over l' of exp (s[l',p] - max) is exp (s[l,p]) / sum over q of exp (s[p,q]) by the symmetry of the
  scores, which is the kernel's exp (s[l,p] - logsumexp of row p).
-/
import proofs.«180204_j89017492177648_2_alg».proof.Defs
import proofs.«180204_j89017492177648_2_alg».proof.Proof.Gen.Kernel
import proofs.«180204_j89017492177648_2_alg».proof.Proof.Gen.KernelIdeal
import proofs.«180204_j89017492177648_2_alg».proof.Proof.Gen.ReferenceIdeal
import proofs.«180204_j89017492177648_2_alg».proof.Proof.Gen.Pre_finite_inputs
import proofs.«180204_j89017492177648_2_alg».proof.Proof.KernelIdeal.Value
import proofs.«180204_j89017492177648_2_alg».proof.Proof.RefValue
import proofs.«180204_j89017492177648_2_alg».proof.Proof.Finite

noncomputable section

namespace Cert.Proof.Algebraic

open Idealize.ShloMosaic Idealize.ShloMosaic.TcCoe Idealize.SL.Sem

theorem algebraic : Cert.algebraic_KernelIdeal_ReferenceIdeal := by
  intro m ρ m' ρ' hpre hagree
  have hfin : ∀ c : Dev Cert.KernelIdeal.nD, ∃ xr : Cert.Spec.RIn,
      m ((c.tc : Thread Cert.KernelIdeal.nD Cert.KernelIdeal.τ).loc Cert.KernelIdeal.main_arg0) = Cert.Spec.inArr xr :=
    fun c => Cert.Proof.Finite.real_of_finite _ (hpre c)
  choose xr hxr using hfin
  refine ⟨fun c => Cert.Spec.outArr (xr c), ?_, ?_⟩
  · refine (θ_run Cert.KernelIdeal.defs _ _).mono (fun _ h c => ⟨(h c).1.trans ?_, (h c).2⟩)
      (Cert.KernelIdeal.Hand.run (F := Ideal) m ρ)
    exact Cert.KernelIdeal.Hand.res_eq m (xr c) c (hxr c)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v12_eq, hagree c, hxr c, Cert.ReferenceIdeal.RefValue.ref_value (xr c)]

end Cert.Proof.Algebraic

end
-- ==== Proof.lean ====
/-
  The five claims about the attention kernel (softmax over the query axis, no scale) and its reference.
  The three frames: each program terminates from every memory, faults nowhere and leaves its input array unchanged;
  for the two kernel programs this is the run of their two kernel regions, for the reference its host run.
  The idealization rewrote nothing, so it is preserved trivially.  The algebraic claim: at the extended reals,
  under finite inputs, both programs end with the same result array.
-/
import proofs.«180204_j89017492177648_2_alg».proof.Defs
import proofs.«180204_j89017492177648_2_alg».proof.Proof.Gen.Kernel
import proofs.«180204_j89017492177648_2_alg».proof.Proof.Gen.KernelIdeal
import proofs.«180204_j89017492177648_2_alg».proof.Proof.Gen.ReferenceIdeal
import proofs.«180204_j89017492177648_2_alg».proof.Proof.Gen.Pre_finite_inputs
import proofs.«180204_j89017492177648_2_alg».proof.Proof.Kernel.Run
import proofs.«180204_j89017492177648_2_alg».proof.Proof.KernelIdeal.Run
import proofs.«180204_j89017492177648_2_alg».proof.Proof.RefFrame
import proofs.«180204_j89017492177648_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, Cert.Proof.RefFrame.frame_ri, preserves, Cert.Proof.Algebraic.algebraic⟩

end Cert.Proof

end
